-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temp" .f32 0x3DB504F3#32 ((1048576 / 11863283 : ℝ) : EReal)
  ∧ IdealRules.named_const.Statement Cert.KernelIdeal.κ "inv_temp" .f32 0x3DB504F3#32 ((1048576 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x128 : Shape := ⟨3, ![64, 4096, 128]⟩
abbrev S_ : Shape := ⟨0, ![]⟩

class Facts : Prop where
  bcast_S_S64x4096x128 : S_.BroadcastsInDim S64x4096x128 (![] : Fin 0 → Fin S64x4096x128.rank)
  reducesTo_S64x4096x128_S_d0_1_2 : S64x4096x128.ReducesTo [0, 1, 2] S_
  h_S_ : 0 < S_.numel

variable [Facts]

def fn {F : FTy → Type} [FloatOps F] (main_arg0 : FVec F S64x4096x128 .f32) (main_arg1 : FVec F S64x4096x128 .f32) (main_arg2 : FVec F S64x4096x128 .f32) : IVec S_ 1 :=
  let main_v0 : FVec F S64x4096x128 .f32 := Host.absf main_arg0
  let main_cst : FVec F S_ .f32 := constant S_ .f32 0x7F800000#32
  let main_v1 : FVec F S64x4096x128 .f32 := broadcastInDim S64x4096x128 ![] bcast_S_S64x4096x128 main_cst
  let main_v2 : IVec S64x4096x128 1 := cmpf .olt main_v0 main_v1
  let main_c : IVec S_ 1 := constantI S_ 1 1#1
  let main_v3 : IVec S_ 1 := (fun x v => Host.reduce IntOp.andi x v reducesTo_S64x4096x128_S_d0_1_2 h_S_) main_v2 main_c
  let main_v4 : FVec F S64x4096x128 .f32 := Host.absf main_arg1
  let main_cst_0 : FVec F S_ .f32 := constant S_ .f32 0x7F800000#32
  let main_v5 : FVec F S64x4096x128 .f32 := broadcastInDim S64x4096x128 ![] bcast_S_S64x4096x128 main_cst_0
  let main_v6 : IVec S64x4096x128 1 := cmpf .olt main_v4 main_v5
  let main_c_1 : IVec S_ 1 := constantI S_ 1 1#1
  let main_v7 : IVec S_ 1 := (fun x v => Host.reduce IntOp.andi x v reducesTo_S64x4096x128_S_d0_1_2 h_S_) main_v6 main_c_1
  let main_v8 : IVec S_ 1 := andi main_v3 main_v7
  let main_v9 : FVec F S64x4096x128 .f32 := Host.absf main_arg2
  let main_cst_2 : FVec F S_ .f32 := constant S_ .f32 0x7F800000#32
  let main_v10 : FVec F S64x4096x128 .f32 := broadcastInDim S64x4096x128 ![] bcast_S_S64x4096x128 main_cst_2
  let main_v11 : IVec S64x4096x128 1 := cmpf .olt main_v9 main_v10
  let main_c_3 : IVec S_ 1 := constantI S_ 1 1#1
  let main_v12 : IVec S_ 1 := (fun x v => Host.reduce IntOp.andi x v reducesTo_S64x4096x128_S_d0_1_2 h_S_) main_v11 main_c_3
  let main_v13 : IVec S_ 1 := andi main_v8 main_v12
  main_v13
-- ==== Kernel.lean ====
abbrev S64x4096x128 : Shape := ⟨3, ![64, 4096, 128]⟩
abbrev S64x128x128 : Shape := ⟨3, ![64, 128, 128]⟩
abbrev S2x4096x128 : Shape := ⟨3, ![2, 4096, 128]⟩
abbrev S2x128x128 : Shape := ⟨3, ![2, 128, 128]⟩
abbrev S128x128 : Shape := ⟨2, ![128, 128]⟩
abbrev S1x4096x128 : Shape := ⟨3, ![1, 4096, 128]⟩
abbrev S4096x128 : Shape := ⟨2, ![4096, 128]⟩
abbrev S1024x128 : Shape := ⟨2, ![1024, 128]⟩
abbrev S128 : Shape := ⟨1, ![128]⟩
abbrev S128x1 : Shape := ⟨2, ![128, 1]⟩
abbrev S1x128x128 : Shape := ⟨3, ![1, 128, 128]⟩

abbrev nBuf : Space → Nat
  | .hbm => 5
  | .vmem => 11
  | .smem => 0
  | _ => 0

abbrev bufTy : (tb : Table) → Fin (tcTables nBuf tb) → BufTy
  | .hbm, ⟨0, _⟩ => ⟨S64x4096x128, .f32⟩
  | .hbm, ⟨1, _⟩ => ⟨S64x4096x128, .f32⟩
  | .hbm, ⟨2, _⟩ => ⟨S64x4096x128, .f32⟩
  | .hbm, ⟨3, _⟩ => ⟨S64x4096x128, .f32⟩
  | .hbm, ⟨4, _⟩ => ⟨S64x128x128, .f32⟩
  | .local _ .vmem, ⟨0, _⟩ => ⟨S2x4096x128, .f32⟩
  | .local _ .vmem, ⟨1, _⟩ => ⟨S2x4096x128, .f32⟩
  | .local _ .vmem, ⟨2, _⟩ => ⟨S2x4096x128, .f32⟩
  | .local _ .vmem, ⟨3, _⟩ => ⟨S2x4096x128, .f32⟩
  | .local _ .vmem, ⟨4, _⟩ => ⟨S2x4096x128, .f32⟩
  | .local _ .vmem, ⟨5, _⟩ => ⟨S2x4096x128, .f32⟩
  | .local _ .vmem, ⟨6, _⟩ => ⟨S2x4096x128, .f32⟩
  | .local _ .vmem, ⟨7, _⟩ => ⟨S2x4096x128, .f32⟩
  | .local _ .vmem, ⟨8, _⟩ => ⟨S2x128x128, .f32⟩
  | .local _ .vmem, ⟨9, _⟩ => ⟨S2x128x128, .f32⟩
  | .local _ .vmem, ⟨10, _⟩ => ⟨S128x128, .f32⟩
  | _, _ => ⟨S64x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_2 : BitVec 32 := 0#32
  let c4_i32 : BitVec 32 := 4#32
  let v4 : BitVec 32 := Scalar.addi c0_i32_2 c4_i32
  let c1_i32 : BitVec 32 := 1#32
  ⟨c0_i32_2, v4, c1_i32⟩
def k0_mult1 (k0_t1 : Fin k0_t1_loop.trips) : BitVec 32 :=
  let c0_i32_39 : BitVec 32 := 0#32
  let c0_i32_2 : BitVec 32 := 0#32
  let c1_i32 : BitVec 32 := 1#32
  let arg7 : BitVec 32 := Scf.iv c0_i32_2 c1_i32 k0_t1
  let c1_i32_38 : BitVec 32 := 1#32
  let v40 : BitVec 32 := Scalar.muli arg7 c1_i32_38
  let v41 : BitVec 32 := Scalar.addi c0_i32_39 v40
  let c1024_i32 : BitVec 32 := 1024#32
  let v42 : BitVec 32 := Scalar.muli v41 c1024_i32
  v42
def k0_off1 (k0_t1 : Fin k0_t1_loop.trips) : Fin 2 → Nat :=
  let c0_i32_39 : BitVec 32 := 0#32
  let c0_i32_2 : BitVec 32 := 0#32
  let c1_i32 : BitVec 32 := 1#32
  let arg7 : BitVec 32 := Scf.iv c0_i32_2 c1_i32 k0_t1
  let c1_i32_38 : BitVec 32 := 1#32
  let v40 : BitVec 32 := Scalar.muli arg7 c1_i32_38
  let v41 : BitVec 32 := Scalar.addi c0_i32_39 v40
  let c1024_i32 : BitVec 32 := 1024#32
  let v42 : BitVec 32 := Scalar.muli v41 c1024_i32
  let v43 : BitVec 32 := v42
  let v46 : Index := Scalar.indexCast v43
  let c0_42 : Index := 0#32
  ![v46.toNat, 0]
@[reducible] def k0_t2_loop : Scf.Loop 32 :=
  let c0_i32_13 : BitVec 32 := 0#32
  let c4_i32_14 : BitVec 32 := 4#32
  let v19 : BitVec 32 := Scalar.addi c0_i32_13 c4_i32_14
  let c1_i32_15 : BitVec 32 := 1#32
  ⟨c0_i32_13, v19, c1_i32_15⟩
def k0_mult2 (k0_t2 : Fin k0_t2_loop.trips) : BitVec 32 :=
  let c0_i32_39 : BitVec 32 := 0#32
  let c0_i32_13 : BitVec 32 := 0#32
  let c1_i32_15 : BitVec 32 := 1#32
  let arg7 : BitVec 32 := Scf.iv c0_i32_13 c1_i32_15 k0_t2
  let c1_i32_38 : BitVec 32 := 1#32
  let v40 : BitVec 32 := Scalar.muli arg7 c1_i32_38
  let v41 : BitVec 32 := Scalar.addi c0_i32_39 v40
  let c1024_i32 : BitVec 32 := 1024#32
  let v42 : BitVec 32 := Scalar.muli v41 c1024_i32
  v42
def k0_off2 (k0_t2 : Fin k0_t2_loop.trips) : Fin 2 → Nat :=
  let c0_i32_39 : BitVec 32 := 0#32
  let c0_i32_13 : BitVec 32 := 0#32
  let c1_i32_15 : BitVec 32 := 1#32
  let arg7 : BitVec 32 := Scf.iv c0_i32_13 c1_i32_15 k0_t2
  let c1_i32_38 : BitVec 32 := 1#32
  let v40 : BitVec 32 := Scalar.muli arg7 c1_i32_38
  let v41 : BitVec 32 := Scalar.addi c0_i32_39 v40
  let c1024_i32 : BitVec 32 := 1024#32
  let v42 : BitVec 32 := Scalar.muli v41 c1024_i32
  let v43 : BitVec 32 := v42
  let v46 : Index := Scalar.indexCast v43
  let c0_42 : Index := 0#32
  ![v46.toNat, 0]
@[reducible] def k0_t3_loop : Scf.Loop 32 :=
  let c0_i32_22 : BitVec 32 := 0#32
  let c4_i32_23 : BitVec 32 := 4#32
  let v24 : BitVec 32 := Scalar.addi c0_i32_22 c4_i32_23
  let c1_i32_24 : BitVec 32 := 1#32
  ⟨c0_i32_22, v24, c1_i32_24⟩
def k0_mult3 (k0_t3 : Fin k0_t3_loop.trips) : BitVec 32 :=
  let c0_i32_39 : BitVec 32 := 0#32
  let c0_i32_22 : BitVec 32 := 0#32
  let c1_i32_24 : BitVec 32 := 1#32
  let arg7 : BitVec 32 := Scf.iv c0_i32_22 c1_i32_24 k0_t3
  let c1_i32_38 : BitVec 32 := 1#32
  let v40 : BitVec 32 := Scalar.muli arg7 c1_i32_38
  let v41 : BitVec 32 := Scalar.addi c0_i32_39 v40
  let c1024_i32 : BitVec 32 := 1024#32
  let v42 : BitVec 32 := Scalar.muli v41 c1024_i32
  v42
def k0_off3 (k0_t3 : Fin k0_t3_loop.trips) : Fin 2 → Nat :=
  let c0_i32_39 : BitVec 32 := 0#32
  let c0_i32_22 : BitVec 32 := 0#32
  let c1_i32_24 : BitVec 32 := 1#32
  let arg7 : BitVec 32 := Scf.iv c0_i32_22 c1_i32_24 k0_t3
  let c1_i32_38 : BitVec 32 := 1#32
  let v40 : BitVec 32 := Scalar.muli arg7 c1_i32_38
  let v41 : BitVec 32 := Scalar.addi c0_i32_39 v40
  let c1024_i32 : BitVec 32 := 1024#32
  let v42 : BitVec 32 := Scalar.muli v41 c1024_i32
  let v43 : BitVec 32 := v42
  let v46 : Index := Scalar.indexCast v43
  let c0_42 : Index := 0#32
  ![v46.toNat, 0]
@[reducible] def k0_t4_loop : Scf.Loop 32 :=
  let c0_i32_34 : BitVec 32 := 0#32
  let c4_i32_35 : BitVec 32 := 4#32
  let v39 : BitVec 32 := Scalar.addi c0_i32_34 c4_i32_35
  let c1_i32_36 : BitVec 32 := 1#32
  ⟨c0_i32_34, v39, c1_i32_36⟩
def k0_mult4 (k0_t4 : Fin k0_t4_loop.trips) : BitVec 32 :=
  let c0_i32_39 : BitVec 32 := 0#32
  let c0_i32_34 : BitVec 32 := 0#32
  let c1_i32_36 : BitVec 32 := 1#32
  let arg7 : BitVec 32 := Scf.iv c0_i32_34 c1_i32_36 k0_t4
  let c1_i32_38 : BitVec 32 := 1#32
  let v40 : BitVec 32 := Scalar.muli arg7 c1_i32_38
  let v41 : BitVec 32 := Scalar.addi c0_i32_39 v40
  let c1024_i32 : BitVec 32 := 1024#32
  let v42 : BitVec 32 := Scalar.muli v41 c1024_i32
  v42
def k0_off4 (k0_t4 : Fin k0_t4_loop.trips) : Fin 2 → Nat :=
  let c0_i32_39 : BitVec 32 := 0#32
  let c0_i32_34 : BitVec 32 := 0#32
  let c1_i32_36 : BitVec 32 := 1#32
  let arg7 : BitVec 32 := Scf.iv c0_i32_34 c1_i32_36 k0_t4
  let c1_i32_38 : BitVec 32 := 1#32
  let v40 : BitVec 32 := Scalar.muli arg7 c1_i32_38
  let v41 : BitVec 32 := Scalar.addi c0_i32_39 v40
  let c1024_i32 : BitVec 32 := 1024#32
  let v42 : BitVec 32 := Scalar.muli v41 c1024_i32
  let v43 : BitVec 32 := v42
  let v46 : Index := Scalar.indexCast v43
  let c0_42 : Index := 0#32
  ![v46.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2x4096x128_S1x4096x128_0_0_0 : ∀ a, (![0, 0, 0] : Fin 3 → Nat) a + S1x4096x128.size a ≤ S2x4096x128.size a
  squeezes_S1x4096x128_S4096x128 : S1x4096x128.Squeezes S4096x128
  h_S1024x128 : 0 < S1024x128.numel
  bitsLt_bf16_f32 : FTy.bits .bf16 < FTy.bits .f32
  reduces_S128x128_S128 : S128x128.Reduces [1] S128
  shapeCasts_S128_S128x1 : S128.ShapeCasts S128x1
  broadcasts_S128x1_S128x128 : S128x1.Broadcasts S128x128
  inb_S2x128x128_S1x128x128_0_0_0 : ∀ a, (![0, 0, 0] : Fin 3 → Nat) a + S1x128x128.size a ≤ S2x128x128.size a
  h_S1x128x128 : 0 < S1x128x128.numel
  shapeCasts_S1x128x128_S128x128 : S1x128x128.ShapeCasts S128x128
  shapeCasts_S128x128_S1x128x128 : S128x128.ShapeCasts S1x128x128
  inb_S2x4096x128_S1x4096x128_1_0_0 : ∀ a, (![1, 0, 0] : Fin 3 → Nat) a + S1x4096x128.size a ≤ S2x4096x128.size a
  inb_S2x128x128_S1x128x128_1_0_0 : ∀ a, (![1, 0, 0] : Fin 3 → Nat) a + S1x128x128.size a ≤ S2x128x128.size a
  dot_S1024x128_S1024x128_S128x128_0_0_1_1_n_n_wf : DotDims.WF S1024x128 S1024x128 S128x128 [0] [0] [1] [1] [] []
  dot_S1024x128_S128x128_S1024x128_1_0_0_1_n_n_wf : DotDims.WF S1024x128 S128x128 S1024x128 [1] [0] [0] [1] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x128.size a ≤ S4096x128.size a
  k0_t2_ok : k0_t2_loop.OK
  k0_mult2_dvd : ∀ k0_t2 : Fin k0_t2_loop.trips, 1024 ∣ (k0_mult2 k0_t2).toNat
  k0_off2_inb : ∀ k0_t2 : Fin k0_t2_loop.trips, ∀ a, (k0_off2 k0_t2) a + S1024x128.size a ≤ S4096x128.size a
  k0_t3_ok : k0_t3_loop.OK
  k0_mult3_dvd : ∀ k0_t3 : Fin k0_t3_loop.trips, 1024 ∣ (k0_mult3 k0_t3).toNat
  k0_off3_inb : ∀ k0_t3 : Fin k0_t3_loop.trips, ∀ a, (k0_off3 k0_t3) a + S1024x128.size a ≤ S4096x128.size a
  k0_t4_ok : k0_t4_loop.OK
  k0_mult4_dvd : ∀ k0_t4 : Fin k0_t4_loop.trips, 1024 ∣ (k0_mult4 k0_t4).toNat
  k0_off4_inb : ∀ k0_t4 : Fin k0_t4_loop.trips, ∀ a, (k0_off4 k0_t4) a + S1024x128.size a ≤ S4096x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x4096x128.size a ≤ S64x4096x128.size a
  hwx0_0 : ∀ i : grid0.Coords, EltTy.bits .f32 = 32 ∨ (Rect.block (s := S64x4096x128) S2x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x4096x128.size a ≤ S64x4096x128.size a
  hwx0_1 : ∀ i : grid0.Coords, EltTy.bits .f32 = 32 ∨ (Rect.block (s := S64x4096x128) S2x4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x4096x128.size a ≤ S64x4096x128.size a
  hwx0_2 : ∀ i : grid0.Coords, EltTy.bits .f32 = 32 ∨ (Rect.block (s := S64x4096x128) S2x4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x4096x128.size a ≤ S64x4096x128.size a
  hwx0_3 : ∀ i : grid0.Coords, EltTy.bits .f32 = 32 ∨ (Rect.block (s := S64x4096x128) S2x4096x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x128x128.size a ≤ S64x128x128.size a
  hwx0_4 : ∀ i : grid0.Coords, EltTy.bits .f32 = 32 ∨ (Rect.block (s := S64x128x128) S2x128x128.size (cc0_transform_4 i) (hinb0_4 i)).WholeWords (EltTy.packing .f32)

variable [Facts₀]

def dot_S1024x128_S1024x128_S128x128_0_0_1_1_n_n : DotDims S1024x128 S1024x128 S128x128 where
  lhsContracting := [0]
  rhsContracting := [0]
  lhsNonContracting := [1]
  rhsNonContracting := [1]
  lhsBatch := []
  rhsBatch := []
  wf := dot_S1024x128_S1024x128_S128x128_0_0_1_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg0) S2x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S2x4096x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S2x128x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x4096x128 : Shape := ⟨3, ![64, 4096, 128]⟩
abbrev S_ : Shape := ⟨0, ![]⟩
abbrev S64x128x128 : Shape := ⟨3, ![64, 128, 128]⟩
abbrev S64x128 : Shape := ⟨2, ![64, 128]⟩
abbrev S64x128x1 : Shape := ⟨3, ![64, 128, 1]⟩

abbrev nBuf : Space → Nat
  | .hbm => 22
  | .vmem => 0
  | .smem => 0
  | _ => 0

abbrev bufTy : (tb : Table) → Fin (tcTables nBuf tb) → BufTy
  | .hbm, ⟨0, _⟩ => ⟨S64x4096x128, .f32⟩
  | .hbm, ⟨1, _⟩ => ⟨S64x4096x128, .f32⟩
  | .hbm, ⟨2, _⟩ => ⟨S64x4096x128, .f32⟩
  | .hbm, ⟨3, _⟩ => ⟨S_, .f32⟩
  | .hbm, ⟨4, _⟩ => ⟨S64x4096x128, .f32⟩
  | .hbm, ⟨5, _⟩ => ⟨S64x4096x128, .f32⟩
  | .hbm, ⟨6, _⟩ => ⟨S64x128x128, .f32⟩
  | .hbm, ⟨7, _⟩ => ⟨S_, .f32⟩
  | .hbm, ⟨8, _⟩ => ⟨S64x128, .f32⟩
  | .hbm, ⟨9, _⟩ => ⟨S_, .f32⟩
  | .hbm, ⟨10, _⟩ => ⟨S64x128, .f32⟩
  | .hbm, ⟨11, _⟩ => ⟨S64x128, .f32⟩
  | .hbm, ⟨12, _⟩ => ⟨S64x128x1, .f32⟩
  | .hbm, ⟨13, _⟩ => ⟨S64x128x128, .f32⟩
  | .hbm, ⟨14, _⟩ => ⟨S64x128x128, .f32⟩
  | .hbm, ⟨15, _⟩ => ⟨S64x128x128, .f32⟩
  | .hbm, ⟨16, _⟩ => ⟨S_, .f32⟩
  | .hbm, ⟨17, _⟩ => ⟨S64x128, .f32⟩
  | .hbm, ⟨18, _⟩ => ⟨S64x128x1, .f32⟩
  | .hbm, ⟨19, _⟩ => ⟨S64x128x128, .f32⟩
  | .hbm, ⟨20, _⟩ => ⟨S64x128x128, .f32⟩
  | .hbm, ⟨21, _⟩ => ⟨S64x4096x128, .f32⟩
  | _, _ => ⟨S64x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S64x4096x128 : S_.BroadcastsInDim S64x4096x128 (![] : Fin 0 → Fin S64x4096x128.rank)
  reducesTo_S64x128x128_S64x128_d2 : S64x128x128.ReducesTo [2] S64x128
  h_S_ : 0 < S_.numel
  bcast_S_S64x128 : S_.BroadcastsInDim S64x128 (![] : Fin 0 → Fin S64x128.rank)
  bcast_S64x128_S64x128x1_0_1 : S64x128.BroadcastsInDim S64x128x1 (![0, 1] : Fin 2 → Fin S64x128x1.rank)
  bcast_S64x128x1_S64x128x128_0_1_2 : S64x128x1.BroadcastsInDim S64x128x128 (![0, 1, 2] : Fin 3 → Fin S64x128x128.rank)
  dot_S64x4096x128_S64x4096x128_S64x128x128_1_1_2_2_0_0_wf : DotDims.WF S64x4096x128 S64x4096x128 S64x128x128 [1] [1] [2] [2] [0] [0]
  dot_S64x4096x128_S64x128x128_S64x4096x128_2_1_1_2_0_0_wf : DotDims.WF S64x4096x128 S64x128x128 S64x4096x128 [2] [1] [1] [2] [0] [0]

variable [Facts₀]

def dot_S64x4096x128_S64x4096x128_S64x128x128_1_1_2_2_0_0 : DotDims S64x4096x128 S64x4096x128 S64x128x128 where
  lhsContracting := [1]
  rhsContracting := [1]
  lhsNonContracting := [2]
  rhsNonContracting := [2]
  lhsBatch := [0]
  rhsBatch := [0]
  wf := dot_S64x4096x128_S64x4096x128_S64x128x128_1_1_2_2_0_0_wf
def dot_S64x4096x128_S64x128x128_S64x4096x128_2_1_1_2_0_0 : DotDims S64x4096x128 S64x128x128 S64x4096x128 where
  lhsContracting := [2]
  rhsContracting := [1]
  lhsNonContracting := [1]
  rhsNonContracting := [2]
  lhsBatch := [0]
  rhsBatch := [0]
  wf := dot_S64x4096x128_S64x128x128_S64x4096x128_2_1_1_2_0_0_wf

class Facts : Prop extends Facts₀ where

variable [Facts]
-- ==== Proof.LoopsBits.lean ====
/-
  The four counted loops of the kernel body, each gone through once over a symbolic trip. The body handles two batch
  slices of its staged [2, 4096, 128] blocks, one after the other; for each, a first loop over the four chunks of 1024
  rows adds the product (chunk of k)ᵀ · (chunk of v, scaled) into a 128 × 128 scratch, and a second loop stores, chunk by
  chunk, (chunk of q) · (attention weights) into the same rows of the output's staging buffer. Every staging buffer is
  held whole throughout; a load or store through a batch slice touches only elements of the buffer it is a slice of.
-/
import proofs.«106405_j65223373357266_2_alg».proof.Proof.Gen.Kernel.Loops
import proofs.«106405_j65223373357266_2_alg».proof.Proof.Gen.Kernel.Frame

set_option maxRecDepth 16384
set_option maxHeartbeats 4000000

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scratch's one rectangle: all of it. -/
abbrev rectW : Rect S128x128 := Rect.unit (s := S128x128) ![0, 0] S128x128.size inb_S128x128_S128x128_0_0

/-- Batch slice 0 of a [2, 4096, 128] staging buffer, as the [4096, 128] memref the body addresses it by. -/
abbrev sl0 (a : Memref sig .tc .vmem S2x4096x128 .f32) : Memref sig .tc .vmem S4096x128 .f32 :=
  (a.slice (Rect.unit (s := S2x4096x128) ![0, 0, 0] S1x4096x128.size inb_S2x4096x128_S1x4096x128_0_0_0) (fun _ => rfl)).squeeze S4096x128 squeezes_S1x4096x128_S4096x128

/-- Every element a store through batch slice 0 touches is an element of the buffer. -/
theorem sl0_access_subset (a : Memref sig .tc .vmem S2x4096x128 .f32) (r : Rect S4096x128) :
    ((sl0 a).access r).set ⊆ a.view.set := by
  refine (View.set_slice_subset _ r).trans ?_
  show ((a.view.slice _).reshape _ _).set ⊆ _
  rw [View.set_reshape]
  exact View.set_slice_subset _ _

/-- Batch slice 1 of a [2, 4096, 128] staging buffer, as the [4096, 128] memref the body addresses it by. -/
abbrev sl1 (a : Memref sig .tc .vmem S2x4096x128 .f32) : Memref sig .tc .vmem S4096x128 .f32 :=
  (a.slice (Rect.unit (s := S2x4096x128) ![1, 0, 0] S1x4096x128.size inb_S2x4096x128_S1x4096x128_1_0_0) (fun _ => rfl)).squeeze S4096x128 squeezes_S1x4096x128_S4096x128

/-- Every element a store through batch slice 1 touches is an element of the buffer. -/
theorem sl1_access_subset (a : Memref sig .tc .vmem S2x4096x128 .f32) (r : Rect S4096x128) :
    ((sl1 a).access r).set ⊆ a.view.set := by
  refine (View.set_slice_subset _ r).trans ?_
  show ((a.view.slice _).reshape _ _).set ⊆ _
  rw [View.set_reshape]
  exact View.set_slice_subset _ _

/-! ### The accumulating loop of batch slice 0 -/

/-- Rows [1024 k, 1024 k + 1024) of batch slice 0 of a staged block: what trip k loads. -/
def ck1 (a : Memref sig .tc .vmem S2x4096x128 .f32) (X : BufTy.Contents (Elt F) a.view.ty) (k : Fin k0_t1_loop.trips) : Vec F S1024x128 .f32 :=
  (sl0 a).view.readAt (Elt F) (Rect.unit (s := S4096x128) (k0_off1 k) S1024x128.size (k0_off1_inb k)).toLoadRect X

/-- What the trips before k stored into the scratch, last first: each the scratch as the trip found it plus the product
    of the trip's chunk of k (transposed) with its chunk of v scaled. -/
def pbA1 (arg2 arg3 : Memref sig .tc .vmem S2x4096x128 .f32) (arg6 : Memref sig .tc .vmem S128x128 .f32)
    (X2 : BufTy.Contents (Elt F) arg2.view.ty) (X3 : BufTy.Contents (Elt F) arg3.view.ty) (G6 : BufTy.Contents (Elt F) arg6.view.ty) :
    ℕ → List (View.Piece (Elt F) S128x128 .f32)
  | 0 => []
  | k + 1 =>
    if h : k < k0_t1_loop.trips then
      (⟨rectW, k0_pay6 (ck1 arg2 X2 ⟨k, h⟩) (ck1 arg3 X3 ⟨k, h⟩)
          (arg6.view.readAt (Elt F) rectW.toLoadRect (arg6.view.writes (Elt F) G6 (pbA1 arg2 arg3 arg6 X2 X3 G6 k)))⟩ : View.Piece (Elt F) S128x128 .f32)
        :: pbA1 arg2 arg3 arg6 X2 X3 G6 k
    else pbA1 arg2 arg3 arg6 X2 X3 G6 k

theorem pbA1_succ (arg2 arg3 : Memref sig .tc .vmem S2x4096x128 .f32) (arg6 : Memref sig .tc .vmem S128x128 .f32)
    (X2 : BufTy.Contents (Elt F) arg2.view.ty) (X3 : BufTy.Contents (Elt F) arg3.view.ty) (G6 : BufTy.Contents (Elt F) arg6.view.ty) (k : Fin k0_t1_loop.trips) :
    pbA1 (F := F) arg2 arg3 arg6 X2 X3 G6 (k.val + 1)
      = (⟨rectW, k0_pay6 (ck1 arg2 X2 k) (ck1 arg3 X3 k)
          (arg6.view.readAt (Elt F) rectW.toLoadRect (arg6.view.writes (Elt F) G6 (pbA1 arg2 arg3 arg6 X2 X3 G6 k.val)))⟩ : View.Piece (Elt F) S128x128 .f32)
        :: pbA1 arg2 arg3 arg6 X2 X3 G6 k.val := by
  rw [pbA1.eq_2]; exact dif_pos k.isLt

/-- One trip: the two staged blocks are read and left as they were; the scratch takes one more store. -/
theorem tripA1 (𝒱 : Variants) (c : Dev nD) (bd : Option 𝒱.V) (i : grid0.Coords) (arg1 : Memref sig .tc .vmem S2x4096x128 .f32) (harg1 : arg1.IsWhole) (arg2 : Memref sig .tc .vmem S2x4096x128 .f32) (harg2 : arg2.IsWhole) (arg3 : Memref sig .tc .vmem S2x4096x128 .f32) (harg3 : arg3.IsWhole) (arg4 : Memref sig .tc .vmem S2x4096x128 .f32) (harg4 : arg4.IsWhole) (arg5 : Memref sig .tc .vmem S2x128x128 .f32) (harg5 : arg5.IsWhole) (arg6 : Memref sig .tc .vmem S128x128 .f32) (harg6 : arg6.IsWhole)
    (X2 : BufTy.Contents (Elt F) arg2.view.ty) (X3 : BufTy.Contents (Elt F) arg3.view.ty) (k : Fin k0_t1_loop.trips)
    (E : Set ℕ) (f6 : BufTy.Contents (Elt F) arg6.view.ty) :
    (iprop((arg2.view.loc (c : Thread nD τ) ↦[arg2.view.set]{fullShare} X2) ∗ (arg3.view.loc (c : Thread nD τ) ↦[arg3.view.set]{fullShare} X3)
        ∗ (arg6.view.loc (c : Thread nD τ) ↦[arg6.view.set]{fullShare} f6)) : sProp 𝕄)
      ⊢ wp frame (wpE (defs₀ (F := F)) 𝒱 (c : Thread nD τ) bd) E (k0_t1_body (F := F) i arg1 harg1 arg2 harg2 arg3 harg3 arg4 harg4 arg5 harg5 arg6 harg6 k PUnit.unit)
          (fun _ => iprop((arg2.view.loc (c : Thread nD τ) ↦[arg2.view.set]{fullShare} X2) ∗ (arg3.view.loc (c : Thread nD τ) ↦[arg3.view.set]{fullShare} X3)
            ∗ (arg6.view.loc (c : Thread nD τ) ↦[arg6.view.set]{fullShare}
                arg6.view.writes (Elt F) f6 [(⟨rectW, k0_pay6 (ck1 arg2 X2 k) (ck1 arg3 X3 k) (arg6.view.readAt (Elt F) rectW.toLoadRect f6)⟩ : View.Piece (Elt F) S128x128 .f32)]))) := by
  have hk : k.val < 4 := Nat.lt_of_lt_of_le k.isLt k0_t1_abs.2.1
  unfold k0_t1_body
  iintro ⟨H2, H3, H6⟩
  sl_exec
  sl_step
  isplitl [H2]; · iexact H2
  isplitl [H3]; · iexact H3
  iexact H6

set_option warn.classDefReducibility false in
/-- The loop by its invariant: before trip k the two staged blocks are as they were and the scratch holds the stores of the
    trips before k over what it held at loop entry. -/
@[sl_loop] def loopInvA1 (𝒱 : Variants) (c : Dev nD) (bd : Option 𝒱.V) (E : Set ℕ) (i : grid0.Coords) (arg1 : Memref sig .tc .vmem S2x4096x128 .f32) (harg1 : arg1.IsWhole) (arg2 : Memref sig .tc .vmem S2x4096x128 .f32) (harg2 : arg2.IsWhole) (arg3 : Memref sig .tc .vmem S2x4096x128 .f32) (harg3 : arg3.IsWhole) (arg4 : Memref sig .tc .vmem S2x4096x128 .f32) (harg4 : arg4.IsWhole) (arg5 : Memref sig .tc .vmem S2x128x128 .f32) (harg5 : arg5.IsWhole) (arg6 : Memref sig .tc .vmem S128x128 .f32) (harg6 : arg6.IsWhole)
    (X2 : BufTy.Contents (Elt F) arg2.view.ty) (X3 : BufTy.Contents (Elt F) arg3.view.ty) (G6 : BufTy.Contents (Elt F) arg6.view.ty) :
    LoopInvTy_k0_t1 (F := F) Unit ℕ (UR sig nD τ) ℕ 𝒱 c bd E i arg1 harg1 arg2 harg2 arg3 harg3 arg4 harg4 arg5 harg5 arg6 harg6 where
  inv := fun k _ => iprop((arg2.view.loc (c : Thread nD τ) ↦[arg2.view.set]{fullShare} X2) ∗ (arg3.view.loc (c : Thread nD τ) ↦[arg3.view.set]{fullShare} X3)
    ∗ (∃ f, (arg6.view.loc (c : Thread nD τ) ↦[arg6.view.set]{fullShare} f) ∗ ⌜f = arg6.view.writes (Elt F) G6 (pbA1 (F := F) arg2 arg3 arg6 X2 X3 G6 k)⌝))
  step k acc := by
    iintro ⟨H2, H3, ⟨%f6, H6, %h6⟩⟩
    iapply (wp_wand_r Idealize.ShloMosaic.frame (wpE (defs₀ (F := F)) 𝒱 (c : Thread nD τ) bd) E)
    isplitl [H2 H3 H6]
    · iapply (tripA1 (F := F) 𝒱 c bd i arg1 harg1 arg2 harg2 arg3 harg3 arg4 harg4 arg5 harg5 arg6 harg6 X2 X3 k E f6)
      isplitl [H2]; · iexact H2
      isplitl [H3]; · iexact H3
      iexact H6
    · iintro %_ ⟨H2, H3, H6⟩
      isplitl [H2]; · iexact H2
      isplitl [H3]; · iexact H3
      rw [pbA1_succ]
      iexists _; isplitl [H6]; · iexact H6
      ipureintro; rw [h6, ← View.writes_append]; rfl

/-! ### The streaming loop of batch slice 0 -/

/-- Rows [1024 k, 1024 k + 1024) of batch slice 0 of a staged block: what trip k loads. -/
def ck2 (a : Memref sig .tc .vmem S2x4096x128 .f32) (X : BufTy.Contents (Elt F) a.view.ty) (k : Fin k0_t2_loop.trips) : Vec F S1024x128 .f32 :=
  (sl0 a).view.readAt (Elt F) (Rect.unit (s := S4096x128) (k0_off2 k) S1024x128.size (k0_off2_inb k)).toLoadRect X

/-- What the trips before k stored through batch slice 0 of the output's staging buffer, last first: trip j's chunk of q
    against the attention weights, at rows [1024 j, 1024 j + 1024). -/
def pbO2 (arg1 : Memref sig .tc .vmem S2x4096x128 .f32) (X1 : BufTy.Contents (Elt F) arg1.view.ty) (v5 : Vec F S128x128 .f32) :
    ℕ → List (View.Piece (Elt F) S4096x128 .f32)
  | 0 => []
  | k + 1 =>
    if h : k < k0_t2_loop.trips then
      (⟨Rect.unit (s := S4096x128) (k0_off2 ⟨k, h⟩) S1024x128.size (k0_off2_inb ⟨k, h⟩), k0_pay9 v5 (ck2 arg1 X1 ⟨k, h⟩)⟩ : View.Piece (Elt F) S4096x128 .f32)
        :: pbO2 arg1 X1 v5 k
    else pbO2 arg1 X1 v5 k

theorem pbO2_succ (arg1 : Memref sig .tc .vmem S2x4096x128 .f32) (X1 : BufTy.Contents (Elt F) arg1.view.ty) (v5 : Vec F S128x128 .f32) (k : Fin k0_t2_loop.trips) :
    pbO2 (F := F) arg1 X1 v5 (k.val + 1)
      = (⟨Rect.unit (s := S4096x128) (k0_off2 k) S1024x128.size (k0_off2_inb k), k0_pay9 v5 (ck2 arg1 X1 k)⟩ : View.Piece (Elt F) S4096x128 .f32)
        :: pbO2 arg1 X1 v5 k.val := by
  rw [pbO2.eq_2]; exact dif_pos k.isLt

/-- One trip: the staged block of q is read and left as it was; the output's staging buffer takes one more store, through
    its batch slice 0. -/
theorem tripO2 (𝒱 : Variants) (c : Dev nD) (bd : Option 𝒱.V) (i : grid0.Coords) (arg1 : Memref sig .tc .vmem S2x4096x128 .f32) (harg1 : arg1.IsWhole) (arg2 : Memref sig .tc .vmem S2x4096x128 .f32) (harg2 : arg2.IsWhole) (arg3 : Memref sig .tc .vmem S2x4096x128 .f32) (harg3 : arg3.IsWhole) (arg4 : Memref sig .tc .vmem S2x4096x128 .f32) (harg4 : arg4.IsWhole) (arg5 : Memref sig .tc .vmem S2x128x128 .f32) (harg5 : arg5.IsWhole) (arg6 : Memref sig .tc .vmem S128x128 .f32) (harg6 : arg6.IsWhole) (v5 : Vec F S128x128 .f32)
    (X1 : BufTy.Contents (Elt F) arg1.view.ty) (k : Fin k0_t2_loop.trips)
    (E : Set ℕ) (f4 : BufTy.Contents (Elt F) arg4.view.ty) :
    (iprop((arg1.view.loc (c : Thread nD τ) ↦[arg1.view.set]{fullShare} X1) ∗ (arg4.view.loc (c : Thread nD τ) ↦[arg4.view.set]{fullShare} f4)) : sProp 𝕄)
      ⊢ wp frame (wpE (defs₀ (F := F)) 𝒱 (c : Thread nD τ) bd) E (k0_t2_body (F := F) i arg1 harg1 arg2 harg2 arg3 harg3 arg4 harg4 arg5 harg5 arg6 harg6 v5 k PUnit.unit)
          (fun _ => iprop((arg1.view.loc (c : Thread nD τ) ↦[arg1.view.set]{fullShare} X1)
            ∗ (arg4.view.loc (c : Thread nD τ) ↦[arg4.view.set]{fullShare}
                (sl0 arg4).view.writes (Elt F) f4 [(⟨Rect.unit (s := S4096x128) (k0_off2 k) S1024x128.size (k0_off2_inb k), k0_pay9 v5 (ck2 arg1 X1 k)⟩ : View.Piece (Elt F) S4096x128 .f32)]))) := by
  have hk : k.val < 4 := Nat.lt_of_lt_of_le k.isLt k0_t2_abs.2.1
  unfold k0_t2_body
  iintro ⟨H1, H4⟩
  sl_exec
  iapply (wp_store_writes₀ 𝒱 (c : Thread nD τ) bd E (m := sl0 arg4) (sl0_access_subset arg4 _)) $$ H4
  iintro H4
  sl_step
  isplitl [H1]; · iexact H1
  iexact H4

set_option warn.classDefReducibility false in
/-- The loop by its invariant: before trip k the staged block of q is as it was and the output's staging buffer holds the
    stores of the trips before k over what it held at loop entry. -/
@[sl_loop] def loopInvO2 (𝒱 : Variants) (c : Dev nD) (bd : Option 𝒱.V) (E : Set ℕ) (i : grid0.Coords) (arg1 : Memref sig .tc .vmem S2x4096x128 .f32) (harg1 : arg1.IsWhole) (arg2 : Memref sig .tc .vmem S2x4096x128 .f32) (harg2 : arg2.IsWhole) (arg3 : Memref sig .tc .vmem S2x4096x128 .f32) (harg3 : arg3.IsWhole) (arg4 : Memref sig .tc .vmem S2x4096x128 .f32) (harg4 : arg4.IsWhole) (arg5 : Memref sig .tc .vmem S2x128x128 .f32) (harg5 : arg5.IsWhole) (arg6 : Memref sig .tc .vmem S128x128 .f32) (harg6 : arg6.IsWhole) (v5 : Vec F S128x128 .f32)
    (X1 : BufTy.Contents (Elt F) arg1.view.ty) (G4 : BufTy.Contents (Elt F) arg4.view.ty) :
    LoopInvTy_k0_t2 (F := F) Unit ℕ (UR sig nD τ) ℕ 𝒱 c bd E i arg1 harg1 arg2 harg2 arg3 harg3 arg4 harg4 arg5 harg5 arg6 harg6 v5 where
  inv := fun k _ => iprop((arg1.view.loc (c : Thread nD τ) ↦[arg1.view.set]{fullShare} X1)
    ∗ (∃ f, (arg4.view.loc (c : Thread nD τ) ↦[arg4.view.set]{fullShare} f) ∗ ⌜f = (sl0 arg4).view.writes (Elt F) G4 (pbO2 (F := F) arg1 X1 v5 k)⌝))
  step k acc := by
    iintro ⟨H1, ⟨%f4, H4, %h4⟩⟩
    iapply (wp_wand_r Idealize.ShloMosaic.frame (wpE (defs₀ (F := F)) 𝒱 (c : Thread nD τ) bd) E)
    isplitl [H1 H4]
    · iapply (tripO2 (F := F) 𝒱 c bd i arg1 harg1 arg2 harg2 arg3 harg3 arg4 harg4 arg5 harg5 arg6 harg6 v5 X1 k E f4)
      isplitl [H1]; · iexact H1
      iexact H4
    · iintro %_ ⟨H1, H4⟩
      isplitl [H1]; · iexact H1
      rw [pbO2_succ]
      iexists _; isplitl [H4]; · iexact H4
      ipureintro; rw [h4, ← View.writes_append]; rfl

/-! ### The accumulating loop of batch slice 1 -/

/-- Rows [1024 k, 1024 k + 1024) of batch slice 1 of a staged block: what trip k loads. -/
def ck3 (a : Memref sig .tc .vmem S2x4096x128 .f32) (X : BufTy.Contents (Elt F) a.view.ty) (k : Fin k0_t3_loop.trips) : Vec F S1024x128 .f32 :=
  (sl1 a).view.readAt (Elt F) (Rect.unit (s := S4096x128) (k0_off3 k) S1024x128.size (k0_off3_inb k)).toLoadRect X

/-- What the trips before k stored into the scratch, last first: each the scratch as the trip found it plus the product
    of the trip's chunk of k (transposed) with its chunk of v scaled. -/
def pbA3 (arg2 arg3 : Memref sig .tc .vmem S2x4096x128 .f32) (arg6 : Memref sig .tc .vmem S128x128 .f32)
    (X2 : BufTy.Contents (Elt F) arg2.view.ty) (X3 : BufTy.Contents (Elt F) arg3.view.ty) (G6 : BufTy.Contents (Elt F) arg6.view.ty) :
    ℕ → List (View.Piece (Elt F) S128x128 .f32)
  | 0 => []
  | k + 1 =>
    if h : k < k0_t3_loop.trips then
      (⟨rectW, k0_pay1 (ck3 arg2 X2 ⟨k, h⟩) (ck3 arg3 X3 ⟨k, h⟩)
          (arg6.view.readAt (Elt F) rectW.toLoadRect (arg6.view.writes (Elt F) G6 (pbA3 arg2 arg3 arg6 X2 X3 G6 k)))⟩ : View.Piece (Elt F) S128x128 .f32)
        :: pbA3 arg2 arg3 arg6 X2 X3 G6 k
    else pbA3 arg2 arg3 arg6 X2 X3 G6 k

theorem pbA3_succ (arg2 arg3 : Memref sig .tc .vmem S2x4096x128 .f32) (arg6 : Memref sig .tc .vmem S128x128 .f32)
    (X2 : BufTy.Contents (Elt F) arg2.view.ty) (X3 : BufTy.Contents (Elt F) arg3.view.ty) (G6 : BufTy.Contents (Elt F) arg6.view.ty) (k : Fin k0_t3_loop.trips) :
    pbA3 (F := F) arg2 arg3 arg6 X2 X3 G6 (k.val + 1)
      = (⟨rectW, k0_pay1 (ck3 arg2 X2 k) (ck3 arg3 X3 k)
          (arg6.view.readAt (Elt F) rectW.toLoadRect (arg6.view.writes (Elt F) G6 (pbA3 arg2 arg3 arg6 X2 X3 G6 k.val)))⟩ : View.Piece (Elt F) S128x128 .f32)
        :: pbA3 arg2 arg3 arg6 X2 X3 G6 k.val := by
  rw [pbA3.eq_2]; exact dif_pos k.isLt

/-- One trip: the two staged blocks are read and left as they were; the scratch takes one more store. -/
theorem tripA3 (𝒱 : Variants) (c : Dev nD) (bd : Option 𝒱.V) (i : grid0.Coords) (arg1 : Memref sig .tc .vmem S2x4096x128 .f32) (harg1 : arg1.IsWhole) (arg2 : Memref sig .tc .vmem S2x4096x128 .f32) (harg2 : arg2.IsWhole) (arg3 : Memref sig .tc .vmem S2x4096x128 .f32) (harg3 : arg3.IsWhole) (arg4 : Memref sig .tc .vmem S2x4096x128 .f32) (harg4 : arg4.IsWhole) (arg5 : Memref sig .tc .vmem S2x128x128 .f32) (harg5 : arg5.IsWhole) (arg6 : Memref sig .tc .vmem S128x128 .f32) (harg6 : arg6.IsWhole)
    (X2 : BufTy.Contents (Elt F) arg2.view.ty) (X3 : BufTy.Contents (Elt F) arg3.view.ty) (k : Fin k0_t3_loop.trips)
    (E : Set ℕ) (f6 : BufTy.Contents (Elt F) arg6.view.ty) :
    (iprop((arg2.view.loc (c : Thread nD τ) ↦[arg2.view.set]{fullShare} X2) ∗ (arg3.view.loc (c : Thread nD τ) ↦[arg3.view.set]{fullShare} X3)
        ∗ (arg6.view.loc (c : Thread nD τ) ↦[arg6.view.set]{fullShare} f6)) : sProp 𝕄)
      ⊢ wp frame (wpE (defs₀ (F := F)) 𝒱 (c : Thread nD τ) bd) E (k0_t3_body (F := F) i arg1 harg1 arg2 harg2 arg3 harg3 arg4 harg4 arg5 harg5 arg6 harg6 k PUnit.unit)
          (fun _ => iprop((arg2.view.loc (c : Thread nD τ) ↦[arg2.view.set]{fullShare} X2) ∗ (arg3.view.loc (c : Thread nD τ) ↦[arg3.view.set]{fullShare} X3)
            ∗ (arg6.view.loc (c : Thread nD τ) ↦[arg6.view.set]{fullShare}
                arg6.view.writes (Elt F) f6 [(⟨rectW, k0_pay1 (ck3 arg2 X2 k) (ck3 arg3 X3 k) (arg6.view.readAt (Elt F) rectW.toLoadRect f6)⟩ : View.Piece (Elt F) S128x128 .f32)]))) := by
  have hk : k.val < 4 := Nat.lt_of_lt_of_le k.isLt k0_t3_abs.2.1
  unfold k0_t3_body
  iintro ⟨H2, H3, H6⟩
  sl_exec
  sl_step
  isplitl [H2]; · iexact H2
  isplitl [H3]; · iexact H3
  iexact H6

set_option warn.classDefReducibility false in
/-- The loop by its invariant: before trip k the two staged blocks are as they were and the scratch holds the stores of the
    trips before k over what it held at loop entry. -/
@[sl_loop] def loopInvA3 (𝒱 : Variants) (c : Dev nD) (bd : Option 𝒱.V) (E : Set ℕ) (i : grid0.Coords) (arg1 : Memref sig .tc .vmem S2x4096x128 .f32) (harg1 : arg1.IsWhole) (arg2 : Memref sig .tc .vmem S2x4096x128 .f32) (harg2 : arg2.IsWhole) (arg3 : Memref sig .tc .vmem S2x4096x128 .f32) (harg3 : arg3.IsWhole) (arg4 : Memref sig .tc .vmem S2x4096x128 .f32) (harg4 : arg4.IsWhole) (arg5 : Memref sig .tc .vmem S2x128x128 .f32) (harg5 : arg5.IsWhole) (arg6 : Memref sig .tc .vmem S128x128 .f32) (harg6 : arg6.IsWhole)
    (X2 : BufTy.Contents (Elt F) arg2.view.ty) (X3 : BufTy.Contents (Elt F) arg3.view.ty) (G6 : BufTy.Contents (Elt F) arg6.view.ty) :
    LoopInvTy_k0_t3 (F := F) Unit ℕ (UR sig nD τ) ℕ 𝒱 c bd E i arg1 harg1 arg2 harg2 arg3 harg3 arg4 harg4 arg5 harg5 arg6 harg6 where
  inv := fun k _ => iprop((arg2.view.loc (c : Thread nD τ) ↦[arg2.view.set]{fullShare} X2) ∗ (arg3.view.loc (c : Thread nD τ) ↦[arg3.view.set]{fullShare} X3)
    ∗ (∃ f, (arg6.view.loc (c : Thread nD τ) ↦[arg6.view.set]{fullShare} f) ∗ ⌜f = arg6.view.writes (Elt F) G6 (pbA3 (F := F) arg2 arg3 arg6 X2 X3 G6 k)⌝))
  step k acc := by
    iintro ⟨H2, H3, ⟨%f6, H6, %h6⟩⟩
    iapply (wp_wand_r Idealize.ShloMosaic.frame (wpE (defs₀ (F := F)) 𝒱 (c : Thread nD τ) bd) E)
    isplitl [H2 H3 H6]
    · iapply (tripA3 (F := F) 𝒱 c bd i arg1 harg1 arg2 harg2 arg3 harg3 arg4 harg4 arg5 harg5 arg6 harg6 X2 X3 k E f6)
      isplitl [H2]; · iexact H2
      isplitl [H3]; · iexact H3
      iexact H6
    · iintro %_ ⟨H2, H3, H6⟩
      isplitl [H2]; · iexact H2
      isplitl [H3]; · iexact H3
      rw [pbA3_succ]
      iexists _; isplitl [H6]; · iexact H6
      ipureintro; rw [h6, ← View.writes_append]; rfl

/-! ### The streaming loop of batch slice 1 -/

/-- Rows [1024 k, 1024 k + 1024) of batch slice 1 of a staged block: what trip k loads. -/
def ck4 (a : Memref sig .tc .vmem S2x4096x128 .f32) (X : BufTy.Contents (Elt F) a.view.ty) (k : Fin k0_t4_loop.trips) : Vec F S1024x128 .f32 :=
  (sl1 a).view.readAt (Elt F) (Rect.unit (s := S4096x128) (k0_off4 k) S1024x128.size (k0_off4_inb k)).toLoadRect X

/-- What the trips before k stored through batch slice 1 of the output's staging buffer, last first: trip j's chunk of q
    against the attention weights, at rows [1024 j, 1024 j + 1024). -/
def pbO4 (arg1 : Memref sig .tc .vmem S2x4096x128 .f32) (X1 : BufTy.Contents (Elt F) arg1.view.ty) (v25 : Vec F S128x128 .f32) :
    ℕ → List (View.Piece (Elt F) S4096x128 .f32)
  | 0 => []
  | k + 1 =>
    if h : k < k0_t4_loop.trips then
      (⟨Rect.unit (s := S4096x128) (k0_off4 ⟨k, h⟩) S1024x128.size (k0_off4_inb ⟨k, h⟩), k0_pay4 v25 (ck4 arg1 X1 ⟨k, h⟩)⟩ : View.Piece (Elt F) S4096x128 .f32)
        :: pbO4 arg1 X1 v25 k
    else pbO4 arg1 X1 v25 k

theorem pbO4_succ (arg1 : Memref sig .tc .vmem S2x4096x128 .f32) (X1 : BufTy.Contents (Elt F) arg1.view.ty) (v25 : Vec F S128x128 .f32) (k : Fin k0_t4_loop.trips) :
    pbO4 (F := F) arg1 X1 v25 (k.val + 1)
      = (⟨Rect.unit (s := S4096x128) (k0_off4 k) S1024x128.size (k0_off4_inb k), k0_pay4 v25 (ck4 arg1 X1 k)⟩ : View.Piece (Elt F) S4096x128 .f32)
        :: pbO4 arg1 X1 v25 k.val := by
  rw [pbO4.eq_2]; exact dif_pos k.isLt

/-- One trip: the staged block of q is read and left as it was; the output's staging buffer takes one more store, through
    its batch slice 1. -/
theorem tripO4 (𝒱 : Variants) (c : Dev nD) (bd : Option 𝒱.V) (i : grid0.Coords) (arg1 : Memref sig .tc .vmem S2x4096x128 .f32) (harg1 : arg1.IsWhole) (arg2 : Memref sig .tc .vmem S2x4096x128 .f32) (harg2 : arg2.IsWhole) (arg3 : Memref sig .tc .vmem S2x4096x128 .f32) (harg3 : arg3.IsWhole) (arg4 : Memref sig .tc .vmem S2x4096x128 .f32) (harg4 : arg4.IsWhole) (arg5 : Memref sig .tc .vmem S2x128x128 .f32) (harg5 : arg5.IsWhole) (arg6 : Memref sig .tc .vmem S128x128 .f32) (harg6 : arg6.IsWhole) (v25 : Vec F S128x128 .f32)
    (X1 : BufTy.Contents (Elt F) arg1.view.ty) (k : Fin k0_t4_loop.trips)
    (E : Set ℕ) (f4 : BufTy.Contents (Elt F) arg4.view.ty) :
    (iprop((arg1.view.loc (c : Thread nD τ) ↦[arg1.view.set]{fullShare} X1) ∗ (arg4.view.loc (c : Thread nD τ) ↦[arg4.view.set]{fullShare} f4)) : sProp 𝕄)
      ⊢ wp frame (wpE (defs₀ (F := F)) 𝒱 (c : Thread nD τ) bd) E (k0_t4_body (F := F) i arg1 harg1 arg2 harg2 arg3 harg3 arg4 harg4 arg5 harg5 arg6 harg6 v25 k PUnit.unit)
          (fun _ => iprop((arg1.view.loc (c : Thread nD τ) ↦[arg1.view.set]{fullShare} X1)
            ∗ (arg4.view.loc (c : Thread nD τ) ↦[arg4.view.set]{fullShare}
                (sl1 arg4).view.writes (Elt F) f4 [(⟨Rect.unit (s := S4096x128) (k0_off4 k) S1024x128.size (k0_off4_inb k), k0_pay4 v25 (ck4 arg1 X1 k)⟩ : View.Piece (Elt F) S4096x128 .f32)]))) := by
  have hk : k.val < 4 := Nat.lt_of_lt_of_le k.isLt k0_t4_abs.2.1
  unfold k0_t4_body
  iintro ⟨H1, H4⟩
  sl_exec
  iapply (wp_store_writes₀ 𝒱 (c : Thread nD τ) bd E (m := sl1 arg4) (sl1_access_subset arg4 _)) $$ H4
  iintro H4
  sl_step
  isplitl [H1]; · iexact H1
  iexact H4

set_option warn.classDefReducibility false in
/-- The loop by its invariant: before trip k the staged block of q is as it was and the output's staging buffer holds the
    stores of the trips before k over what it held at loop entry. -/
@[sl_loop] def loopInvO4 (𝒱 : Variants) (c : Dev nD) (bd : Option 𝒱.V) (E : Set ℕ) (i : grid0.Coords) (arg1 : Memref sig .tc .vmem S2x4096x128 .f32) (harg1 : arg1.IsWhole) (arg2 : Memref sig .tc .vmem S2x4096x128 .f32) (harg2 : arg2.IsWhole) (arg3 : Memref sig .tc .vmem S2x4096x128 .f32) (harg3 : arg3.IsWhole) (arg4 : Memref sig .tc .vmem S2x4096x128 .f32) (harg4 : arg4.IsWhole) (arg5 : Memref sig .tc .vmem S2x128x128 .f32) (harg5 : arg5.IsWhole) (arg6 : Memref sig .tc .vmem S128x128 .f32) (harg6 : arg6.IsWhole) (v25 : Vec F S128x128 .f32)
    (X1 : BufTy.Contents (Elt F) arg1.view.ty) (G4 : BufTy.Contents (Elt F) arg4.view.ty) :
    LoopInvTy_k0_t4 (F := F) Unit ℕ (UR sig nD τ) ℕ 𝒱 c bd E i arg1 harg1 arg2 harg2 arg3 harg3 arg4 harg4 arg5 harg5 arg6 harg6 v25 where
  inv := fun k _ => iprop((arg1.view.loc (c : Thread nD τ) ↦[arg1.view.set]{fullShare} X1)
    ∗ (∃ f, (arg4.view.loc (c : Thread nD τ) ↦[arg4.view.set]{fullShare} f) ∗ ⌜f = (sl1 arg4).view.writes (Elt F) G4 (pbO4 (F := F) arg1 X1 v25 k)⌝))
  step k acc := by
    iintro ⟨H1, ⟨%f4, H4, %h4⟩⟩
    iapply (wp_wand_r Idealize.ShloMosaic.frame (wpE (defs₀ (F := F)) 𝒱 (c : Thread nD τ) bd) E)
    isplitl [H1 H4]
    · iapply (tripO4 (F := F) 𝒱 c bd i arg1 harg1 arg2 harg2 arg3 harg3 arg4 harg4 arg5 harg5 arg6 harg6 v25 X1 k E f4)
      isplitl [H1]; · iexact H1
      iexact H4
    · iintro %_ ⟨H1, H4⟩
      isplitl [H1]; · iexact H1
      rw [pbO4_succ]
      iexists _; isplitl [H4]; · iexact H4
      ipureintro; rw [h4, ← View.writes_append]; rfl

end Cert.Kernel.Body

end
-- ==== Proof.LibWhole.lean ====
/-
  Loads and stores of a WHOLE rank-2 buffer, read back: a store through the rectangle at offsets zero of the buffer's
  own sizes leaves its payload whatever was stored before it; a load through that rectangle reads the contents — of a
  buffer as it stands, or of one whose last store was such a store.
-/
import Idealize.ShloMosaic.Lib.Pipeline.FrameBody
import Idealize.ShloMosaic.Lib.Pipeline.Value

namespace Cert.Lib.Whole

open Idealize.ShloMosaic

variable {Val : EltTy → Type} [∀ e, Nonempty (Val e)] {sg : RefSig} {κ : Kind} {sp : Space} {S : Shape} {e : EltTy}

/-- A store of the whole buffer, made last, leaves its payload, whatever was stored before. -/
theorem read_writes_whole (v : View sg κ sp S e) (f : v.ty.Contents Val) {off : Fin S.rank → Nat} (hoff : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero hoff inb y⟩),
    View.canon_cons_unit_zero hoff]

/-- A load of the whole buffer after such a store reads the payload. -/
theorem readCov_whole (v : View sg κ sp S e) {off : Fin S.rank → Nat} (hoff : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero hoff inb y⟩),
    View.canon_cons_unit_zero hoff, View.ld_unit_zero hoff]

/-- A load of the whole buffer reads its contents. -/
theorem readAt_whole (v : View sg κ sp S e) (f : v.ty.Contents Val) {off : Fin S.rank → Nat} (hoff : off = fun _ => 0)
    (inb : ∀ a, off a + S.size a ≤ S.size a) :
    v.readAt Val (Rect.unit off S.size inb).toLoadRect f = v.read Val f := by
  rw [View.readAt_eq_ld, View.ld_unit_zero hoff]

/-- The offsets `![0, 0]` are zero on both axes. -/
theorem zero2 : (![0, 0] : Fin 2 → Nat) = fun _ => 0 := funext fun a => by fin_cases a <;> rfl

end Cert.Lib.Whole
-- ==== Proof.RunBits.lean ====
/-
  The kernel body run once, at any grid point, on whole staging buffers: the three staged input blocks are read and left
  as they were; the scratch ends at some contents; the attention buffer ends holding, in its two batch slices, the row-wise
  softmax of what the scratch held after each accumulating loop; the output's staging buffer ends holding, through its two
  batch slices, the stores of the two streaming loops over whatever it held before.
-/
import proofs.«106405_j65223373357266_2_alg».proof.Proof.LoopsBits
import proofs.«106405_j65223373357266_2_alg».proof.Proof.LibWhole

set_option maxRecDepth 16384
set_option maxHeartbeats 4000000

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Lib.Whole

local notation "𝕄" => MT nD τ sig Unit (Elt F) ℕ (UR sig nD τ) ℕ

/-! ## What the scratch holds along the body -/

/-- The scratch after the zero fill that opens batch slice 0. -/
def G1 (arg6 : Memref sig .tc .vmem S128x128 .f32) : BufTy.Contents (Elt F) arg6.view.ty :=
  arg6.view.writes (Elt F) arg6.view.junk [(⟨rectW, k0_pay5⟩ : View.Piece (Elt F) S128x128 .f32)]

/-- Every store into the scratch up to the end of batch slice 0's accumulating loop, last first. -/
def LA1 (arg2 arg3 : Memref sig .tc .vmem S2x4096x128 .f32) (arg6 : Memref sig .tc .vmem S128x128 .f32) (X2 : BufTy.Contents (Elt F) arg2.view.ty) (X3 : BufTy.Contents (Elt F) arg3.view.ty) : List (View.Piece (Elt F) S128x128 .f32) :=
  pbA1 arg2 arg3 arg6 X2 X3 (G1 arg6) k0_t1_loop.trips ++ [(⟨rectW, k0_pay5⟩ : View.Piece (Elt F) S128x128 .f32)]

/-- Batch slice 0's logits: the scratch read whole after its accumulating loop. -/
def V5 (arg2 arg3 : Memref sig .tc .vmem S2x4096x128 .f32) (arg6 : Memref sig .tc .vmem S128x128 .f32) (X2 : BufTy.Contents (Elt F) arg2.view.ty) (X3 : BufTy.Contents (Elt F) arg3.view.ty) : Vec F S128x128 .f32 :=
  arg6.view.readCov (LA1 arg2 arg3 arg6 X2 X3) rectW.toLoadRect

/-- The scratch after the zero fill that opens batch slice 1. -/
def G3 (arg2 arg3 : Memref sig .tc .vmem S2x4096x128 .f32) (arg6 : Memref sig .tc .vmem S128x128 .f32) (X2 : BufTy.Contents (Elt F) arg2.view.ty) (X3 : BufTy.Contents (Elt F) arg3.view.ty) : BufTy.Contents (Elt F) arg6.view.ty :=
  arg6.view.writes (Elt F) arg6.view.junk ((⟨rectW, k0_pay10⟩ : View.Piece (Elt F) S128x128 .f32) :: LA1 arg2 arg3 arg6 X2 X3)

/-- Every store into the scratch up to the end of batch slice 1's accumulating loop, last first. -/
def LA3 (arg2 arg3 : Memref sig .tc .vmem S2x4096x128 .f32) (arg6 : Memref sig .tc .vmem S128x128 .f32) (X2 : BufTy.Contents (Elt F) arg2.view.ty) (X3 : BufTy.Contents (Elt F) arg3.view.ty) : List (View.Piece (Elt F) S128x128 .f32) :=
  pbA3 arg2 arg3 arg6 X2 X3 (G3 arg2 arg3 arg6 X2 X3) k0_t3_loop.trips ++ (⟨rectW, k0_pay10⟩ : View.Piece (Elt F) S128x128 .f32) :: LA1 arg2 arg3 arg6 X2 X3

/-- Batch slice 1's logits: the scratch read whole after its accumulating loop. -/
def V25 (arg2 arg3 : Memref sig .tc .vmem S2x4096x128 .f32) (arg6 : Memref sig .tc .vmem S128x128 .f32) (X2 : BufTy.Contents (Elt F) arg2.view.ty) (X3 : BufTy.Contents (Elt F) arg3.view.ty) : Vec F S128x128 .f32 :=
  arg6.view.readCov (LA3 arg2 arg3 arg6 X2 X3) rectW.toLoadRect

/-! ## What the two output buffers end with -/

/-- The attention buffer at the end: each batch slice stored once, over anything. -/
def C5 (arg2 arg3 : Memref sig .tc .vmem S2x4096x128 .f32) (arg6 : Memref sig .tc .vmem S128x128 .f32) (X2 : BufTy.Contents (Elt F) arg2.view.ty) (X3 : BufTy.Contents (Elt F) arg3.view.ty) (arg5 : Memref sig .tc .vmem S2x128x128 .f32) : BufTy.Contents (Elt F) arg5.view.ty :=
  arg5.view.writes (Elt F) arg5.view.junk
    [(⟨Rect.unit (s := S2x128x128) ![1, 0, 0] S1x128x128.size inb_S2x128x128_S1x128x128_1_0_0, k0_pay3 (V25 arg2 arg3 arg6 X2 X3)⟩ : View.Piece (Elt F) S2x128x128 .f32),
     (⟨Rect.unit (s := S2x128x128) ![0, 0, 0] S1x128x128.size inb_S2x128x128_S1x128x128_0_0_0, k0_pay8 (V5 arg2 arg3 arg6 X2 X3)⟩ : View.Piece (Elt F) S2x128x128 .f32)]

/-- The output's staging buffer at the end, over what it held before (f3): the four chunk stores of each streaming loop,
    through the loop's batch slice. -/
def C4 (arg2 arg3 : Memref sig .tc .vmem S2x4096x128 .f32) (arg6 : Memref sig .tc .vmem S128x128 .f32) (X2 : BufTy.Contents (Elt F) arg2.view.ty) (X3 : BufTy.Contents (Elt F) arg3.view.ty) (arg1 arg4 : Memref sig .tc .vmem S2x4096x128 .f32) (X1 : BufTy.Contents (Elt F) arg1.view.ty)
    (f3 : BufTy.Contents (Elt F) arg4.view.ty) : BufTy.Contents (Elt F) arg4.view.ty :=
  (sl1 arg4).view.writes (Elt F)
    ((sl0 arg4).view.writes (Elt F) f3 (pbO2 arg1 X1 (V5 arg2 arg3 arg6 X2 X3) k0_t2_loop.trips))
    (pbO4 arg1 X1 (V25 arg2 arg3 arg6 X2 X3) k0_t4_loop.trips)

/-! ## The first half: batch slice 0, and the zero fill that opens batch slice 1 -/

/-- The attention buffer after batch slice 0's store, over what it held before. -/
def C5a (arg2 arg3 : Memref sig .tc .vmem S2x4096x128 .f32) (arg6 : Memref sig .tc .vmem S128x128 .f32) (X2 : BufTy.Contents (Elt F) arg2.view.ty) (X3 : BufTy.Contents (Elt F) arg3.view.ty) (arg5 : Memref sig .tc .vmem S2x128x128 .f32)
    (f4 : BufTy.Contents (Elt F) arg5.view.ty) : BufTy.Contents (Elt F) arg5.view.ty :=
  arg5.view.writes (Elt F) f4
    [(⟨Rect.unit (s := S2x128x128) ![0, 0, 0] S1x128x128.size inb_S2x128x128_S1x128x128_0_0_0, k0_pay8 (V5 arg2 arg3 arg6 X2 X3)⟩ : View.Piece (Elt F) S2x128x128 .f32)]

/-- The output's staging buffer after batch slice 0's streaming loop, over what it held before. -/
def C4a (arg2 arg3 : Memref sig .tc .vmem S2x4096x128 .f32) (arg6 : Memref sig .tc .vmem S128x128 .f32) (X2 : BufTy.Contents (Elt F) arg2.view.ty) (X3 : BufTy.Contents (Elt F) arg3.view.ty) (arg1 arg4 : Memref sig .tc .vmem S2x4096x128 .f32) (X1 : BufTy.Contents (Elt F) arg1.view.ty)
    (f3 : BufTy.Contents (Elt F) arg4.view.ty) : BufTy.Contents (Elt F) arg4.view.ty :=
  (sl0 arg4).view.writes (Elt F) f3 (pbO2 arg1 X1 (V5 arg2 arg3 arg6 X2 X3) k0_t2_loop.trips)

/-- The first half of the body: the three staged blocks are read and left as they were; the output's staging buffer takes
    batch slice 0's four chunk stores, the attention buffer batch slice 0's softmax, and the scratch ends zero-filled over
    everything stored into it so far. -/
theorem part1Run (c : Dev nD) (i : grid0.Coords) (arg1 : Memref sig .tc .vmem S2x4096x128 .f32) (harg1 : arg1.IsWhole) (arg2 : Memref sig .tc .vmem S2x4096x128 .f32) (harg2 : arg2.IsWhole) (arg3 : Memref sig .tc .vmem S2x4096x128 .f32) (harg3 : arg3.IsWhole) (arg4 : Memref sig .tc .vmem S2x4096x128 .f32) (harg4 : arg4.IsWhole) (arg5 : Memref sig .tc .vmem S2x128x128 .f32) (harg5 : arg5.IsWhole) (arg6 : Memref sig .tc .vmem S128x128 .f32) (harg6 : arg6.IsWhole)
    (X1 : BufTy.Contents (Elt F) arg1.view.ty) (X2 : BufTy.Contents (Elt F) arg2.view.ty) (X3 : BufTy.Contents (Elt F) arg3.view.ty)
    (f3 : BufTy.Contents (Elt F) arg4.view.ty) (f4 : BufTy.Contents (Elt F) arg5.view.ty) (f5 : BufTy.Contents (Elt F) arg6.view.ty)
    (E : Set ℕ) (K : BitVec 32 → sProp 𝕄) :
      iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3)
          ∗ (arg4.view.loc (c : Thread nD τ) ↦[arg4.view.set]{fullShare} f3) ∗ (arg5.view.loc (c : Thread nD τ) ↦[arg5.view.set]{fullShare} f4) ∗ (arg6.view.loc (c : Thread nD τ) ↦[arg6.view.set]{fullShare} f5)
          ∗ (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3)
                ∗ (arg4.view.loc (c : Thread nD τ) ↦[arg4.view.set]{fullShare} C4a arg2 arg3 arg6 X2 X3 arg1 arg4 X1 f3)
                ∗ (arg5.view.loc (c : Thread nD τ) ↦[arg5.view.set]{fullShare} C5a arg2 arg3 arg6 X2 X3 arg5 f4)
                ∗ (arg6.view.loc (c : Thread nD τ) ↦[arg6.view.set]{fullShare} G3 arg2 arg3 arg6 X2 X3)) -∗ K 0#32))
          ⊢ wp frame (wpE (defs₀ (F := F)) Variants.none c none) E (k0_part1 i arg1 harg1 arg2 harg2 arg3 harg3 arg4 harg4 arg5 harg5 arg6 harg6) K := by
    simp only [k0_part1_eq_skeleton]; unfold k0_part1_skel
    iintro ⟨H0, H1, H2, H3, H4, H5, Hk⟩
    sl_exec
    sl_step
    sl_unfold_words
    iapply Hk
    isplitl [H0]; · iexact H0
    isplitl [H1]; · iexact H1
    isplitl [H2]; · iexact H2
    isplitl [H3]; · iexact H3
    isplitl [H4]; · iexact H4
    iexact H5

/-- Before trip k of batch slice 1's accumulating loop: the two staged blocks as they were, the scratch holding the stores of
    the trips before k over what it held at loop entry. -/
def invA3 (c : Dev nD) (arg2 arg3 : Memref sig .tc .vmem S2x4096x128 .f32) (arg6 : Memref sig .tc .vmem S128x128 .f32)
    (X2 : BufTy.Contents (Elt F) arg2.view.ty) (X3 : BufTy.Contents (Elt F) arg3.view.ty) (G6 : BufTy.Contents (Elt F) arg6.view.ty) :
    ℕ → Unit → sProp 𝕄 :=
  fun k _ => iprop((arg2.view.loc (c : Thread nD τ) ↦[arg2.view.set]{fullShare} X2) ∗ (arg3.view.loc (c : Thread nD τ) ↦[arg3.view.set]{fullShare} X3)
    ∗ (∃ f, (arg6.view.loc (c : Thread nD τ) ↦[arg6.view.set]{fullShare} f) ∗ ⌜f = arg6.view.writes (Elt F) G6 (pbA3 (F := F) arg2 arg3 arg6 X2 X3 G6 k)⌝))

/-- Before trip k of batch slice 1's streaming loop: the staged block of q as it was, the output's staging buffer holding the
    stores of the trips before k over what it held at loop entry. -/
def invO4 (c : Dev nD) (arg1 arg4 : Memref sig .tc .vmem S2x4096x128 .f32) (v25 : Vec F S128x128 .f32)
    (X1 : BufTy.Contents (Elt F) arg1.view.ty) (G4 : BufTy.Contents (Elt F) arg4.view.ty) :
    ℕ → Unit → sProp 𝕄 :=
  fun k _ => iprop((arg1.view.loc (c : Thread nD τ) ↦[arg1.view.set]{fullShare} X1)
    ∗ (∃ f, (arg4.view.loc (c : Thread nD τ) ↦[arg4.view.set]{fullShare} f) ∗ ⌜f = (sl1 arg4).view.writes (Elt F) G4 (pbO4 (F := F) arg1 X1 v25 k)⌝))

/-- The attention buffer's two batch-slice stores cover it: whatever it held before is nowhere read. -/
theorem attn_cover (arg5 : Memref sig .tc .vmem S2x128x128 .f32) (harg5 : arg5.IsWhole) (f4 : BufTy.Contents (Elt F) arg5.view.ty)
    (w0 : (Rect.unit (s := S2x128x128) ![0, 0, 0] S1x128x128.size inb_S2x128x128_S1x128x128_0_0_0).shape.Idx → Elt F .f32) (w1 : (Rect.unit (s := S2x128x128) ![1, 0, 0] S1x128x128.size inb_S2x128x128_S1x128x128_1_0_0).shape.Idx → Elt F .f32) :
    arg5.view.writes (Elt F) (arg5.view.writes (Elt F) f4 [(⟨Rect.unit (s := S2x128x128) ![0, 0, 0] S1x128x128.size inb_S2x128x128_S1x128x128_0_0_0, w0⟩ : View.Piece (Elt F) S2x128x128 .f32)])
        [(⟨Rect.unit (s := S2x128x128) ![1, 0, 0] S1x128x128.size inb_S2x128x128_S1x128x128_1_0_0, w1⟩ : View.Piece (Elt F) S2x128x128 .f32)]
      = arg5.view.writes (Elt F) arg5.view.junk
          [(⟨Rect.unit (s := S2x128x128) ![1, 0, 0] S1x128x128.size inb_S2x128x128_S1x128x128_1_0_0, w1⟩ : View.Piece (Elt F) S2x128x128 .f32), (⟨Rect.unit (s := S2x128x128) ![0, 0, 0] S1x128x128.size inb_S2x128x128_S1x128x128_0_0_0, w0⟩ : View.Piece (Elt F) S2x128x128 .f32)] := by
  have hc : LoadRect.covChk [Rect.unit (s := S2x128x128) ![1, 0, 0] S1x128x128.size inb_S2x128x128_S1x128x128_1_0_0, Rect.unit (s := S2x128x128) ![0, 0, 0] S1x128x128.size inb_S2x128x128_S1x128x128_0_0_0] (LoadRect.whole S2x128x128) (.split 0 1 (.leaf 1) (.leaf 0)) = true := by decide
  rw [← View.writes_append]
  exact Memref.writes_eq_junk_of_covChk harg5 f4 _ _ hc

/-! ## The body's triple -/

/-- The body at any point, on whole staging buffers holding the three input blocks x0 (q), x1 (k), x2 (v) and anything in the
    outputs' buffers and the scratch. -/
theorem kernelRun (c : Dev nD) (i : grid0.Coords) (arg1 : Memref sig .tc .vmem S2x4096x128 .f32) (harg1 : arg1.IsWhole) (arg2 : Memref sig .tc .vmem S2x4096x128 .f32) (harg2 : arg2.IsWhole) (arg3 : Memref sig .tc .vmem S2x4096x128 .f32) (harg3 : arg3.IsWhole) (arg4 : Memref sig .tc .vmem S2x4096x128 .f32) (harg4 : arg4.IsWhole) (arg5 : Memref sig .tc .vmem S2x128x128 .f32) (harg5 : arg5.IsWhole) (arg6 : Memref sig .tc .vmem S128x128 .f32) (harg6 : arg6.IsWhole)
    (x0 x1 x2 : Vec F S2x4096x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f3, arg4.view.loc (c : Thread nD τ) ↦[arg4.view.set]{fullShare} C4 arg2 arg3 arg6 (harg2.unread x1) (harg3.unread x2) arg1 arg4 (harg1.unread x0) f3)
                ∗ (arg5.view.loc (c : Thread nD τ) ↦[arg5.view.set]{fullShare} C5 arg2 arg3 arg6 (harg2.unread x1) (harg3.unread x2) arg5)
                ∗ (∃ d, owns (c : Thread nD τ) arg6 fullShare d)) -∗ K ⟨⟩))
          ⊢ wp frame (wpE (defs₀ (F := F)) Variants.none c none) E (cc0__rev_attn_kernel i arg1 harg1 arg2 harg2 arg3 harg3 arg4 harg4 arg5 harg5 arg6 harg6) K := by
    intro E K
    simp only [cc0__rev_attn_kernel_eq_skeleton]; unfold cc0__rev_attn_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    -- the first half
    rw [wp_bind]
    iapply (part1Run c i arg1 harg1 arg2 harg2 arg3 harg3 arg4 harg4 arg5 harg5 arg6 harg6 (harg1.unread x0) (harg2.unread x1) (harg3.unread x2) f3 f4 f5 E _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    beta_reduce
    -- batch slice 1's accumulating loop, by its invariant
    sl_for (invA3 c arg2 arg3 arg6 (harg2.unread x1) (harg3.unread x2) (G3 arg2 arg3 arg6 (harg2.unread x1) (harg3.unread x2))) $$ [H1 H2 H5]
    · exact (loopInvA3 Variants.none c none E i arg1 harg1 arg2 harg2 arg3 harg3 arg4 harg4 arg5 harg5 arg6 harg6 (harg2.unread x1) (harg3.unread x2) (G3 arg2 arg3 arg6 (harg2.unread x1) (harg3.unread x2))).step
    · unfold invA3
      isplitl [H1]; · iexact H1
      isplitl [H2]; · iexact H2
      iexists _; isplitl [H5]; · iexact H5
      ipureintro; rfl
    iintro %acc HL
    unfold invA3
    icases HL with ⟨H1, H2, ⟨%f6, H5, %h6⟩⟩
    subst h6
    -- the whole load of the scratch, and batch slice 1's store into the attention buffer
    set_option sl_exec.maxSteps 3 in sl_exec
    have h3 : (3 : ℕ) < k0_t3_loop.trips := by decide
    have ht4 : k0_t3_loop.trips = 4 := by decide
    have ht : k0_t3_loop.trips = (⟨3, h3⟩ : Fin k0_t3_loop.trips).val + 1 := ht4
    have hv : (kernelRun.sl.v25 arg2 harg2 arg3 harg3 arg6 x1 x2) = V25 arg2 arg3 arg6 (harg2.unread x1) (harg3.unread x2) := by
      have hL : (kernelRun.sl.v25 arg2 harg2 arg3 harg3 arg6 x1 x2) = arg6.view.readCov (pbA3 arg2 arg3 arg6 (harg2.unread x1) (harg3.unread x2) (G3 arg2 arg3 arg6 (harg2.unread x1) (harg3.unread x2)) k0_t3_loop.trips) rectW.toLoadRect := rfl
      rw [hL]; unfold V25 LA3
      rw [ht, pbA3_succ, List.cons_append, readCov_whole arg6.view zero2, readCov_whole arg6.view zero2]
    beta_reduce
    -- batch slice 1's streaming loop, by its invariant
    sl_for (invO4 c arg1 arg4 (kernelRun.sl.v25 arg2 harg2 arg3 harg3 arg6 x1 x2) (harg1.unread x0) (C4a arg2 arg3 arg6 (harg2.unread x1) (harg3.unread x2) arg1 arg4 (harg1.unread x0) f3)) $$ [H0 H3]
    · exact (loopInvO4 Variants.none c none E i arg1 harg1 arg2 harg2 arg3 harg3 arg4 harg4 arg5 harg5 arg6 harg6 (kernelRun.sl.v25 arg2 harg2 arg3 harg3 arg6 x1 x2) (harg1.unread x0) (C4a arg2 arg3 arg6 (harg2.unread x1) (harg3.unread x2) arg1 arg4 (harg1.unread x0) f3)).step
    · unfold invO4
      isplitl [H0]; · iexact H0
      iexists _; isplitl [H3]; · iexact H3
      ipureintro; rfl
    iintro %acc2 HL
    unfold invO4
    icases HL with ⟨H0, ⟨%f7, H3, %h7⟩⟩
    subst h7
    sl_exec
    sl_step
    sl_unfold_words
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists f3
      have e4 : C4 arg2 arg3 arg6 (harg2.unread x1) (harg3.unread x2) arg1 arg4 (harg1.unread x0) f3
          = (sl1 arg4).view.writes (Elt F) (C4a arg2 arg3 arg6 (harg2.unread x1) (harg3.unread x2) arg1 arg4 (harg1.unread x0) f3) (pbO4 arg1 (harg1.unread x0) (kernelRun.sl.v25 arg2 harg2 arg3 harg3 arg6 x1 x2) k0_t4_loop.trips) := by rw [hv]; rfl
      rw [e4]; iexact H3
    isplitl [H4]
    · have e5 : C5 arg2 arg3 arg6 (harg2.unread x1) (harg3.unread x2) arg5
          = arg5.view.writes (Elt F) (C5a arg2 arg3 arg6 (harg2.unread x1) (harg3.unread x2) arg5 f4)
              [(⟨Rect.unit (s := S2x128x128) ![1, 0, 0] S1x128x128.size inb_S2x128x128_S1x128x128_1_0_0, k0_pay3 (kernelRun.sl.v25 arg2 harg2 arg3 harg3 arg6 x1 x2)⟩ : View.Piece (Elt F) S2x128x128 .f32)] := by
        rw [hv]; exact (attn_cover arg5 harg5 f4 _ _).symm
      rw [e5]; iexact H4
    iexists _, _; isplitr; swap; · iexact H5
    ipureintro; rfl

end Cert.Kernel.Body

end
-- ==== Proof.SlicesBits.lean ====
/-
  The two batch slices of a staged [2, 4096, 128] buffer, and the chunks of 1024 rows the body's loops take from them and
  store into them, read entry by entry. Batch slice b is the buffer's rectangle [b, b + 1) × [0, 4096) × [0, 128) with its
  unit axis dropped, so its entry (r, e) is the buffer's entry (b, r, e); the two slices share no element, so stores through
  one are not seen through the other; trip k's chunk is rows [1024 k, 1024 k + 1024) of the slice; and the four stores of a
  streaming loop, at the four chunks, tile the slice, so that afterwards row r holds chunk r / 1024's payload at its
  row r % 1024, whatever the slice held before. All of it is about placements of indices: it holds at any float values.
-/
import proofs.«106405_j65223373357266_2_alg».proof.Proof.LoopsBits
import Idealize.ShloMosaic.Lib.ValueIdx
import Idealize.ShloMosaic.Lib.Pipeline.Value

set_option maxRecDepth 16384

noncomputable section

namespace Cert.Kernel.Slices

open Cert.Kernel Cert.Kernel.Gen Cert.Kernel.Body Idealize.ShloMosaic Idealize.ShloMosaic.ValueIdx

variable {F : FTy → Type} [FloatOps F]

/-! ## A batch slice's entries are the buffer's -/

/-- Row r, column e of a [4096, 128] array sits at the row-major position of (0, r, e) in [1, 4096, 128]. -/
theorem reshape_row (h : S4096x128.numel = (⟨3, S1x4096x128.size⟩ : Shape).numel) (r : Fin 4096) (e : Fin 128) :
    Shape.reshapeEquiv h (ix2 r e) = (ix3 (0 : Fin 1) r e : (⟨3, S1x4096x128.size⟩ : Shape).Idx) :=
  Shape.reshapeEquiv_eq_of_rowMajor h (by
    rw [Shape.rowMajor_val_two, Shape.rowMajor_val_three]
    show ((0 : Fin 1).val * 4096 + r.val) * 128 + e.val = r.val * 128 + e.val
    simp)

/-- The rectangle of one batch in [2, 4096, 128], at offsets (b, 0, 0), places (0, r, e) at (b, r, e). -/
theorem batch_emb (off : Fin 3 → ℕ) (inb : ∀ a, off a + S1x4096x128.size a ≤ S2x4096x128.size a) (b : Fin 2)
    (h0 : off 0 = b.val) (h1 : off 1 = 0) (h2 : off 2 = 0) (r : Fin 4096) (e : Fin 128) :
    (Rect.unit (s := S2x4096x128) off S1x4096x128.size inb).emb (ix3 (0 : Fin 1) r e) = ix3 b r e := by
  funext c; apply Fin.ext
  rw [Rect.emb_apply]
  match c with
  | ⟨0, _⟩ => show off 0 + 1 * (0 : Fin 1).val = b.val; rw [h0]; simp
  | ⟨1, _⟩ => show off 1 + 1 * r.val = r.val; rw [h1]; simp
  | ⟨2, _⟩ => show off 2 + 1 * e.val = e.val; rw [h2]; simp

/-- Batch slice 0 places (r, e) where the buffer places (0, r, e). -/
theorem emb_sl0 (a : Memref sig .tc .vmem S2x4096x128 .f32) (r : Fin 4096) (e : Fin 128) :
    (sl0 a).view.emb (ix2 r e) = a.view.emb (ix3 (0 : Fin 2) r e) := by
  show a.view.emb ((Rect.unit (s := S2x4096x128) ![0, 0, 0] S1x4096x128.size inb_S2x4096x128_S1x4096x128_0_0_0).emb
    (Shape.reshapeEquiv _ (ix2 r e))) = _
  rw [reshape_row, batch_emb _ _ (0 : Fin 2) rfl rfl rfl]

/-- Batch slice 1 places (r, e) where the buffer places (1, r, e). -/
theorem emb_sl1 (a : Memref sig .tc .vmem S2x4096x128 .f32) (r : Fin 4096) (e : Fin 128) :
    (sl1 a).view.emb (ix2 r e) = a.view.emb (ix3 (1 : Fin 2) r e) := by
  show a.view.emb ((Rect.unit (s := S2x4096x128) ![1, 0, 0] S1x4096x128.size inb_S2x4096x128_S1x4096x128_1_0_0).emb
    (Shape.reshapeEquiv _ (ix2 r e))) = _
  rw [reshape_row, batch_emb _ _ (1 : Fin 2) rfl rfl rfl]

/-- A read through batch slice 0 at (r, e) is the buffer's element (0, r, e). -/
theorem read_sl0 (a : Memref sig .tc .vmem S2x4096x128 .f32) (g : BufTy.Contents (Elt F) a.view.ty) (r : Fin 4096) (e : Fin 128) :
    (sl0 a).view.read (Elt F) g (ix2 r e) = a.view.read (Elt F) g (ix3 (0 : Fin 2) r e) := by
  rw [View.read_apply, View.read_apply, emb_sl0]

/-- A read through batch slice 1 at (r, e) is the buffer's element (1, r, e). -/
theorem read_sl1 (a : Memref sig .tc .vmem S2x4096x128 .f32) (g : BufTy.Contents (Elt F) a.view.ty) (r : Fin 4096) (e : Fin 128) :
    (sl1 a).view.read (Elt F) g (ix2 r e) = a.view.read (Elt F) g (ix3 (1 : Fin 2) r e) := by
  rw [View.read_apply, View.read_apply, emb_sl1]

/-! ## Stores through one batch slice are not seen through the other -/

/-- The elements under batch slice 0: the buffer's elements under the rectangle [0, 1) × [0, 4096) × [0, 128). -/
theorem set_sl0 (a : Memref sig .tc .vmem S2x4096x128 .f32) :
    (sl0 a).view.set
      = (Rect.unit (s := S2x4096x128) ![0, 0, 0] S1x4096x128.size inb_S2x4096x128_S1x4096x128_0_0_0).set.map a.view.emb := by
  show ((a.view.slice _).reshape _ _).set = _
  rw [View.set_reshape, View.set_slice]

/-- The elements under batch slice 1: the buffer's elements under the rectangle [1, 2) × [0, 4096) × [0, 128). -/
theorem set_sl1 (a : Memref sig .tc .vmem S2x4096x128 .f32) :
    (sl1 a).view.set
      = (Rect.unit (s := S2x4096x128) ![1, 0, 0] S1x4096x128.size inb_S2x4096x128_S1x4096x128_1_0_0).set.map a.view.emb := by
  show ((a.view.slice _).reshape _ _).set = _
  rw [View.set_reshape, View.set_slice]

/-- The two batch slices share no element of the buffer: their rectangles are separated on the leading axis. -/
theorem sl_disjoint (a : Memref sig .tc .vmem S2x4096x128 .f32) : Disjoint (sl0 a).view.set (sl1 a).view.set := by
  rw [set_sl0, set_sl1, Finset.disjoint_map]
  exact Rect.unit_disjoint 0 (Or.inl (by decide))

/-- Any list of stores through batch slice 1 leaves what batch slice 0 reads as it was. -/
theorem read_sl0_writes_sl1 (a : Memref sig .tc .vmem S2x4096x128 .f32) (g : BufTy.Contents (Elt F) a.view.ty)
    (L : List (View.Piece (Elt F) S4096x128 .f32)) :
    (sl0 a).view.read (Elt F) ((sl1 a).view.writes (Elt F) g L) = (sl0 a).view.read (Elt F) g := by
  induction L with
  | nil => rfl
  | cons p L ih =>
    rw [View.writes_cons, ← ih]
    refine View.read_congr fun i hi => View.write_of_not_mem _ _ _ fun hm => ?_
    rw [View.setOn_univ] at hm
    exact Finset.disjoint_left.mp (sl_disjoint a) hi (View.set_slice_subset _ p.1 hm)

/-- Any list of stores through batch slice 0 leaves what batch slice 1 reads as it was. -/
theorem read_sl1_writes_sl0 (a : Memref sig .tc .vmem S2x4096x128 .f32) (g : BufTy.Contents (Elt F) a.view.ty)
    (L : List (View.Piece (Elt F) S4096x128 .f32)) :
    (sl1 a).view.read (Elt F) ((sl0 a).view.writes (Elt F) g L) = (sl1 a).view.read (Elt F) g := by
  induction L with
  | nil => rfl
  | cons p L ih =>
    rw [View.writes_cons, ← ih]
    refine View.read_congr fun i hi => View.write_of_not_mem _ _ _ fun hm => ?_
    rw [View.setOn_univ] at hm
    exact Finset.disjoint_right.mp (sl_disjoint a) hi (View.set_slice_subset _ p.1 hm)

/-! ## A trip's chunk, entry by entry -/

/-- A load of 1024 rows from row 1024 m of a [4096, 128] view reads, at (j, d), the view at (1024 m + j, d). -/
theorem readAt_chunk (v : View sig .tc .vmem S4096x128 .f32) (X : BufTy.Contents (Elt F) v.ty) (off : Fin 2 → ℕ)
    (inb : ∀ a, off a + S1024x128.size a ≤ S4096x128.size a) (m : ℕ) (hoff : off = ![1024 * m, 0])
    (j : Fin 1024) (d : Fin 128) (h : 1024 * m + j.val < 4096) :
    v.readAt (Elt F) (Rect.unit (s := S4096x128) off S1024x128.size inb).toLoadRect X (ix2 j d)
      = v.read (Elt F) X (ix2 (⟨1024 * m + j.val, h⟩ : Fin 4096) d) := by
  subst hoff
  rw [View.readAt_apply]
  refine congrArg (v.read (Elt F) X) (funext fun c => Fin.ext ?_)
  rw [LoadRect.idx_apply]
  match c with
  | ⟨0, _⟩ => show 1024 * m + 1 * j.val = 1024 * m + j.val; rw [Nat.one_mul]
  | ⟨1, _⟩ => show 0 + 1 * d.val = d.val; rw [Nat.one_mul, Nat.zero_add]

/-- Row 1024 k + j of a chunk below the fourth is a row of the slice. -/
theorem chunk_row_lt {T : ℕ} (hT : T ≤ 4) (k : Fin T) (j : Fin 1024) : 1024 * k.val + j.val < 4096 := by
  have := k.isLt; have := j.isLt; omega

/-- Trip k's chunk of batch slice 0 in the accumulating loop, at (j, d): the slice's row 1024 k + j. -/
theorem ck1_apply (a : Memref sig .tc .vmem S2x4096x128 .f32) (X : BufTy.Contents (Elt F) a.view.ty) (k : Fin k0_t1_loop.trips)
    (j : Fin 1024) (d : Fin 128) (h : 1024 * k.val + j.val < 4096) :
    ck1 a X k (ix2 j d) = (sl0 a).view.read (Elt F) X (ix2 (⟨1024 * k.val + j.val, h⟩ : Fin 4096) d) :=
  readAt_chunk (sl0 a).view X _ _ k.val (k0_off1_eq k) j d h

/-- Trip k's chunk of batch slice 0 in the streaming loop, at (j, d): the slice's row 1024 k + j. -/
theorem ck2_apply (a : Memref sig .tc .vmem S2x4096x128 .f32) (X : BufTy.Contents (Elt F) a.view.ty) (k : Fin k0_t2_loop.trips)
    (j : Fin 1024) (d : Fin 128) (h : 1024 * k.val + j.val < 4096) :
    ck2 a X k (ix2 j d) = (sl0 a).view.read (Elt F) X (ix2 (⟨1024 * k.val + j.val, h⟩ : Fin 4096) d) :=
  readAt_chunk (sl0 a).view X _ _ k.val (k0_off2_eq k) j d h

/-- Trip k's chunk of batch slice 1 in the accumulating loop, at (j, d): the slice's row 1024 k + j. -/
theorem ck3_apply (a : Memref sig .tc .vmem S2x4096x128 .f32) (X : BufTy.Contents (Elt F) a.view.ty) (k : Fin k0_t3_loop.trips)
    (j : Fin 1024) (d : Fin 128) (h : 1024 * k.val + j.val < 4096) :
    ck3 a X k (ix2 j d) = (sl1 a).view.read (Elt F) X (ix2 (⟨1024 * k.val + j.val, h⟩ : Fin 4096) d) :=
  readAt_chunk (sl1 a).view X _ _ k.val (k0_off3_eq k) j d h

/-- Trip k's chunk of batch slice 1 in the streaming loop, at (j, d): the slice's row 1024 k + j. -/
theorem ck4_apply (a : Memref sig .tc .vmem S2x4096x128 .f32) (X : BufTy.Contents (Elt F) a.view.ty) (k : Fin k0_t4_loop.trips)
    (j : Fin 1024) (d : Fin 128) (h : 1024 * k.val + j.val < 4096) :
    ck4 a X k (ix2 j d) = (sl1 a).view.read (Elt F) X (ix2 (⟨1024 * k.val + j.val, h⟩ : Fin 4096) d) :=
  readAt_chunk (sl1 a).view X _ _ k.val (k0_off4_eq k) j d h

/-! ## The streaming loops' stores, read back -/

/-- Each of the four loops makes four trips. -/
theorem trips1 : k0_t1_loop.trips = 4 := by decide
theorem trips2 : k0_t2_loop.trips = 4 := by decide
theorem trips3 : k0_t3_loop.trips = 4 := by decide
theorem trips4 : k0_t4_loop.trips = 4 := by decide

/-- A row of the slice lies in one of the four chunks, -/
theorem row_div_lt {T : ℕ} (hT : T = 4) (r : Fin 4096) : r.val / 1024 < T := by
  have := r.isLt; omega

/-- at a row of that chunk. -/
theorem row_mod_lt (r : Fin 4096) : r.val % 1024 < 1024 := Nat.mod_lt _ (by norm_num)

/-- Stores of 1024-row chunks into a [4096, 128] view, one for each k below 4 at rows [1024 k, 1024 k + 1024), in any order
    and over any prior contents: row r reads chunk r / 1024's payload at its row r % 1024. -/
theorem read_writes_chunks {T : ℕ} (hT : T = 4) (v : View sig .tc .vmem S4096x128 .f32) (g : BufTy.Contents (Elt F) v.ty)
    (off : Fin T → Fin 2 → ℕ) (inb : ∀ k a, off k a + S1024x128.size a ≤ S4096x128.size a)
    (hoff : ∀ k, off k = ![1024 * k.val, 0]) (pay : Fin T → Vec F S1024x128 .f32)
    (L : List (View.Piece (Elt F) S4096x128 .f32))
    (hL : ∀ p, p ∈ L ↔ ∃ k : Fin T, p = (⟨Rect.unit (s := S4096x128) (off k) S1024x128.size (inb k), pay k⟩ : View.Piece (Elt F) S4096x128 .f32))
    (r : Fin 4096) (e : Fin 128) (hq : r.val / 1024 < T) (hm : r.val % 1024 < 1024) :
    v.read (Elt F) (v.writes (Elt F) g L) (ix2 r e) = pay ⟨r.val / 1024, hq⟩ (ix2 ⟨r.val % 1024, hm⟩ e) := by
  subst hT
  refine View.read_writes_apply_of_pieces v g
    (fun y => pay ⟨(y 0).val / 1024, by have := idx2_lt0 y; omega⟩ (ix2 ⟨(y 0).val % 1024, Nat.mod_lt _ (by norm_num)⟩ (y 1)))
    L ?_ (ix2 r e) ?_
  · intro p hp x
    obtain ⟨k, rfl⟩ := (hL p).mp hp
    have hx0 : (x 0).val < 1024 := (x 0).isLt
    have e0 : off k 0 = 1024 * k.val := congrFun (hoff k) 0
    have e1 : off k 1 = 0 := congrFun (hoff k) 1
    have h0 : ((Rect.unit (s := S4096x128) (off k) S1024x128.size (inb k)).emb x 0).val = 1024 * k.val + (x 0).val := by
      rw [Rect.emb_apply]; show off k 0 + 1 * (x 0).val = _; rw [e0, Nat.one_mul]
    have h1 : ((Rect.unit (s := S4096x128) (off k) S1024x128.size (inb k)).emb x 1).val = (x 1).val := by
      rw [Rect.emb_apply]; show off k 1 + 1 * (x 1).val = _; rw [e1, Nat.one_mul, Nat.zero_add]
    have hk : (⟨((Rect.unit (s := S4096x128) (off k) S1024x128.size (inb k)).emb x 0).val / 1024,
        by rw [h0]; have := k.isLt; omega⟩ : Fin 4) = k := Fin.ext (by show _ / 1024 = k.val; rw [h0]; omega)
    show pay k x = pay _ _
    rw [hk]
    refine congrArg (pay k) (funext fun c => Fin.ext ?_)
    match c with
    | ⟨0, _⟩ => show (x 0).val = _ % 1024; rw [h0]; omega
    | ⟨1, _⟩ => exact h1.symm
  · have hr : r.val < 4096 := r.isLt
    have e0 : off ⟨r.val / 1024, hq⟩ 0 = 1024 * (r.val / 1024) := congrFun (hoff ⟨r.val / 1024, hq⟩) 0
    have e1 : off ⟨r.val / 1024, hq⟩ 1 = 0 := congrFun (hoff ⟨r.val / 1024, hq⟩) 1
    refine ⟨(⟨Rect.unit (s := S4096x128) (off ⟨r.val / 1024, hq⟩) S1024x128.size (inb ⟨r.val / 1024, hq⟩), pay ⟨r.val / 1024, hq⟩⟩ :
      View.Piece (Elt F) S4096x128 .f32), (hL _).mpr ⟨_, rfl⟩, ?_⟩
    show ix2 r e ∈ (Rect.unit (s := S4096x128) (off ⟨r.val / 1024, hq⟩) S1024x128.size (inb ⟨r.val / 1024, hq⟩)).set
    refine (Rect.mem_set_unit (inb := inb ⟨r.val / 1024, hq⟩)).mpr fun c => ?_
    match c with
    | ⟨0, _⟩ =>
      show off ⟨r.val / 1024, hq⟩ 0 ≤ r.val ∧ r.val < off ⟨r.val / 1024, hq⟩ 0 + 1024
      rw [e0]; omega
    | ⟨1, _⟩ =>
      show off ⟨r.val / 1024, hq⟩ 1 ≤ e.val ∧ e.val < off ⟨r.val / 1024, hq⟩ 1 + 128
      rw [e1]; have := e.isLt; omega

/-- The stores of the first batch slice's streaming loop before trip n are the chunks' stores of the trips below n. -/
theorem mem_pbO2 (arg1 : Memref sig .tc .vmem S2x4096x128 .f32) (X1 : BufTy.Contents (Elt F) arg1.view.ty) (v : Vec F S128x128 .f32)
    (p : View.Piece (Elt F) S4096x128 .f32) :
    ∀ n : ℕ, p ∈ pbO2 (F := F) arg1 X1 v n ↔ ∃ k : Fin k0_t2_loop.trips, k.val < n ∧
      p = (⟨Rect.unit (s := S4096x128) (k0_off2 k) S1024x128.size (k0_off2_inb k), k0_pay9 v (ck2 arg1 X1 k)⟩ : View.Piece (Elt F) S4096x128 .f32)
  | 0 => by
    rw [pbO2.eq_1]
    exact ⟨fun h => absurd h List.not_mem_nil, fun ⟨k, hk, _⟩ => absurd hk (Nat.not_lt_zero _)⟩
  | n + 1 => by
    rw [pbO2.eq_2]
    by_cases h : n < k0_t2_loop.trips
    · rw [dif_pos h, List.mem_cons, mem_pbO2 arg1 X1 v p n]
      constructor
      · rintro (rfl | ⟨k, hk, rfl⟩)
        · exact ⟨⟨n, h⟩, Nat.lt_succ_self n, rfl⟩
        · exact ⟨k, Nat.lt_succ_of_lt hk, rfl⟩
      · rintro ⟨k, hk, rfl⟩
        rcases Nat.lt_succ_iff_lt_or_eq.mp hk with hlt | heq
        · exact Or.inr ⟨k, hlt, rfl⟩
        · obtain rfl : k = ⟨n, h⟩ := Fin.ext heq
          exact Or.inl rfl
    · rw [dif_neg h, mem_pbO2 arg1 X1 v p n]
      constructor
      · rintro ⟨k, hk, rfl⟩; exact ⟨k, Nat.lt_succ_of_lt hk, rfl⟩
      · rintro ⟨k, hk, rfl⟩; exact ⟨k, by have := k.isLt; omega, rfl⟩

/-- After the first batch slice's streaming loop, whatever the slice held before, its row r reads trip r / 1024's product at
    that chunk's row r % 1024. -/
theorem read_pbO2 (a : Memref sig .tc .vmem S2x4096x128 .f32) (g : BufTy.Contents (Elt F) a.view.ty)
    (arg1 : Memref sig .tc .vmem S2x4096x128 .f32) (X1 : BufTy.Contents (Elt F) arg1.view.ty) (v : Vec F S128x128 .f32)
    (r : Fin 4096) (e : Fin 128) (hq : r.val / 1024 < k0_t2_loop.trips) (hm : r.val % 1024 < 1024) :
    (sl0 a).view.read (Elt F) ((sl0 a).view.writes (Elt F) g (pbO2 arg1 X1 v k0_t2_loop.trips)) (ix2 r e)
      = k0_pay9 v (ck2 arg1 X1 ⟨r.val / 1024, hq⟩) (ix2 ⟨r.val % 1024, hm⟩ e) :=
  read_writes_chunks (F := F) trips2 (sl0 a).view g k0_off2 k0_off2_inb k0_off2_eq (fun k => k0_pay9 v (ck2 arg1 X1 k)) _
    (fun p => (mem_pbO2 arg1 X1 v p _).trans
      ⟨fun ⟨k, _, hp⟩ => ⟨k, hp⟩, fun ⟨k, hp⟩ => ⟨k, k.isLt, hp⟩⟩) r e hq hm

/-- The stores of the second batch slice's streaming loop before trip n are the chunks' stores of the trips below n. -/
theorem mem_pbO4 (arg1 : Memref sig .tc .vmem S2x4096x128 .f32) (X1 : BufTy.Contents (Elt F) arg1.view.ty) (v : Vec F S128x128 .f32)
    (p : View.Piece (Elt F) S4096x128 .f32) :
    ∀ n : ℕ, p ∈ pbO4 (F := F) arg1 X1 v n ↔ ∃ k : Fin k0_t4_loop.trips, k.val < n ∧
      p = (⟨Rect.unit (s := S4096x128) (k0_off4 k) S1024x128.size (k0_off4_inb k), k0_pay4 v (ck4 arg1 X1 k)⟩ : View.Piece (Elt F) S4096x128 .f32)
  | 0 => by
    rw [pbO4.eq_1]
    exact ⟨fun h => absurd h List.not_mem_nil, fun ⟨k, hk, _⟩ => absurd hk (Nat.not_lt_zero _)⟩
  | n + 1 => by
    rw [pbO4.eq_2]
    by_cases h : n < k0_t4_loop.trips
    · rw [dif_pos h, List.mem_cons, mem_pbO4 arg1 X1 v p n]
      constructor
      · rintro (rfl | ⟨k, hk, rfl⟩)
        · exact ⟨⟨n, h⟩, Nat.lt_succ_self n, rfl⟩
        · exact ⟨k, Nat.lt_succ_of_lt hk, rfl⟩
      · rintro ⟨k, hk, rfl⟩
        rcases Nat.lt_succ_iff_lt_or_eq.mp hk with hlt | heq
        · exact Or.inr ⟨k, hlt, rfl⟩
        · obtain rfl : k = ⟨n, h⟩ := Fin.ext heq
          exact Or.inl rfl
    · rw [dif_neg h, mem_pbO4 arg1 X1 v p n]
      constructor
      · rintro ⟨k, hk, rfl⟩; exact ⟨k, Nat.lt_succ_of_lt hk, rfl⟩
      · rintro ⟨k, hk, rfl⟩; exact ⟨k, by have := k.isLt; omega, rfl⟩

/-- After the second batch slice's streaming loop, whatever the slice held before, its row r reads trip r / 1024's product at
    that chunk's row r % 1024. -/
theorem read_pbO4 (a : Memref sig .tc .vmem S2x4096x128 .f32) (g : BufTy.Contents (Elt F) a.view.ty)
    (arg1 : Memref sig .tc .vmem S2x4096x128 .f32) (X1 : BufTy.Contents (Elt F) arg1.view.ty) (v : Vec F S128x128 .f32)
    (r : Fin 4096) (e : Fin 128) (hq : r.val / 1024 < k0_t4_loop.trips) (hm : r.val % 1024 < 1024) :
    (sl1 a).view.read (Elt F) ((sl1 a).view.writes (Elt F) g (pbO4 arg1 X1 v k0_t4_loop.trips)) (ix2 r e)
      = k0_pay4 v (ck4 arg1 X1 ⟨r.val / 1024, hq⟩) (ix2 ⟨r.val % 1024, hm⟩ e) :=
  read_writes_chunks (F := F) trips4 (sl1 a).view g k0_off4 k0_off4_inb k0_off4_eq (fun k => k0_pay4 v (ck4 arg1 X1 k)) _
    (fun p => (mem_pbO4 arg1 X1 v p _).trans
      ⟨fun ⟨k, _, hp⟩ => ⟨k, hp⟩, fun ⟨k, hp⟩ => ⟨k, k.isLt, hp⟩⟩) r e hq hm

end Cert.Kernel.Slices

end
-- ==== Proof.BlocksBits.lean ====
/-
  The two output buffers read back at an index after the body. The attention buffer holds one store per batch slice; the
  output's staging buffer holds, in batch slice b at row r, the store of chunk r / 1024 of that slice's streaming loop at its
  row r % 1024. Neither read depends on what the buffers held before the body.
-/
import proofs.«106405_j65223373357266_2_alg».proof.Proof.RunBits
import proofs.«106405_j65223373357266_2_alg».proof.Proof.SlicesBits

set_option maxRecDepth 16384
set_option maxHeartbeats 4000000

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Kernel.Slices

/-! ## The attention buffer -/

theorem emb_att (b : Fin 2) (hb : ∀ a, (![b.val, 0, 0] : Fin 3 → Nat) a + S1x128x128.size a ≤ S2x128x128.size a) (d e : Fin 128) :
    (Rect.unit (s := S2x128x128) ![b.val, 0, 0] S1x128x128.size hb).emb (ix3 (0 : Fin 1) d e) = (ix3 b d e : S2x128x128.Idx) := by
  funext a; apply Fin.ext
  match a with
  | ⟨0, _⟩ => show b.val + 1 * 0 = b.val; omega
  | ⟨1, _⟩ => show 0 + 1 * d.val = d.val; omega
  | ⟨2, _⟩ => show 0 + 1 * e.val = e.val; omega

/-- Batch slice 1 of the attention buffer holds the softmax of batch slice 1's logits. -/
theorem C5_read1 (arg2 arg3 : Memref sig .tc .vmem S2x4096x128 .f32) (arg6 : Memref sig .tc .vmem S128x128 .f32) (X2 : BufTy.Contents (Elt F) arg2.view.ty) (X3 : BufTy.Contents (Elt F) arg3.view.ty) (arg5 : Memref sig .tc .vmem S2x128x128 .f32) (d e : Fin 128) :
    arg5.view.read (Elt F) (C5 arg2 arg3 arg6 X2 X3 arg5) (ix3 (1 : Fin 2) d e) = k0_pay3 (V25 arg2 arg3 arg6 X2 X3) (ix3 (0 : Fin 1) d e) := by
  unfold C5
  rw [← emb_att (1 : Fin 2) inb_S2x128x128_S1x128x128_1_0_0 d e]
  exact View.read_writes_cons_emb _ _ _ _ _ _

/-- Batch slice 0 of the attention buffer holds the softmax of batch slice 0's logits. -/
theorem C5_read0 (arg2 arg3 : Memref sig .tc .vmem S2x4096x128 .f32) (arg6 : Memref sig .tc .vmem S128x128 .f32) (X2 : BufTy.Contents (Elt F) arg2.view.ty) (X3 : BufTy.Contents (Elt F) arg3.view.ty) (arg5 : Memref sig .tc .vmem S2x128x128 .f32) (d e : Fin 128) :
    arg5.view.read (Elt F) (C5 arg2 arg3 arg6 X2 X3 arg5) (ix3 (0 : Fin 2) d e) = k0_pay8 (V5 arg2 arg3 arg6 X2 X3) (ix3 (0 : Fin 1) d e) := by
  unfold C5
  rw [View.writes_cons, View.read_slice_write_of_not_mem _ _ _ _ (by
    rw [Rect.map_emb_univ, Rect.mem_set_unit]
    intro h
    exact absurd (show (1 : ℕ) ≤ 0 from (h 0).1) (by decide))]
  rw [← emb_att (0 : Fin 2) inb_S2x128x128_S1x128x128_0_0_0 d e]
  exact View.read_writes_cons_emb _ _ _ _ _ _

/-! ## The output's staging buffer -/

/-- Batch slice 0 at row r: chunk r / 1024 of q's batch slice 0 against the softmax of batch slice 0's logits, at row r % 1024. -/
theorem C4_read0 (arg2 arg3 : Memref sig .tc .vmem S2x4096x128 .f32) (arg6 : Memref sig .tc .vmem S128x128 .f32) (X2 : BufTy.Contents (Elt F) arg2.view.ty) (X3 : BufTy.Contents (Elt F) arg3.view.ty) (arg1 arg4 : Memref sig .tc .vmem S2x4096x128 .f32) (X1 : BufTy.Contents (Elt F) arg1.view.ty)
    (f : BufTy.Contents (Elt F) arg4.view.ty) (r : Fin 4096) (e : Fin 128) (h4 : r.val / 1024 < k0_t2_loop.trips) :
    arg4.view.read (Elt F) (C4 arg2 arg3 arg6 X2 X3 arg1 arg4 X1 f) (ix3 (0 : Fin 2) r e)
      = k0_pay9 (V5 arg2 arg3 arg6 X2 X3) (ck2 arg1 X1 ⟨r.val / 1024, h4⟩) (ix2 ⟨r.val % 1024, Nat.mod_lt _ (by decide)⟩ e) := by
  rw [← read_sl0]
  unfold C4
  rw [read_sl0_writes_sl1]
  exact read_pbO2 _ _ _ _ _ _ _ h4 _

/-- Batch slice 1 at row r, likewise. -/
theorem C4_read1 (arg2 arg3 : Memref sig .tc .vmem S2x4096x128 .f32) (arg6 : Memref sig .tc .vmem S128x128 .f32) (X2 : BufTy.Contents (Elt F) arg2.view.ty) (X3 : BufTy.Contents (Elt F) arg3.view.ty) (arg1 arg4 : Memref sig .tc .vmem S2x4096x128 .f32) (X1 : BufTy.Contents (Elt F) arg1.view.ty)
    (f : BufTy.Contents (Elt F) arg4.view.ty) (r : Fin 4096) (e : Fin 128) (h4 : r.val / 1024 < k0_t4_loop.trips) :
    arg4.view.read (Elt F) (C4 arg2 arg3 arg6 X2 X3 arg1 arg4 X1 f) (ix3 (1 : Fin 2) r e)
      = k0_pay4 (V25 arg2 arg3 arg6 X2 X3) (ck4 arg1 X1 ⟨r.val / 1024, h4⟩) (ix2 ⟨r.val % 1024, Nat.mod_lt _ (by decide)⟩ e) := by
  rw [← read_sl1]
  unfold C4
  exact read_pbO4 _ _ _ _ _ _ _ h4 _

end Cert.Kernel.Body

end
-- ==== Proof.IndepBits.lean ====
/-
  The output's staging buffer is wholly overwritten by the body: read after the body, it does not depend on what it held before.
-/
import proofs.«106405_j65223373357266_2_alg».proof.Proof.BlocksBits

set_option maxRecDepth 16384
set_option maxHeartbeats 4000000

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Each of the two batch slices of the output's staging buffer is covered by its streaming loop's four chunk stores, so what
    the buffer held before the body is not seen afterwards. -/
theorem C4_read_indep (arg2 arg3 : Memref sig .tc .vmem S2x4096x128 .f32) (arg6 : Memref sig .tc .vmem S128x128 .f32)
    (X2 : BufTy.Contents (Elt F) arg2.view.ty) (X3 : BufTy.Contents (Elt F) arg3.view.ty)
    (arg1 arg4 : Memref sig .tc .vmem S2x4096x128 .f32) (X1 : BufTy.Contents (Elt F) arg1.view.ty)
    (f f' : BufTy.Contents (Elt F) arg4.view.ty) :
    arg4.view.read (Elt F) (C4 arg2 arg3 arg6 X2 X3 arg1 arg4 X1 f) = arg4.view.read (Elt F) (C4 arg2 arg3 arg6 X2 X3 arg1 arg4 X1 f') := by
  funext idx
  obtain ⟨b, r, e, rfl⟩ : ∃ (b : Fin 2) (r : Fin 4096) (e : Fin 128), idx = Idealize.ShloMosaic.ValueIdx.ix3 b r e :=
    ⟨idx 0, idx 1, idx 2, Idealize.ShloMosaic.ValueIdx.eq_ix3 idx⟩
  have hr : r.val / 1024 < 4 := by have := r.isLt; omega
  have hq2 : r.val / 1024 < k0_t2_loop.trips := by rw [show k0_t2_loop.trips = 4 from by decide]; exact hr
  have hq4 : r.val / 1024 < k0_t4_loop.trips := by rw [show k0_t4_loop.trips = 4 from by decide]; exact hr
  obtain ⟨b, hb⟩ := b
  match b, hb with
  | 0, _ =>
    show arg4.view.read (Elt F) _ (Idealize.ShloMosaic.ValueIdx.ix3 (0 : Fin 2) r e) = arg4.view.read (Elt F) _ (Idealize.ShloMosaic.ValueIdx.ix3 (0 : Fin 2) r e)
    rw [C4_read0 (h4 := hq2), C4_read0 (h4 := hq2)]
  | 1, _ =>
    show arg4.view.read (Elt F) _ (Idealize.ShloMosaic.ValueIdx.ix3 (1 : Fin 2) r e) = arg4.view.read (Elt F) _ (Idealize.ShloMosaic.ValueIdx.ix3 (1 : Fin 2) r e)
    rw [C4_read1 (h4 := hq4), C4_read1 (h4 := hq4)]

end Cert.Kernel.Body

end
-- ==== Proof.ObligationBits.lean ====
/-
  The launch side: the proof data of the one pipeline (each input window's buffer holds its block; each output window's buffer
  holds, after the body at a point, what the body's stores leave there), the body obligation at every point from the body's
  triple, the frame run, and the frame: the program terminates, nothing faults, and the argument arrays end unchanged.
-/
import proofs.«106405_j65223373357266_2_alg».proof.Proof.RunBits
import proofs.«106405_j65223373357266_2_alg».proof.Proof.IndepBits

set_option maxRecDepth 16384
set_option maxHeartbeats 4000000

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs at a point, and the scratch -/

abbrev ms0_0 (t : Fin cfg0.N) := win0_0.stage (cfg0.slots t 0)
abbrev hs0_0 (t : Fin cfg0.N) : (ms0_0 t).IsWhole := hstage0_0 ((cfg0.slots t 0).cast nbuf0_0)
abbrev ms0_1 (t : Fin cfg0.N) := win0_1.stage (cfg0.slots t 1)
abbrev hs0_1 (t : Fin cfg0.N) : (ms0_1 t).IsWhole := hstage0_1 ((cfg0.slots t 1).cast nbuf0_1)
abbrev ms0_2 (t : Fin cfg0.N) := win0_2.stage (cfg0.slots t 2)
abbrev hs0_2 (t : Fin cfg0.N) : (ms0_2 t).IsWhole := hstage0_2 ((cfg0.slots t 2).cast nbuf0_2)
abbrev ms0_3 (t : Fin cfg0.N) := win0_3.stage (cfg0.slots t 3)
abbrev hs0_3 (t : Fin cfg0.N) : (ms0_3 t).IsWhole := hstage0_3 ((cfg0.slots t 3).cast nbuf0_3)
abbrev ms0_4 (t : Fin cfg0.N) := win0_4.stage (cfg0.slots t 4)
abbrev hs0_4 (t : Fin cfg0.N) : (ms0_4 t).IsWhole := hstage0_4 ((cfg0.slots t 4).cast nbuf0_4)

/-- The scratch operand. -/
abbrev scM : Memref sig .tc .vmem S128x128 .f32 := Memref.whole cc0_scratch0

/-- The class invariant: the scratch at some contents, the generator register at some state. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- No window is idle at any point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel

/-! ## What the body leaves in the outputs' buffers at a point -/

/-- The output's staging buffer after the body at point t, as a function of the three input blocks there. -/
def out3 (c : Dev nD) (t : Fin cfg0.N) : Vec F S2x4096x128 .f32 :=
  (ms0_3 t).view.read (Elt F)
    (C4 (ms0_1 t) (ms0_2 t) scM ((hs0_1 t).unread (iblk m c 1 t)) ((hs0_2 t).unread (iblk m c 2 t)) (ms0_0 t) (ms0_3 t)
      ((hs0_0 t).unread (iblk m c 0 t)) (ms0_3 t).view.junk)

/-- The attention buffer after the body at point t. -/
def out4 (c : Dev nD) (t : Fin cfg0.N) : Vec F S2x128x128 .f32 :=
  (ms0_4 t).view.read (Elt F)
    (C5 (ms0_1 t) (ms0_2 t) scM ((hs0_1 t).unread (iblk m c 1 t)) ((hs0_2 t).unread (iblk m c 2 t)) (ms0_4 t))

/-! ## The pipeline's proof data -/

/-- The arrays as the region finds them; after the body at point t each input's buffer at its block and each output's at
    what the body leaves; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 m c t
    | ⟨4, _⟩ => out4 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out3 m c t := by dsimp only [dats]
theorem after0_4 (c : Dev nD) (t : Fin cfg0.N) : (dats m 0 c).after 4 t = out4 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- The body at any point: the inputs' buffers hold their blocks, the invariant lends the scratch and takes it back, and each
    output's buffer ends at the contents the body's triple names, read back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
      unfold Dat.leavesExact; rw [liveAt0_0 t], after0_0,
    show (dats m 0 c).leavesExact 1 t = owns (c : Thread nD τ) (ms0_1 t) fullShare ((dats m 0 c).after 1 t) from by
      unfold Dat.leavesExact; rw [liveAt0_1 t], after0_1,
    show (dats m 0 c).leavesExact 2 t = owns (c : Thread nD τ) (ms0_2 t) fullShare ((dats m 0 c).after 2 t) from by
      unfold Dat.leavesExact; rw [liveAt0_2 t], after0_2,
    show (dats m 0 c).leavesExact 3 t = owns (c : Thread nD τ) (ms0_3 t) fullShare ((dats m 0 c).after 3 t) from by
      unfold Dat.leavesExact; rw [liveAt0_3 t], after0_3,
    show (dats m 0 c).leavesExact 4 t = owns (c : Thread nD τ) (ms0_4 t) fullShare ((dats m 0 c).after 4 t) from by
      unfold Dat.leavesExact; rw [liveAt0_4 t], after0_4]
  rw [show (dats m 0 c).Φ t.castSucc = Pipeline.ΦA spec0 c from rfl, PhiA0_eq]
  iintro ⟨⟨HS, Hg⟩, Ho, ⟨%d0, H0⟩, ⟨%d1, H1⟩, ⟨%d2, H2⟩, ⟨%d3, H3⟩, ⟨%d4, H4⟩⟩
  iapply ((kernelRun c (grid0.coords t) (ms0_0 t) (hs0_0 t) (ms0_1 t) (hs0_1 t) (ms0_2 t) (hs0_2 t) (ms0_3 t) (hs0_3 t) (ms0_4 t) (hs0_4 t)
    scM (Memref.isWhole_whole _) (iblk m c 0 t) (iblk m c 1 t) (iblk m c 2 t)) Set.univ _)
  isplitl [H0]; · iexact H0
  isplitl [H1]; · iexact H1
  isplitl [H2]; · iexact H2
  isplitl [H3]; · iexists _; iexact H3
  isplitl [H4]; · iexists _; iexact H4
  isplitl [HS]; · iexact HS
  iintro ⟨H0, H1, H2, ⟨%f3, H3⟩, H4, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; unfold out3; exact C4_read_indep _ _ _ _ _ _ _ _ _ _
  unfold owns; iexists _; isplitr
  swap; · iexact H4
  ipureintro; rfl

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has every array of the pipeline at what the
    library computes from the proof data. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, nothing faults, and its three argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.LoopsIdeal.lean ====
/-
  The four counted loops of the kernel body, each gone through once over a symbolic trip. The body handles two batch
  slices of its staged [2, 4096, 128] blocks, one after the other; for each, a first loop over the four chunks of 1024
  rows adds the product (chunk of k)ᵀ · (chunk of v, scaled) into a 128 × 128 scratch, and a second loop stores, chunk by
  chunk, (chunk of q) · (attention weights) into the same rows of the output's staging buffer. Every staging buffer is
  held whole throughout; a load or store through a batch slice touches only elements of the buffer it is a slice of.
-/
import proofs.«106405_j65223373357266_2_alg».proof.Proof.Gen.KernelIdeal.Loops
import proofs.«106405_j65223373357266_2_alg».proof.Proof.Gen.KernelIdeal.Frame

set_option maxRecDepth 16384
set_option maxHeartbeats 4000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The scratch's one rectangle: all of it. -/
abbrev rectW : Rect S128x128 := Rect.unit (s := S128x128) ![0, 0] S128x128.size inb_S128x128_S128x128_0_0

/-- Batch slice 0 of a [2, 4096, 128] staging buffer, as the [4096, 128] memref the body addresses it by. -/
abbrev sl0 (a : Memref sig .tc .vmem S2x4096x128 .f32) : Memref sig .tc .vmem S4096x128 .f32 :=
  (a.slice (Rect.unit (s := S2x4096x128) ![0, 0, 0] S1x4096x128.size inb_S2x4096x128_S1x4096x128_0_0_0) (fun _ => rfl)).squeeze S4096x128 squeezes_S1x4096x128_S4096x128

/-- Every element a store through batch slice 0 touches is an element of the buffer. -/
theorem sl0_access_subset (a : Memref sig .tc .vmem S2x4096x128 .f32) (r : Rect S4096x128) :
    ((sl0 a).access r).set ⊆ a.view.set := by
  refine (View.set_slice_subset _ r).trans ?_
  show ((a.view.slice _).reshape _ _).set ⊆ _
  rw [View.set_reshape]
  exact View.set_slice_subset _ _

/-- Batch slice 1 of a [2, 4096, 128] staging buffer, as the [4096, 128] memref the body addresses it by. -/
abbrev sl1 (a : Memref sig .tc .vmem S2x4096x128 .f32) : Memref sig .tc .vmem S4096x128 .f32 :=
  (a.slice (Rect.unit (s := S2x4096x128) ![1, 0, 0] S1x4096x128.size inb_S2x4096x128_S1x4096x128_1_0_0) (fun _ => rfl)).squeeze S4096x128 squeezes_S1x4096x128_S4096x128

/-- Every element a store through batch slice 1 touches is an element of the buffer. -/
theorem sl1_access_subset (a : Memref sig .tc .vmem S2x4096x128 .f32) (r : Rect S4096x128) :
    ((sl1 a).access r).set ⊆ a.view.set := by
  refine (View.set_slice_subset _ r).trans ?_
  show ((a.view.slice _).reshape _ _).set ⊆ _
  rw [View.set_reshape]
  exact View.set_slice_subset _ _

/-! ### The accumulating loop of batch slice 0 -/

/-- Rows [1024 k, 1024 k + 1024) of batch slice 0 of a staged block: what trip k loads. -/
def ck1 (a : Memref sig .tc .vmem S2x4096x128 .f32) (X : BufTy.Contents (Elt F) a.view.ty) (k : Fin k0_t1_loop.trips) : Vec F S1024x128 .f32 :=
  (sl0 a).view.readAt (Elt F) (Rect.unit (s := S4096x128) (k0_off1 k) S1024x128.size (k0_off1_inb k)).toLoadRect X

/-- What the trips before k stored into the scratch, last first: each the scratch as the trip found it plus the product
    of the trip's chunk of k (transposed) with its chunk of v scaled. -/
def pbA1 (arg2 arg3 : Memref sig .tc .vmem S2x4096x128 .f32) (arg6 : Memref sig .tc .vmem S128x128 .f32)
    (X2 : BufTy.Contents (Elt F) arg2.view.ty) (X3 : BufTy.Contents (Elt F) arg3.view.ty) (G6 : BufTy.Contents (Elt F) arg6.view.ty) :
    ℕ → List (View.Piece (Elt F) S128x128 .f32)
  | 0 => []
  | k + 1 =>
    if h : k < k0_t1_loop.trips then
      (⟨rectW, k0_pay6 (ck1 arg2 X2 ⟨k, h⟩) (ck1 arg3 X3 ⟨k, h⟩)
          (arg6.view.readAt (Elt F) rectW.toLoadRect (arg6.view.writes (Elt F) G6 (pbA1 arg2 arg3 arg6 X2 X3 G6 k)))⟩ : View.Piece (Elt F) S128x128 .f32)
        :: pbA1 arg2 arg3 arg6 X2 X3 G6 k
    else pbA1 arg2 arg3 arg6 X2 X3 G6 k

theorem pbA1_succ (arg2 arg3 : Memref sig .tc .vmem S2x4096x128 .f32) (arg6 : Memref sig .tc .vmem S128x128 .f32)
    (X2 : BufTy.Contents (Elt F) arg2.view.ty) (X3 : BufTy.Contents (Elt F) arg3.view.ty) (G6 : BufTy.Contents (Elt F) arg6.view.ty) (k : Fin k0_t1_loop.trips) :
    pbA1 (F := F) arg2 arg3 arg6 X2 X3 G6 (k.val + 1)
      = (⟨rectW, k0_pay6 (ck1 arg2 X2 k) (ck1 arg3 X3 k)
          (arg6.view.readAt (Elt F) rectW.toLoadRect (arg6.view.writes (Elt F) G6 (pbA1 arg2 arg3 arg6 X2 X3 G6 k.val)))⟩ : View.Piece (Elt F) S128x128 .f32)
        :: pbA1 arg2 arg3 arg6 X2 X3 G6 k.val := by
  rw [pbA1.eq_2]; exact dif_pos k.isLt

/-- One trip: the two staged blocks are read and left as they were; the scratch takes one more store. -/
theorem tripA1 (𝒱 : Variants) (c : Dev nD) (bd : Option 𝒱.V) (i : grid0.Coords) (arg1 : Memref sig .tc .vmem S2x4096x128 .f32) (harg1 : arg1.IsWhole) (arg2 : Memref sig .tc .vmem S2x4096x128 .f32) (harg2 : arg2.IsWhole) (arg3 : Memref sig .tc .vmem S2x4096x128 .f32) (harg3 : arg3.IsWhole) (arg4 : Memref sig .tc .vmem S2x4096x128 .f32) (harg4 : arg4.IsWhole) (arg5 : Memref sig .tc .vmem S2x128x128 .f32) (harg5 : arg5.IsWhole) (arg6 : Memref sig .tc .vmem S128x128 .f32) (harg6 : arg6.IsWhole)
    (X2 : BufTy.Contents (Elt F) arg2.view.ty) (X3 : BufTy.Contents (Elt F) arg3.view.ty) (k : Fin k0_t1_loop.trips)
    (E : Set ℕ) (f6 : BufTy.Contents (Elt F) arg6.view.ty) :
    (iprop((arg2.view.loc (c : Thread nD τ) ↦[arg2.view.set]{fullShare} X2) ∗ (arg3.view.loc (c : Thread nD τ) ↦[arg3.view.set]{fullShare} X3)
        ∗ (arg6.view.loc (c : Thread nD τ) ↦[arg6.view.set]{fullShare} f6)) : sProp 𝕄)
      ⊢ wp frame (wpE (defs₀ (F := F)) 𝒱 (c : Thread nD τ) bd) E (k0_t1_body (F := F) i arg1 harg1 arg2 harg2 arg3 harg3 arg4 harg4 arg5 harg5 arg6 harg6 k PUnit.unit)
          (fun _ => iprop((arg2.view.loc (c : Thread nD τ) ↦[arg2.view.set]{fullShare} X2) ∗ (arg3.view.loc (c : Thread nD τ) ↦[arg3.view.set]{fullShare} X3)
            ∗ (arg6.view.loc (c : Thread nD τ) ↦[arg6.view.set]{fullShare}
                arg6.view.writes (Elt F) f6 [(⟨rectW, k0_pay6 (ck1 arg2 X2 k) (ck1 arg3 X3 k) (arg6.view.readAt (Elt F) rectW.toLoadRect f6)⟩ : View.Piece (Elt F) S128x128 .f32)]))) := by
  have hk : k.val < 4 := Nat.lt_of_lt_of_le k.isLt k0_t1_abs.2.1
  unfold k0_t1_body
  iintro ⟨H2, H3, H6⟩
  sl_exec
  sl_step
  isplitl [H2]; · iexact H2
  isplitl [H3]; · iexact H3
  iexact H6

set_option warn.classDefReducibility false in
/-- The loop by its invariant: before trip k the two staged blocks are as they were and the scratch holds the stores of the
    trips before k over what it held at loop entry. -/
@[sl_loop] def loopInvA1 (𝒱 : Variants) (c : Dev nD) (bd : Option 𝒱.V) (E : Set ℕ) (i : grid0.Coords) (arg1 : Memref sig .tc .vmem S2x4096x128 .f32) (harg1 : arg1.IsWhole) (arg2 : Memref sig .tc .vmem S2x4096x128 .f32) (harg2 : arg2.IsWhole) (arg3 : Memref sig .tc .vmem S2x4096x128 .f32) (harg3 : arg3.IsWhole) (arg4 : Memref sig .tc .vmem S2x4096x128 .f32) (harg4 : arg4.IsWhole) (arg5 : Memref sig .tc .vmem S2x128x128 .f32) (harg5 : arg5.IsWhole) (arg6 : Memref sig .tc .vmem S128x128 .f32) (harg6 : arg6.IsWhole)
    (X2 : BufTy.Contents (Elt F) arg2.view.ty) (X3 : BufTy.Contents (Elt F) arg3.view.ty) (G6 : BufTy.Contents (Elt F) arg6.view.ty) :
    LoopInvTy_k0_t1 (F := F) Unit ℕ (UR sig nD τ) ℕ 𝒱 c bd E i arg1 harg1 arg2 harg2 arg3 harg3 arg4 harg4 arg5 harg5 arg6 harg6 where
  inv := fun k _ => iprop((arg2.view.loc (c : Thread nD τ) ↦[arg2.view.set]{fullShare} X2) ∗ (arg3.view.loc (c : Thread nD τ) ↦[arg3.view.set]{fullShare} X3)
    ∗ (∃ f, (arg6.view.loc (c : Thread nD τ) ↦[arg6.view.set]{fullShare} f) ∗ ⌜f = arg6.view.writes (Elt F) G6 (pbA1 (F := F) arg2 arg3 arg6 X2 X3 G6 k)⌝))
  step k acc := by
    iintro ⟨H2, H3, ⟨%f6, H6, %h6⟩⟩
    iapply (wp_wand_r Idealize.ShloMosaic.frame (wpE (defs₀ (F := F)) 𝒱 (c : Thread nD τ) bd) E)
    isplitl [H2 H3 H6]
    · iapply (tripA1 (F := F) 𝒱 c bd i arg1 harg1 arg2 harg2 arg3 harg3 arg4 harg4 arg5 harg5 arg6 harg6 X2 X3 k E f6)
      isplitl [H2]; · iexact H2
      isplitl [H3]; · iexact H3
      iexact H6
    · iintro %_ ⟨H2, H3, H6⟩
      isplitl [H2]; · iexact H2
      isplitl [H3]; · iexact H3
      rw [pbA1_succ]
      iexists _; isplitl [H6]; · iexact H6
      ipureintro; rw [h6, ← View.writes_append]; rfl

/-! ### The streaming loop of batch slice 0 -/

/-- Rows [1024 k, 1024 k + 1024) of batch slice 0 of a staged block: what trip k loads. -/
def ck2 (a : Memref sig .tc .vmem S2x4096x128 .f32) (X : BufTy.Contents (Elt F) a.view.ty) (k : Fin k0_t2_loop.trips) : Vec F S1024x128 .f32 :=
  (sl0 a).view.readAt (Elt F) (Rect.unit (s := S4096x128) (k0_off2 k) S1024x128.size (k0_off2_inb k)).toLoadRect X

/-- What the trips before k stored through batch slice 0 of the output's staging buffer, last first: trip j's chunk of q
    against the attention weights, at rows [1024 j, 1024 j + 1024). -/
def pbO2 (arg1 : Memref sig .tc .vmem S2x4096x128 .f32) (X1 : BufTy.Contents (Elt F) arg1.view.ty) (v5 : Vec F S128x128 .f32) :
    ℕ → List (View.Piece (Elt F) S4096x128 .f32)
  | 0 => []
  | k + 1 =>
    if h : k < k0_t2_loop.trips then
      (⟨Rect.unit (s := S4096x128) (k0_off2 ⟨k, h⟩) S1024x128.size (k0_off2_inb ⟨k, h⟩), k0_pay9 v5 (ck2 arg1 X1 ⟨k, h⟩)⟩ : View.Piece (Elt F) S4096x128 .f32)
        :: pbO2 arg1 X1 v5 k
    else pbO2 arg1 X1 v5 k

theorem pbO2_succ (arg1 : Memref sig .tc .vmem S2x4096x128 .f32) (X1 : BufTy.Contents (Elt F) arg1.view.ty) (v5 : Vec F S128x128 .f32) (k : Fin k0_t2_loop.trips) :
    pbO2 (F := F) arg1 X1 v5 (k.val + 1)
      = (⟨Rect.unit (s := S4096x128) (k0_off2 k) S1024x128.size (k0_off2_inb k), k0_pay9 v5 (ck2 arg1 X1 k)⟩ : View.Piece (Elt F) S4096x128 .f32)
        :: pbO2 arg1 X1 v5 k.val := by
  rw [pbO2.eq_2]; exact dif_pos k.isLt

/-- One trip: the staged block of q is read and left as it was; the output's staging buffer takes one more store, through
    its batch slice 0. -/
theorem tripO2 (𝒱 : Variants) (c : Dev nD) (bd : Option 𝒱.V) (i : grid0.Coords) (arg1 : Memref sig .tc .vmem S2x4096x128 .f32) (harg1 : arg1.IsWhole) (arg2 : Memref sig .tc .vmem S2x4096x128 .f32) (harg2 : arg2.IsWhole) (arg3 : Memref sig .tc .vmem S2x4096x128 .f32) (harg3 : arg3.IsWhole) (arg4 : Memref sig .tc .vmem S2x4096x128 .f32) (harg4 : arg4.IsWhole) (arg5 : Memref sig .tc .vmem S2x128x128 .f32) (harg5 : arg5.IsWhole) (arg6 : Memref sig .tc .vmem S128x128 .f32) (harg6 : arg6.IsWhole) (v5 : Vec F S128x128 .f32)
    (X1 : BufTy.Contents (Elt F) arg1.view.ty) (k : Fin k0_t2_loop.trips)
    (E : Set ℕ) (f4 : BufTy.Contents (Elt F) arg4.view.ty) :
    (iprop((arg1.view.loc (c : Thread nD τ) ↦[arg1.view.set]{fullShare} X1) ∗ (arg4.view.loc (c : Thread nD τ) ↦[arg4.view.set]{fullShare} f4)) : sProp 𝕄)
      ⊢ wp frame (wpE (defs₀ (F := F)) 𝒱 (c : Thread nD τ) bd) E (k0_t2_body (F := F) i arg1 harg1 arg2 harg2 arg3 harg3 arg4 harg4 arg5 harg5 arg6 harg6 v5 k PUnit.unit)
          (fun _ => iprop((arg1.view.loc (c : Thread nD τ) ↦[arg1.view.set]{fullShare} X1)
            ∗ (arg4.view.loc (c : Thread nD τ) ↦[arg4.view.set]{fullShare}
                (sl0 arg4).view.writes (Elt F) f4 [(⟨Rect.unit (s := S4096x128) (k0_off2 k) S1024x128.size (k0_off2_inb k), k0_pay9 v5 (ck2 arg1 X1 k)⟩ : View.Piece (Elt F) S4096x128 .f32)]))) := by
  have hk : k.val < 4 := Nat.lt_of_lt_of_le k.isLt k0_t2_abs.2.1
  unfold k0_t2_body
  iintro ⟨H1, H4⟩
  sl_exec
  iapply (wp_store_writes₀ 𝒱 (c : Thread nD τ) bd E (m := sl0 arg4) (sl0_access_subset arg4 _)) $$ H4
  iintro H4
  sl_step
  isplitl [H1]; · iexact H1
  iexact H4

set_option warn.classDefReducibility false in
/-- The loop by its invariant: before trip k the staged block of q is as it was and the output's staging buffer holds the
    stores of the trips before k over what it held at loop entry. -/
@[sl_loop] def loopInvO2 (𝒱 : Variants) (c : Dev nD) (bd : Option 𝒱.V) (E : Set ℕ) (i : grid0.Coords) (arg1 : Memref sig .tc .vmem S2x4096x128 .f32) (harg1 : arg1.IsWhole) (arg2 : Memref sig .tc .vmem S2x4096x128 .f32) (harg2 : arg2.IsWhole) (arg3 : Memref sig .tc .vmem S2x4096x128 .f32) (harg3 : arg3.IsWhole) (arg4 : Memref sig .tc .vmem S2x4096x128 .f32) (harg4 : arg4.IsWhole) (arg5 : Memref sig .tc .vmem S2x128x128 .f32) (harg5 : arg5.IsWhole) (arg6 : Memref sig .tc .vmem S128x128 .f32) (harg6 : arg6.IsWhole) (v5 : Vec F S128x128 .f32)
    (X1 : BufTy.Contents (Elt F) arg1.view.ty) (G4 : BufTy.Contents (Elt F) arg4.view.ty) :
    LoopInvTy_k0_t2 (F := F) Unit ℕ (UR sig nD τ) ℕ 𝒱 c bd E i arg1 harg1 arg2 harg2 arg3 harg3 arg4 harg4 arg5 harg5 arg6 harg6 v5 where
  inv := fun k _ => iprop((arg1.view.loc (c : Thread nD τ) ↦[arg1.view.set]{fullShare} X1)
    ∗ (∃ f, (arg4.view.loc (c : Thread nD τ) ↦[arg4.view.set]{fullShare} f) ∗ ⌜f = (sl0 arg4).view.writes (Elt F) G4 (pbO2 (F := F) arg1 X1 v5 k)⌝))
  step k acc := by
    iintro ⟨H1, ⟨%f4, H4, %h4⟩⟩
    iapply (wp_wand_r Idealize.ShloMosaic.frame (wpE (defs₀ (F := F)) 𝒱 (c : Thread nD τ) bd) E)
    isplitl [H1 H4]
    · iapply (tripO2 (F := F) 𝒱 c bd i arg1 harg1 arg2 harg2 arg3 harg3 arg4 harg4 arg5 harg5 arg6 harg6 v5 X1 k E f4)
      isplitl [H1]; · iexact H1
      iexact H4
    · iintro %_ ⟨H1, H4⟩
      isplitl [H1]; · iexact H1
      rw [pbO2_succ]
      iexists _; isplitl [H4]; · iexact H4
      ipureintro; rw [h4, ← View.writes_append]; rfl

/-! ### The accumulating loop of batch slice 1 -/

/-- Rows [1024 k, 1024 k + 1024) of batch slice 1 of a staged block: what trip k loads. -/
def ck3 (a : Memref sig .tc .vmem S2x4096x128 .f32) (X : BufTy.Contents (Elt F) a.view.ty) (k : Fin k0_t3_loop.trips) : Vec F S1024x128 .f32 :=
  (sl1 a).view.readAt (Elt F) (Rect.unit (s := S4096x128) (k0_off3 k) S1024x128.size (k0_off3_inb k)).toLoadRect X

/-- What the trips before k stored into the scratch, last first: each the scratch as the trip found it plus the product
    of the trip's chunk of k (transposed) with its chunk of v scaled. -/
def pbA3 (arg2 arg3 : Memref sig .tc .vmem S2x4096x128 .f32) (arg6 : Memref sig .tc .vmem S128x128 .f32)
    (X2 : BufTy.Contents (Elt F) arg2.view.ty) (X3 : BufTy.Contents (Elt F) arg3.view.ty) (G6 : BufTy.Contents (Elt F) arg6.view.ty) :
    ℕ → List (View.Piece (Elt F) S128x128 .f32)
  | 0 => []
  | k + 1 =>
    if h : k < k0_t3_loop.trips then
      (⟨rectW, k0_pay1 (ck3 arg2 X2 ⟨k, h⟩) (ck3 arg3 X3 ⟨k, h⟩)
          (arg6.view.readAt (Elt F) rectW.toLoadRect (arg6.view.writes (Elt F) G6 (pbA3 arg2 arg3 arg6 X2 X3 G6 k)))⟩ : View.Piece (Elt F) S128x128 .f32)
        :: pbA3 arg2 arg3 arg6 X2 X3 G6 k
    else pbA3 arg2 arg3 arg6 X2 X3 G6 k

theorem pbA3_succ (arg2 arg3 : Memref sig .tc .vmem S2x4096x128 .f32) (arg6 : Memref sig .tc .vmem S128x128 .f32)
    (X2 : BufTy.Contents (Elt F) arg2.view.ty) (X3 : BufTy.Contents (Elt F) arg3.view.ty) (G6 : BufTy.Contents (Elt F) arg6.view.ty) (k : Fin k0_t3_loop.trips) :
    pbA3 (F := F) arg2 arg3 arg6 X2 X3 G6 (k.val + 1)
      = (⟨rectW, k0_pay1 (ck3 arg2 X2 k) (ck3 arg3 X3 k)
          (arg6.view.readAt (Elt F) rectW.toLoadRect (arg6.view.writes (Elt F) G6 (pbA3 arg2 arg3 arg6 X2 X3 G6 k.val)))⟩ : View.Piece (Elt F) S128x128 .f32)
        :: pbA3 arg2 arg3 arg6 X2 X3 G6 k.val := by
  rw [pbA3.eq_2]; exact dif_pos k.isLt

/-- One trip: the two staged blocks are read and left as they were; the scratch takes one more store. -/
theorem tripA3 (𝒱 : Variants) (c : Dev nD) (bd : Option 𝒱.V) (i : grid0.Coords) (arg1 : Memref sig .tc .vmem S2x4096x128 .f32) (harg1 : arg1.IsWhole) (arg2 : Memref sig .tc .vmem S2x4096x128 .f32) (harg2 : arg2.IsWhole) (arg3 : Memref sig .tc .vmem S2x4096x128 .f32) (harg3 : arg3.IsWhole) (arg4 : Memref sig .tc .vmem S2x4096x128 .f32) (harg4 : arg4.IsWhole) (arg5 : Memref sig .tc .vmem S2x128x128 .f32) (harg5 : arg5.IsWhole) (arg6 : Memref sig .tc .vmem S128x128 .f32) (harg6 : arg6.IsWhole)
    (X2 : BufTy.Contents (Elt F) arg2.view.ty) (X3 : BufTy.Contents (Elt F) arg3.view.ty) (k : Fin k0_t3_loop.trips)
    (E : Set ℕ) (f6 : BufTy.Contents (Elt F) arg6.view.ty) :
    (iprop((arg2.view.loc (c : Thread nD τ) ↦[arg2.view.set]{fullShare} X2) ∗ (arg3.view.loc (c : Thread nD τ) ↦[arg3.view.set]{fullShare} X3)
        ∗ (arg6.view.loc (c : Thread nD τ) ↦[arg6.view.set]{fullShare} f6)) : sProp 𝕄)
      ⊢ wp frame (wpE (defs₀ (F := F)) 𝒱 (c : Thread nD τ) bd) E (k0_t3_body (F := F) i arg1 harg1 arg2 harg2 arg3 harg3 arg4 harg4 arg5 harg5 arg6 harg6 k PUnit.unit)
          (fun _ => iprop((arg2.view.loc (c : Thread nD τ) ↦[arg2.view.set]{fullShare} X2) ∗ (arg3.view.loc (c : Thread nD τ) ↦[arg3.view.set]{fullShare} X3)
            ∗ (arg6.view.loc (c : Thread nD τ) ↦[arg6.view.set]{fullShare}
                arg6.view.writes (Elt F) f6 [(⟨rectW, k0_pay1 (ck3 arg2 X2 k) (ck3 arg3 X3 k) (arg6.view.readAt (Elt F) rectW.toLoadRect f6)⟩ : View.Piece (Elt F) S128x128 .f32)]))) := by
  have hk : k.val < 4 := Nat.lt_of_lt_of_le k.isLt k0_t3_abs.2.1
  unfold k0_t3_body
  iintro ⟨H2, H3, H6⟩
  sl_exec
  sl_step
  isplitl [H2]; · iexact H2
  isplitl [H3]; · iexact H3
  iexact H6

set_option warn.classDefReducibility false in
/-- The loop by its invariant: before trip k the two staged blocks are as they were and the scratch holds the stores of the
    trips before k over what it held at loop entry. -/
@[sl_loop] def loopInvA3 (𝒱 : Variants) (c : Dev nD) (bd : Option 𝒱.V) (E : Set ℕ) (i : grid0.Coords) (arg1 : Memref sig .tc .vmem S2x4096x128 .f32) (harg1 : arg1.IsWhole) (arg2 : Memref sig .tc .vmem S2x4096x128 .f32) (harg2 : arg2.IsWhole) (arg3 : Memref sig .tc .vmem S2x4096x128 .f32) (harg3 : arg3.IsWhole) (arg4 : Memref sig .tc .vmem S2x4096x128 .f32) (harg4 : arg4.IsWhole) (arg5 : Memref sig .tc .vmem S2x128x128 .f32) (harg5 : arg5.IsWhole) (arg6 : Memref sig .tc .vmem S128x128 .f32) (harg6 : arg6.IsWhole)
    (X2 : BufTy.Contents (Elt F) arg2.view.ty) (X3 : BufTy.Contents (Elt F) arg3.view.ty) (G6 : BufTy.Contents (Elt F) arg6.view.ty) :
    LoopInvTy_k0_t3 (F := F) Unit ℕ (UR sig nD τ) ℕ 𝒱 c bd E i arg1 harg1 arg2 harg2 arg3 harg3 arg4 harg4 arg5 harg5 arg6 harg6 where
  inv := fun k _ => iprop((arg2.view.loc (c : Thread nD τ) ↦[arg2.view.set]{fullShare} X2) ∗ (arg3.view.loc (c : Thread nD τ) ↦[arg3.view.set]{fullShare} X3)
    ∗ (∃ f, (arg6.view.loc (c : Thread nD τ) ↦[arg6.view.set]{fullShare} f) ∗ ⌜f = arg6.view.writes (Elt F) G6 (pbA3 (F := F) arg2 arg3 arg6 X2 X3 G6 k)⌝))
  step k acc := by
    iintro ⟨H2, H3, ⟨%f6, H6, %h6⟩⟩
    iapply (wp_wand_r Idealize.ShloMosaic.frame (wpE (defs₀ (F := F)) 𝒱 (c : Thread nD τ) bd) E)
    isplitl [H2 H3 H6]
    · iapply (tripA3 (F := F) 𝒱 c bd i arg1 harg1 arg2 harg2 arg3 harg3 arg4 harg4 arg5 harg5 arg6 harg6 X2 X3 k E f6)
      isplitl [H2]; · iexact H2
      isplitl [H3]; · iexact H3
      iexact H6
    · iintro %_ ⟨H2, H3, H6⟩
      isplitl [H2]; · iexact H2
      isplitl [H3]; · iexact H3
      rw [pbA3_succ]
      iexists _; isplitl [H6]; · iexact H6
      ipureintro; rw [h6, ← View.writes_append]; rfl

/-! ### The streaming loop of batch slice 1 -/

/-- Rows [1024 k, 1024 k + 1024) of batch slice 1 of a staged block: what trip k loads. -/
def ck4 (a : Memref sig .tc .vmem S2x4096x128 .f32) (X : BufTy.Contents (Elt F) a.view.ty) (k : Fin k0_t4_loop.trips) : Vec F S1024x128 .f32 :=
  (sl1 a).view.readAt (Elt F) (Rect.unit (s := S4096x128) (k0_off4 k) S1024x128.size (k0_off4_inb k)).toLoadRect X

/-- What the trips before k stored through batch slice 1 of the output's staging buffer, last first: trip j's chunk of q
    against the attention weights, at rows [1024 j, 1024 j + 1024). -/
def pbO4 (arg1 : Memref sig .tc .vmem S2x4096x128 .f32) (X1 : BufTy.Contents (Elt F) arg1.view.ty) (v25 : Vec F S128x128 .f32) :
    ℕ → List (View.Piece (Elt F) S4096x128 .f32)
  | 0 => []
  | k + 1 =>
    if h : k < k0_t4_loop.trips then
      (⟨Rect.unit (s := S4096x128) (k0_off4 ⟨k, h⟩) S1024x128.size (k0_off4_inb ⟨k, h⟩), k0_pay4 v25 (ck4 arg1 X1 ⟨k, h⟩)⟩ : View.Piece (Elt F) S4096x128 .f32)
        :: pbO4 arg1 X1 v25 k
    else pbO4 arg1 X1 v25 k

theorem pbO4_succ (arg1 : Memref sig .tc .vmem S2x4096x128 .f32) (X1 : BufTy.Contents (Elt F) arg1.view.ty) (v25 : Vec F S128x128 .f32) (k : Fin k0_t4_loop.trips) :
    pbO4 (F := F) arg1 X1 v25 (k.val + 1)
      = (⟨Rect.unit (s := S4096x128) (k0_off4 k) S1024x128.size (k0_off4_inb k), k0_pay4 v25 (ck4 arg1 X1 k)⟩ : View.Piece (Elt F) S4096x128 .f32)
        :: pbO4 arg1 X1 v25 k.val := by
  rw [pbO4.eq_2]; exact dif_pos k.isLt

/-- One trip: the staged block of q is read and left as it was; the output's staging buffer takes one more store, through
    its batch slice 1. -/
theorem tripO4 (𝒱 : Variants) (c : Dev nD) (bd : Option 𝒱.V) (i : grid0.Coords) (arg1 : Memref sig .tc .vmem S2x4096x128 .f32) (harg1 : arg1.IsWhole) (arg2 : Memref sig .tc .vmem S2x4096x128 .f32) (harg2 : arg2.IsWhole) (arg3 : Memref sig .tc .vmem S2x4096x128 .f32) (harg3 : arg3.IsWhole) (arg4 : Memref sig .tc .vmem S2x4096x128 .f32) (harg4 : arg4.IsWhole) (arg5 : Memref sig .tc .vmem S2x128x128 .f32) (harg5 : arg5.IsWhole) (arg6 : Memref sig .tc .vmem S128x128 .f32) (harg6 : arg6.IsWhole) (v25 : Vec F S128x128 .f32)
    (X1 : BufTy.Contents (Elt F) arg1.view.ty) (k : Fin k0_t4_loop.trips)
    (E : Set ℕ) (f4 : BufTy.Contents (Elt F) arg4.view.ty) :
    (iprop((arg1.view.loc (c : Thread nD τ) ↦[arg1.view.set]{fullShare} X1) ∗ (arg4.view.loc (c : Thread nD τ) ↦[arg4.view.set]{fullShare} f4)) : sProp 𝕄)
      ⊢ wp frame (wpE (defs₀ (F := F)) 𝒱 (c : Thread nD τ) bd) E (k0_t4_body (F := F) i arg1 harg1 arg2 harg2 arg3 harg3 arg4 harg4 arg5 harg5 arg6 harg6 v25 k PUnit.unit)
          (fun _ => iprop((arg1.view.loc (c : Thread nD τ) ↦[arg1.view.set]{fullShare} X1)
            ∗ (arg4.view.loc (c : Thread nD τ) ↦[arg4.view.set]{fullShare}
                (sl1 arg4).view.writes (Elt F) f4 [(⟨Rect.unit (s := S4096x128) (k0_off4 k) S1024x128.size (k0_off4_inb k), k0_pay4 v25 (ck4 arg1 X1 k)⟩ : View.Piece (Elt F) S4096x128 .f32)]))) := by
  have hk : k.val < 4 := Nat.lt_of_lt_of_le k.isLt k0_t4_abs.2.1
  unfold k0_t4_body
  iintro ⟨H1, H4⟩
  sl_exec
  iapply (wp_store_writes₀ 𝒱 (c : Thread nD τ) bd E (m := sl1 arg4) (sl1_access_subset arg4 _)) $$ H4
  iintro H4
  sl_step
  isplitl [H1]; · iexact H1
  iexact H4

set_option warn.classDefReducibility false in
/-- The loop by its invariant: before trip k the staged block of q is as it was and the output's staging buffer holds the
    stores of the trips before k over what it held at loop entry. -/
@[sl_loop] def loopInvO4 (𝒱 : Variants) (c : Dev nD) (bd : Option 𝒱.V) (E : Set ℕ) (i : grid0.Coords) (arg1 : Memref sig .tc .vmem S2x4096x128 .f32) (harg1 : arg1.IsWhole) (arg2 : Memref sig .tc .vmem S2x4096x128 .f32) (harg2 : arg2.IsWhole) (arg3 : Memref sig .tc .vmem S2x4096x128 .f32) (harg3 : arg3.IsWhole) (arg4 : Memref sig .tc .vmem S2x4096x128 .f32) (harg4 : arg4.IsWhole) (arg5 : Memref sig .tc .vmem S2x128x128 .f32) (harg5 : arg5.IsWhole) (arg6 : Memref sig .tc .vmem S128x128 .f32) (harg6 : arg6.IsWhole) (v25 : Vec F S128x128 .f32)
    (X1 : BufTy.Contents (Elt F) arg1.view.ty) (G4 : BufTy.Contents (Elt F) arg4.view.ty) :
    LoopInvTy_k0_t4 (F := F) Unit ℕ (UR sig nD τ) ℕ 𝒱 c bd E i arg1 harg1 arg2 harg2 arg3 harg3 arg4 harg4 arg5 harg5 arg6 harg6 v25 where
  inv := fun k _ => iprop((arg1.view.loc (c : Thread nD τ) ↦[arg1.view.set]{fullShare} X1)
    ∗ (∃ f, (arg4.view.loc (c : Thread nD τ) ↦[arg4.view.set]{fullShare} f) ∗ ⌜f = (sl1 arg4).view.writes (Elt F) G4 (pbO4 (F := F) arg1 X1 v25 k)⌝))
  step k acc := by
    iintro ⟨H1, ⟨%f4, H4, %h4⟩⟩
    iapply (wp_wand_r Idealize.ShloMosaic.frame (wpE (defs₀ (F := F)) 𝒱 (c : Thread nD τ) bd) E)
    isplitl [H1 H4]
    · iapply (tripO4 (F := F) 𝒱 c bd i arg1 harg1 arg2 harg2 arg3 harg3 arg4 harg4 arg5 harg5 arg6 harg6 v25 X1 k E f4)
      isplitl [H1]; · iexact H1
      iexact H4
    · iintro %_ ⟨H1, H4⟩
      isplitl [H1]; · iexact H1
      rw [pbO4_succ]
      iexists _; isplitl [H4]; · iexact H4
      ipureintro; rw [h4, ← View.writes_append]; rfl

end Cert.KernelIdeal.Body

end
-- ==== Proof.RunIdeal.lean ====
/-
  The kernel body run once, at any grid point, on whole staging buffers: the three staged input blocks are read and left
  as they were; the scratch ends at some contents; the attention buffer ends holding, in its two batch slices, the row-wise
  softmax of what the scratch held after each accumulating loop; the output's staging buffer ends holding, through its two
  batch slices, the stores of the two streaming loops over whatever it held before.
-/
import proofs.«106405_j65223373357266_2_alg».proof.Proof.LoopsIdeal
import proofs.«106405_j65223373357266_2_alg».proof.Proof.LibWhole

set_option maxRecDepth 16384
set_option maxHeartbeats 4000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

open Cert.Lib.Whole

local notation "𝕄" => MT nD τ sig Unit (Elt F) ℕ (UR sig nD τ) ℕ

/-! ## What the scratch holds along the body -/

/-- The scratch after the zero fill that opens batch slice 0. -/
def G1 (arg6 : Memref sig .tc .vmem S128x128 .f32) : BufTy.Contents (Elt F) arg6.view.ty :=
  arg6.view.writes (Elt F) arg6.view.junk [(⟨rectW, k0_pay5⟩ : View.Piece (Elt F) S128x128 .f32)]

/-- Every store into the scratch up to the end of batch slice 0's accumulating loop, last first. -/
def LA1 (arg2 arg3 : Memref sig .tc .vmem S2x4096x128 .f32) (arg6 : Memref sig .tc .vmem S128x128 .f32) (X2 : BufTy.Contents (Elt F) arg2.view.ty) (X3 : BufTy.Contents (Elt F) arg3.view.ty) : List (View.Piece (Elt F) S128x128 .f32) :=
  pbA1 arg2 arg3 arg6 X2 X3 (G1 arg6) k0_t1_loop.trips ++ [(⟨rectW, k0_pay5⟩ : View.Piece (Elt F) S128x128 .f32)]

/-- Batch slice 0's logits: the scratch read whole after its accumulating loop. -/
def V5 (arg2 arg3 : Memref sig .tc .vmem S2x4096x128 .f32) (arg6 : Memref sig .tc .vmem S128x128 .f32) (X2 : BufTy.Contents (Elt F) arg2.view.ty) (X3 : BufTy.Contents (Elt F) arg3.view.ty) : Vec F S128x128 .f32 :=
  arg6.view.readCov (LA1 arg2 arg3 arg6 X2 X3) rectW.toLoadRect

/-- The scratch after the zero fill that opens batch slice 1. -/
def G3 (arg2 arg3 : Memref sig .tc .vmem S2x4096x128 .f32) (arg6 : Memref sig .tc .vmem S128x128 .f32) (X2 : BufTy.Contents (Elt F) arg2.view.ty) (X3 : BufTy.Contents (Elt F) arg3.view.ty) : BufTy.Contents (Elt F) arg6.view.ty :=
  arg6.view.writes (Elt F) arg6.view.junk ((⟨rectW, k0_pay10⟩ : View.Piece (Elt F) S128x128 .f32) :: LA1 arg2 arg3 arg6 X2 X3)

/-- Every store into the scratch up to the end of batch slice 1's accumulating loop, last first. -/
def LA3 (arg2 arg3 : Memref sig .tc .vmem S2x4096x128 .f32) (arg6 : Memref sig .tc .vmem S128x128 .f32) (X2 : BufTy.Contents (Elt F) arg2.view.ty) (X3 : BufTy.Contents (Elt F) arg3.view.ty) : List (View.Piece (Elt F) S128x128 .f32) :=
  pbA3 arg2 arg3 arg6 X2 X3 (G3 arg2 arg3 arg6 X2 X3) k0_t3_loop.trips ++ (⟨rectW, k0_pay10⟩ : View.Piece (Elt F) S128x128 .f32) :: LA1 arg2 arg3 arg6 X2 X3

/-- Batch slice 1's logits: the scratch read whole after its accumulating loop. -/
def V25 (arg2 arg3 : Memref sig .tc .vmem S2x4096x128 .f32) (arg6 : Memref sig .tc .vmem S128x128 .f32) (X2 : BufTy.Contents (Elt F) arg2.view.ty) (X3 : BufTy.Contents (Elt F) arg3.view.ty) : Vec F S128x128 .f32 :=
  arg6.view.readCov (LA3 arg2 arg3 arg6 X2 X3) rectW.toLoadRect

/-! ## What the two output buffers end with -/

/-- The attention buffer at the end: each batch slice stored once, over anything. -/
def C5 (arg2 arg3 : Memref sig .tc .vmem S2x4096x128 .f32) (arg6 : Memref sig .tc .vmem S128x128 .f32) (X2 : BufTy.Contents (Elt F) arg2.view.ty) (X3 : BufTy.Contents (Elt F) arg3.view.ty) (arg5 : Memref sig .tc .vmem S2x128x128 .f32) : BufTy.Contents (Elt F) arg5.view.ty :=
  arg5.view.writes (Elt F) arg5.view.junk
    [(⟨Rect.unit (s := S2x128x128) ![1, 0, 0] S1x128x128.size inb_S2x128x128_S1x128x128_1_0_0, k0_pay3 (V25 arg2 arg3 arg6 X2 X3)⟩ : View.Piece (Elt F) S2x128x128 .f32),
     (⟨Rect.unit (s := S2x128x128) ![0, 0, 0] S1x128x128.size inb_S2x128x128_S1x128x128_0_0_0, k0_pay8 (V5 arg2 arg3 arg6 X2 X3)⟩ : View.Piece (Elt F) S2x128x128 .f32)]

/-- The output's staging buffer at the end, over what it held before (f3): the four chunk stores of each streaming loop,
    through the loop's batch slice. -/
def C4 (arg2 arg3 : Memref sig .tc .vmem S2x4096x128 .f32) (arg6 : Memref sig .tc .vmem S128x128 .f32) (X2 : BufTy.Contents (Elt F) arg2.view.ty) (X3 : BufTy.Contents (Elt F) arg3.view.ty) (arg1 arg4 : Memref sig .tc .vmem S2x4096x128 .f32) (X1 : BufTy.Contents (Elt F) arg1.view.ty)
    (f3 : BufTy.Contents (Elt F) arg4.view.ty) : BufTy.Contents (Elt F) arg4.view.ty :=
  (sl1 arg4).view.writes (Elt F)
    ((sl0 arg4).view.writes (Elt F) f3 (pbO2 arg1 X1 (V5 arg2 arg3 arg6 X2 X3) k0_t2_loop.trips))
    (pbO4 arg1 X1 (V25 arg2 arg3 arg6 X2 X3) k0_t4_loop.trips)

/-! ## The first half: batch slice 0, and the zero fill that opens batch slice 1 -/

/-- The attention buffer after batch slice 0's store, over what it held before. -/
def C5a (arg2 arg3 : Memref sig .tc .vmem S2x4096x128 .f32) (arg6 : Memref sig .tc .vmem S128x128 .f32) (X2 : BufTy.Contents (Elt F) arg2.view.ty) (X3 : BufTy.Contents (Elt F) arg3.view.ty) (arg5 : Memref sig .tc .vmem S2x128x128 .f32)
    (f4 : BufTy.Contents (Elt F) arg5.view.ty) : BufTy.Contents (Elt F) arg5.view.ty :=
  arg5.view.writes (Elt F) f4
    [(⟨Rect.unit (s := S2x128x128) ![0, 0, 0] S1x128x128.size inb_S2x128x128_S1x128x128_0_0_0, k0_pay8 (V5 arg2 arg3 arg6 X2 X3)⟩ : View.Piece (Elt F) S2x128x128 .f32)]

/-- The output's staging buffer after batch slice 0's streaming loop, over what it held before. -/
def C4a (arg2 arg3 : Memref sig .tc .vmem S2x4096x128 .f32) (arg6 : Memref sig .tc .vmem S128x128 .f32) (X2 : BufTy.Contents (Elt F) arg2.view.ty) (X3 : BufTy.Contents (Elt F) arg3.view.ty) (arg1 arg4 : Memref sig .tc .vmem S2x4096x128 .f32) (X1 : BufTy.Contents (Elt F) arg1.view.ty)
    (f3 : BufTy.Contents (Elt F) arg4.view.ty) : BufTy.Contents (Elt F) arg4.view.ty :=
  (sl0 arg4).view.writes (Elt F) f3 (pbO2 arg1 X1 (V5 arg2 arg3 arg6 X2 X3) k0_t2_loop.trips)

/-- The first half of the body: the three staged blocks are read and left as they were; the output's staging buffer takes
    batch slice 0's four chunk stores, the attention buffer batch slice 0's softmax, and the scratch ends zero-filled over
    everything stored into it so far. -/
theorem part1Run (c : Dev nD) (i : grid0.Coords) (arg1 : Memref sig .tc .vmem S2x4096x128 .f32) (harg1 : arg1.IsWhole) (arg2 : Memref sig .tc .vmem S2x4096x128 .f32) (harg2 : arg2.IsWhole) (arg3 : Memref sig .tc .vmem S2x4096x128 .f32) (harg3 : arg3.IsWhole) (arg4 : Memref sig .tc .vmem S2x4096x128 .f32) (harg4 : arg4.IsWhole) (arg5 : Memref sig .tc .vmem S2x128x128 .f32) (harg5 : arg5.IsWhole) (arg6 : Memref sig .tc .vmem S128x128 .f32) (harg6 : arg6.IsWhole)
    (X1 : BufTy.Contents (Elt F) arg1.view.ty) (X2 : BufTy.Contents (Elt F) arg2.view.ty) (X3 : BufTy.Contents (Elt F) arg3.view.ty)
    (f3 : BufTy.Contents (Elt F) arg4.view.ty) (f4 : BufTy.Contents (Elt F) arg5.view.ty) (f5 : BufTy.Contents (Elt F) arg6.view.ty)
    (E : Set ℕ) (K : BitVec 32 → sProp 𝕄) :
      iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3)
          ∗ (arg4.view.loc (c : Thread nD τ) ↦[arg4.view.set]{fullShare} f3) ∗ (arg5.view.loc (c : Thread nD τ) ↦[arg5.view.set]{fullShare} f4) ∗ (arg6.view.loc (c : Thread nD τ) ↦[arg6.view.set]{fullShare} f5)
          ∗ (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3)
                ∗ (arg4.view.loc (c : Thread nD τ) ↦[arg4.view.set]{fullShare} C4a arg2 arg3 arg6 X2 X3 arg1 arg4 X1 f3)
                ∗ (arg5.view.loc (c : Thread nD τ) ↦[arg5.view.set]{fullShare} C5a arg2 arg3 arg6 X2 X3 arg5 f4)
                ∗ (arg6.view.loc (c : Thread nD τ) ↦[arg6.view.set]{fullShare} G3 arg2 arg3 arg6 X2 X3)) -∗ K 0#32))
          ⊢ wp frame (wpE (defs₀ (F := F)) Variants.none c none) E (k0_part1 i arg1 harg1 arg2 harg2 arg3 harg3 arg4 harg4 arg5 harg5 arg6 harg6) K := by
    simp only [k0_part1_eq_skeleton]; unfold k0_part1_skel
    iintro ⟨H0, H1, H2, H3, H4, H5, Hk⟩
    sl_exec
    sl_step
    sl_unfold_words
    iapply Hk
    isplitl [H0]; · iexact H0
    isplitl [H1]; · iexact H1
    isplitl [H2]; · iexact H2
    isplitl [H3]; · iexact H3
    isplitl [H4]; · iexact H4
    iexact H5

/-- Before trip k of batch slice 1's accumulating loop: the two staged blocks as they were, the scratch holding the stores of
    the trips before k over what it held at loop entry. -/
def invA3 (c : Dev nD) (arg2 arg3 : Memref sig .tc .vmem S2x4096x128 .f32) (arg6 : Memref sig .tc .vmem S128x128 .f32)
    (X2 : BufTy.Contents (Elt F) arg2.view.ty) (X3 : BufTy.Contents (Elt F) arg3.view.ty) (G6 : BufTy.Contents (Elt F) arg6.view.ty) :
    ℕ → Unit → sProp 𝕄 :=
  fun k _ => iprop((arg2.view.loc (c : Thread nD τ) ↦[arg2.view.set]{fullShare} X2) ∗ (arg3.view.loc (c : Thread nD τ) ↦[arg3.view.set]{fullShare} X3)
    ∗ (∃ f, (arg6.view.loc (c : Thread nD τ) ↦[arg6.view.set]{fullShare} f) ∗ ⌜f = arg6.view.writes (Elt F) G6 (pbA3 (F := F) arg2 arg3 arg6 X2 X3 G6 k)⌝))

/-- Before trip k of batch slice 1's streaming loop: the staged block of q as it was, the output's staging buffer holding the
    stores of the trips before k over what it held at loop entry. -/
def invO4 (c : Dev nD) (arg1 arg4 : Memref sig .tc .vmem S2x4096x128 .f32) (v25 : Vec F S128x128 .f32)
    (X1 : BufTy.Contents (Elt F) arg1.view.ty) (G4 : BufTy.Contents (Elt F) arg4.view.ty) :
    ℕ → Unit → sProp 𝕄 :=
  fun k _ => iprop((arg1.view.loc (c : Thread nD τ) ↦[arg1.view.set]{fullShare} X1)
    ∗ (∃ f, (arg4.view.loc (c : Thread nD τ) ↦[arg4.view.set]{fullShare} f) ∗ ⌜f = (sl1 arg4).view.writes (Elt F) G4 (pbO4 (F := F) arg1 X1 v25 k)⌝))

/-- The attention buffer's two batch-slice stores cover it: whatever it held before is nowhere read. -/
theorem attn_cover (arg5 : Memref sig .tc .vmem S2x128x128 .f32) (harg5 : arg5.IsWhole) (f4 : BufTy.Contents (Elt F) arg5.view.ty)
    (w0 : (Rect.unit (s := S2x128x128) ![0, 0, 0] S1x128x128.size inb_S2x128x128_S1x128x128_0_0_0).shape.Idx → Elt F .f32) (w1 : (Rect.unit (s := S2x128x128) ![1, 0, 0] S1x128x128.size inb_S2x128x128_S1x128x128_1_0_0).shape.Idx → Elt F .f32) :
    arg5.view.writes (Elt F) (arg5.view.writes (Elt F) f4 [(⟨Rect.unit (s := S2x128x128) ![0, 0, 0] S1x128x128.size inb_S2x128x128_S1x128x128_0_0_0, w0⟩ : View.Piece (Elt F) S2x128x128 .f32)])
        [(⟨Rect.unit (s := S2x128x128) ![1, 0, 0] S1x128x128.size inb_S2x128x128_S1x128x128_1_0_0, w1⟩ : View.Piece (Elt F) S2x128x128 .f32)]
      = arg5.view.writes (Elt F) arg5.view.junk
          [(⟨Rect.unit (s := S2x128x128) ![1, 0, 0] S1x128x128.size inb_S2x128x128_S1x128x128_1_0_0, w1⟩ : View.Piece (Elt F) S2x128x128 .f32), (⟨Rect.unit (s := S2x128x128) ![0, 0, 0] S1x128x128.size inb_S2x128x128_S1x128x128_0_0_0, w0⟩ : View.Piece (Elt F) S2x128x128 .f32)] := by
  have hc : LoadRect.covChk [Rect.unit (s := S2x128x128) ![1, 0, 0] S1x128x128.size inb_S2x128x128_S1x128x128_1_0_0, Rect.unit (s := S2x128x128) ![0, 0, 0] S1x128x128.size inb_S2x128x128_S1x128x128_0_0_0] (LoadRect.whole S2x128x128) (.split 0 1 (.leaf 1) (.leaf 0)) = true := by decide
  rw [← View.writes_append]
  exact Memref.writes_eq_junk_of_covChk harg5 f4 _ _ hc

/-! ## The body's triple -/

/-- The body at any point, on whole staging buffers holding the three input blocks x0 (q), x1 (k), x2 (v) and anything in the
    outputs' buffers and the scratch. -/
theorem kernelRun (c : Dev nD) (i : grid0.Coords) (arg1 : Memref sig .tc .vmem S2x4096x128 .f32) (harg1 : arg1.IsWhole) (arg2 : Memref sig .tc .vmem S2x4096x128 .f32) (harg2 : arg2.IsWhole) (arg3 : Memref sig .tc .vmem S2x4096x128 .f32) (harg3 : arg3.IsWhole) (arg4 : Memref sig .tc .vmem S2x4096x128 .f32) (harg4 : arg4.IsWhole) (arg5 : Memref sig .tc .vmem S2x128x128 .f32) (harg5 : arg5.IsWhole) (arg6 : Memref sig .tc .vmem S128x128 .f32) (harg6 : arg6.IsWhole)
    (x0 x1 x2 : Vec F S2x4096x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f3, arg4.view.loc (c : Thread nD τ) ↦[arg4.view.set]{fullShare} C4 arg2 arg3 arg6 (harg2.unread x1) (harg3.unread x2) arg1 arg4 (harg1.unread x0) f3)
                ∗ (arg5.view.loc (c : Thread nD τ) ↦[arg5.view.set]{fullShare} C5 arg2 arg3 arg6 (harg2.unread x1) (harg3.unread x2) arg5)
                ∗ (∃ d, owns (c : Thread nD τ) arg6 fullShare d)) -∗ K ⟨⟩))
          ⊢ wp frame (wpE (defs₀ (F := F)) Variants.none c none) E (cc0__rev_attn_kernel i arg1 harg1 arg2 harg2 arg3 harg3 arg4 harg4 arg5 harg5 arg6 harg6) K := by
    intro E K
    simp only [cc0__rev_attn_kernel_eq_skeleton]; unfold cc0__rev_attn_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    -- the first half
    rw [wp_bind]
    iapply (part1Run c i arg1 harg1 arg2 harg2 arg3 harg3 arg4 harg4 arg5 harg5 arg6 harg6 (harg1.unread x0) (harg2.unread x1) (harg3.unread x2) f3 f4 f5 E _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    beta_reduce
    -- batch slice 1's accumulating loop, by its invariant
    sl_for (invA3 c arg2 arg3 arg6 (harg2.unread x1) (harg3.unread x2) (G3 arg2 arg3 arg6 (harg2.unread x1) (harg3.unread x2))) $$ [H1 H2 H5]
    · exact (loopInvA3 Variants.none c none E i arg1 harg1 arg2 harg2 arg3 harg3 arg4 harg4 arg5 harg5 arg6 harg6 (harg2.unread x1) (harg3.unread x2) (G3 arg2 arg3 arg6 (harg2.unread x1) (harg3.unread x2))).step
    · unfold invA3
      isplitl [H1]; · iexact H1
      isplitl [H2]; · iexact H2
      iexists _; isplitl [H5]; · iexact H5
      ipureintro; rfl
    iintro %acc HL
    unfold invA3
    icases HL with ⟨H1, H2, ⟨%f6, H5, %h6⟩⟩
    subst h6
    -- the whole load of the scratch, and batch slice 1's store into the attention buffer
    set_option sl_exec.maxSteps 3 in sl_exec
    have h3 : (3 : ℕ) < k0_t3_loop.trips := by decide
    have ht4 : k0_t3_loop.trips = 4 := by decide
    have ht : k0_t3_loop.trips = (⟨3, h3⟩ : Fin k0_t3_loop.trips).val + 1 := ht4
    have hv : (kernelRun.sl.v25 arg2 harg2 arg3 harg3 arg6 x1 x2) = V25 arg2 arg3 arg6 (harg2.unread x1) (harg3.unread x2) := by
      have hL : (kernelRun.sl.v25 arg2 harg2 arg3 harg3 arg6 x1 x2) = arg6.view.readCov (pbA3 arg2 arg3 arg6 (harg2.unread x1) (harg3.unread x2) (G3 arg2 arg3 arg6 (harg2.unread x1) (harg3.unread x2)) k0_t3_loop.trips) rectW.toLoadRect := rfl
      rw [hL]; unfold V25 LA3
      rw [ht, pbA3_succ, List.cons_append, readCov_whole arg6.view zero2, readCov_whole arg6.view zero2]
    beta_reduce
    -- batch slice 1's streaming loop, by its invariant
    sl_for (invO4 c arg1 arg4 (kernelRun.sl.v25 arg2 harg2 arg3 harg3 arg6 x1 x2) (harg1.unread x0) (C4a arg2 arg3 arg6 (harg2.unread x1) (harg3.unread x2) arg1 arg4 (harg1.unread x0) f3)) $$ [H0 H3]
    · exact (loopInvO4 Variants.none c none E i arg1 harg1 arg2 harg2 arg3 harg3 arg4 harg4 arg5 harg5 arg6 harg6 (kernelRun.sl.v25 arg2 harg2 arg3 harg3 arg6 x1 x2) (harg1.unread x0) (C4a arg2 arg3 arg6 (harg2.unread x1) (harg3.unread x2) arg1 arg4 (harg1.unread x0) f3)).step
    · unfold invO4
      isplitl [H0]; · iexact H0
      iexists _; isplitl [H3]; · iexact H3
      ipureintro; rfl
    iintro %acc2 HL
    unfold invO4
    icases HL with ⟨H0, ⟨%f7, H3, %h7⟩⟩
    subst h7
    sl_exec
    sl_step
    sl_unfold_words
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists f3
      have e4 : C4 arg2 arg3 arg6 (harg2.unread x1) (harg3.unread x2) arg1 arg4 (harg1.unread x0) f3
          = (sl1 arg4).view.writes (Elt F) (C4a arg2 arg3 arg6 (harg2.unread x1) (harg3.unread x2) arg1 arg4 (harg1.unread x0) f3) (pbO4 arg1 (harg1.unread x0) (kernelRun.sl.v25 arg2 harg2 arg3 harg3 arg6 x1 x2) k0_t4_loop.trips) := by rw [hv]; rfl
      rw [e4]; iexact H3
    isplitl [H4]
    · have e5 : C5 arg2 arg3 arg6 (harg2.unread x1) (harg3.unread x2) arg5
          = arg5.view.writes (Elt F) (C5a arg2 arg3 arg6 (harg2.unread x1) (harg3.unread x2) arg5 f4)
              [(⟨Rect.unit (s := S2x128x128) ![1, 0, 0] S1x128x128.size inb_S2x128x128_S1x128x128_1_0_0, k0_pay3 (kernelRun.sl.v25 arg2 harg2 arg3 harg3 arg6 x1 x2)⟩ : View.Piece (Elt F) S2x128x128 .f32)] := by
        rw [hv]; exact (attn_cover arg5 harg5 f4 _ _).symm
      rw [e5]; iexact H4
    iexists _, _; isplitr; swap; · iexact H5
    ipureintro; rfl

end Cert.KernelIdeal.Body

end
-- ==== Proof.SlicesIdeal.lean ====
/-
  The two batch slices of a staged [2, 4096, 128] buffer, and the chunks of 1024 rows the body's loops take from them and
  store into them, read entry by entry. Batch slice b is the buffer's rectangle [b, b + 1) × [0, 4096) × [0, 128) with its
  unit axis dropped, so its entry (r, e) is the buffer's entry (b, r, e); the two slices share no element, so stores through
  one are not seen through the other; trip k's chunk is rows [1024 k, 1024 k + 1024) of the slice; and the four stores of a
  streaming loop, at the four chunks, tile the slice, so that afterwards row r holds chunk r / 1024's payload at its
  row r % 1024, whatever the slice held before. All of it is about placements of indices: it holds at any float values.
-/
import proofs.«106405_j65223373357266_2_alg».proof.Proof.LoopsIdeal
import Idealize.ShloMosaic.Lib.ValueIdx
import Idealize.ShloMosaic.Lib.Pipeline.Value

set_option maxRecDepth 16384

noncomputable section

namespace Cert.KernelIdeal.Slices

open Cert.KernelIdeal Cert.KernelIdeal.Gen Cert.KernelIdeal.Body Idealize.ShloMosaic Idealize.ShloMosaic.ValueIdx

variable {F : FTy → Type} [FloatOps F] [Named F]

/-! ## A batch slice's entries are the buffer's -/

/-- Row r, column e of a [4096, 128] array sits at the row-major position of (0, r, e) in [1, 4096, 128]. -/
theorem reshape_row (h : S4096x128.numel = (⟨3, S1x4096x128.size⟩ : Shape).numel) (r : Fin 4096) (e : Fin 128) :
    Shape.reshapeEquiv h (ix2 r e) = (ix3 (0 : Fin 1) r e : (⟨3, S1x4096x128.size⟩ : Shape).Idx) :=
  Shape.reshapeEquiv_eq_of_rowMajor h (by
    rw [Shape.rowMajor_val_two, Shape.rowMajor_val_three]
    show ((0 : Fin 1).val * 4096 + r.val) * 128 + e.val = r.val * 128 + e.val
    simp)

/-- The rectangle of one batch in [2, 4096, 128], at offsets (b, 0, 0), places (0, r, e) at (b, r, e). -/
theorem batch_emb (off : Fin 3 → ℕ) (inb : ∀ a, off a + S1x4096x128.size a ≤ S2x4096x128.size a) (b : Fin 2)
    (h0 : off 0 = b.val) (h1 : off 1 = 0) (h2 : off 2 = 0) (r : Fin 4096) (e : Fin 128) :
    (Rect.unit (s := S2x4096x128) off S1x4096x128.size inb).emb (ix3 (0 : Fin 1) r e) = ix3 b r e := by
  funext c; apply Fin.ext
  rw [Rect.emb_apply]
  match c with
  | ⟨0, _⟩ => show off 0 + 1 * (0 : Fin 1).val = b.val; rw [h0]; simp
  | ⟨1, _⟩ => show off 1 + 1 * r.val = r.val; rw [h1]; simp
  | ⟨2, _⟩ => show off 2 + 1 * e.val = e.val; rw [h2]; simp

/-- Batch slice 0 places (r, e) where the buffer places (0, r, e). -/
theorem emb_sl0 (a : Memref sig .tc .vmem S2x4096x128 .f32) (r : Fin 4096) (e : Fin 128) :
    (sl0 a).view.emb (ix2 r e) = a.view.emb (ix3 (0 : Fin 2) r e) := by
  show a.view.emb ((Rect.unit (s := S2x4096x128) ![0, 0, 0] S1x4096x128.size inb_S2x4096x128_S1x4096x128_0_0_0).emb
    (Shape.reshapeEquiv _ (ix2 r e))) = _
  rw [reshape_row, batch_emb _ _ (0 : Fin 2) rfl rfl rfl]

/-- Batch slice 1 places (r, e) where the buffer places (1, r, e). -/
theorem emb_sl1 (a : Memref sig .tc .vmem S2x4096x128 .f32) (r : Fin 4096) (e : Fin 128) :
    (sl1 a).view.emb (ix2 r e) = a.view.emb (ix3 (1 : Fin 2) r e) := by
  show a.view.emb ((Rect.unit (s := S2x4096x128) ![1, 0, 0] S1x4096x128.size inb_S2x4096x128_S1x4096x128_1_0_0).emb
    (Shape.reshapeEquiv _ (ix2 r e))) = _
  rw [reshape_row, batch_emb _ _ (1 : Fin 2) rfl rfl rfl]

/-- A read through batch slice 0 at (r, e) is the buffer's element (0, r, e). -/
theorem read_sl0 (a : Memref sig .tc .vmem S2x4096x128 .f32) (g : BufTy.Contents (Elt F) a.view.ty) (r : Fin 4096) (e : Fin 128) :
    (sl0 a).view.read (Elt F) g (ix2 r e) = a.view.read (Elt F) g (ix3 (0 : Fin 2) r e) := by
  rw [View.read_apply, View.read_apply, emb_sl0]

/-- A read through batch slice 1 at (r, e) is the buffer's element (1, r, e). -/
theorem read_sl1 (a : Memref sig .tc .vmem S2x4096x128 .f32) (g : BufTy.Contents (Elt F) a.view.ty) (r : Fin 4096) (e : Fin 128) :
    (sl1 a).view.read (Elt F) g (ix2 r e) = a.view.read (Elt F) g (ix3 (1 : Fin 2) r e) := by
  rw [View.read_apply, View.read_apply, emb_sl1]

/-! ## Stores through one batch slice are not seen through the other -/

/-- The elements under batch slice 0: the buffer's elements under the rectangle [0, 1) × [0, 4096) × [0, 128). -/
theorem set_sl0 (a : Memref sig .tc .vmem S2x4096x128 .f32) :
    (sl0 a).view.set
      = (Rect.unit (s := S2x4096x128) ![0, 0, 0] S1x4096x128.size inb_S2x4096x128_S1x4096x128_0_0_0).set.map a.view.emb := by
  show ((a.view.slice _).reshape _ _).set = _
  rw [View.set_reshape, View.set_slice]

/-- The elements under batch slice 1: the buffer's elements under the rectangle [1, 2) × [0, 4096) × [0, 128). -/
theorem set_sl1 (a : Memref sig .tc .vmem S2x4096x128 .f32) :
    (sl1 a).view.set
      = (Rect.unit (s := S2x4096x128) ![1, 0, 0] S1x4096x128.size inb_S2x4096x128_S1x4096x128_1_0_0).set.map a.view.emb := by
  show ((a.view.slice _).reshape _ _).set = _
  rw [View.set_reshape, View.set_slice]

/-- The two batch slices share no element of the buffer: their rectangles are separated on the leading axis. -/
theorem sl_disjoint (a : Memref sig .tc .vmem S2x4096x128 .f32) : Disjoint (sl0 a).view.set (sl1 a).view.set := by
  rw [set_sl0, set_sl1, Finset.disjoint_map]
  exact Rect.unit_disjoint 0 (Or.inl (by decide))

/-- Any list of stores through batch slice 1 leaves what batch slice 0 reads as it was. -/
theorem read_sl0_writes_sl1 (a : Memref sig .tc .vmem S2x4096x128 .f32) (g : BufTy.Contents (Elt F) a.view.ty)
    (L : List (View.Piece (Elt F) S4096x128 .f32)) :
    (sl0 a).view.read (Elt F) ((sl1 a).view.writes (Elt F) g L) = (sl0 a).view.read (Elt F) g := by
  induction L with
  | nil => rfl
  | cons p L ih =>
    rw [View.writes_cons, ← ih]
    refine View.read_congr fun i hi => View.write_of_not_mem _ _ _ fun hm => ?_
    rw [View.setOn_univ] at hm
    exact Finset.disjoint_left.mp (sl_disjoint a) hi (View.set_slice_subset _ p.1 hm)

/-- Any list of stores through batch slice 0 leaves what batch slice 1 reads as it was. -/
theorem read_sl1_writes_sl0 (a : Memref sig .tc .vmem S2x4096x128 .f32) (g : BufTy.Contents (Elt F) a.view.ty)
    (L : List (View.Piece (Elt F) S4096x128 .f32)) :
    (sl1 a).view.read (Elt F) ((sl0 a).view.writes (Elt F) g L) = (sl1 a).view.read (Elt F) g := by
  induction L with
  | nil => rfl
  | cons p L ih =>
    rw [View.writes_cons, ← ih]
    refine View.read_congr fun i hi => View.write_of_not_mem _ _ _ fun hm => ?_
    rw [View.setOn_univ] at hm
    exact Finset.disjoint_right.mp (sl_disjoint a) hi (View.set_slice_subset _ p.1 hm)

/-! ## A trip's chunk, entry by entry -/

/-- A load of 1024 rows from row 1024 m of a [4096, 128] view reads, at (j, d), the view at (1024 m + j, d). -/
theorem readAt_chunk (v : View sig .tc .vmem S4096x128 .f32) (X : BufTy.Contents (Elt F) v.ty) (off : Fin 2 → ℕ)
    (inb : ∀ a, off a + S1024x128.size a ≤ S4096x128.size a) (m : ℕ) (hoff : off = ![1024 * m, 0])
    (j : Fin 1024) (d : Fin 128) (h : 1024 * m + j.val < 4096) :
    v.readAt (Elt F) (Rect.unit (s := S4096x128) off S1024x128.size inb).toLoadRect X (ix2 j d)
      = v.read (Elt F) X (ix2 (⟨1024 * m + j.val, h⟩ : Fin 4096) d) := by
  subst hoff
  rw [View.readAt_apply]
  refine congrArg (v.read (Elt F) X) (funext fun c => Fin.ext ?_)
  rw [LoadRect.idx_apply]
  match c with
  | ⟨0, _⟩ => show 1024 * m + 1 * j.val = 1024 * m + j.val; rw [Nat.one_mul]
  | ⟨1, _⟩ => show 0 + 1 * d.val = d.val; rw [Nat.one_mul, Nat.zero_add]

/-- Row 1024 k + j of a chunk below the fourth is a row of the slice. -/
theorem chunk_row_lt {T : ℕ} (hT : T ≤ 4) (k : Fin T) (j : Fin 1024) : 1024 * k.val + j.val < 4096 := by
  have := k.isLt; have := j.isLt; omega

/-- Trip k's chunk of batch slice 0 in the accumulating loop, at (j, d): the slice's row 1024 k + j. -/
theorem ck1_apply (a : Memref sig .tc .vmem S2x4096x128 .f32) (X : BufTy.Contents (Elt F) a.view.ty) (k : Fin k0_t1_loop.trips)
    (j : Fin 1024) (d : Fin 128) (h : 1024 * k.val + j.val < 4096) :
    ck1 a X k (ix2 j d) = (sl0 a).view.read (Elt F) X (ix2 (⟨1024 * k.val + j.val, h⟩ : Fin 4096) d) :=
  readAt_chunk (sl0 a).view X _ _ k.val (k0_off1_eq k) j d h

/-- Trip k's chunk of batch slice 0 in the streaming loop, at (j, d): the slice's row 1024 k + j. -/
theorem ck2_apply (a : Memref sig .tc .vmem S2x4096x128 .f32) (X : BufTy.Contents (Elt F) a.view.ty) (k : Fin k0_t2_loop.trips)
    (j : Fin 1024) (d : Fin 128) (h : 1024 * k.val + j.val < 4096) :
    ck2 a X k (ix2 j d) = (sl0 a).view.read (Elt F) X (ix2 (⟨1024 * k.val + j.val, h⟩ : Fin 4096) d) :=
  readAt_chunk (sl0 a).view X _ _ k.val (k0_off2_eq k) j d h

/-- Trip k's chunk of batch slice 1 in the accumulating loop, at (j, d): the slice's row 1024 k + j. -/
theorem ck3_apply (a : Memref sig .tc .vmem S2x4096x128 .f32) (X : BufTy.Contents (Elt F) a.view.ty) (k : Fin k0_t3_loop.trips)
    (j : Fin 1024) (d : Fin 128) (h : 1024 * k.val + j.val < 4096) :
    ck3 a X k (ix2 j d) = (sl1 a).view.read (Elt F) X (ix2 (⟨1024 * k.val + j.val, h⟩ : Fin 4096) d) :=
  readAt_chunk (sl1 a).view X _ _ k.val (k0_off3_eq k) j d h

/-- Trip k's chunk of batch slice 1 in the streaming loop, at (j, d): the slice's row 1024 k + j. -/
theorem ck4_apply (a : Memref sig .tc .vmem S2x4096x128 .f32) (X : BufTy.Contents (Elt F) a.view.ty) (k : Fin k0_t4_loop.trips)
    (j : Fin 1024) (d : Fin 128) (h : 1024 * k.val + j.val < 4096) :
    ck4 a X k (ix2 j d) = (sl1 a).view.read (Elt F) X (ix2 (⟨1024 * k.val + j.val, h⟩ : Fin 4096) d) :=
  readAt_chunk (sl1 a).view X _ _ k.val (k0_off4_eq k) j d h

/-! ## The streaming loops' stores, read back -/

/-- Each of the four loops makes four trips. -/
theorem trips1 : k0_t1_loop.trips = 4 := by decide
theorem trips2 : k0_t2_loop.trips = 4 := by decide
theorem trips3 : k0_t3_loop.trips = 4 := by decide
theorem trips4 : k0_t4_loop.trips = 4 := by decide

/-- A row of the slice lies in one of the four chunks, -/
theorem row_div_lt {T : ℕ} (hT : T = 4) (r : Fin 4096) : r.val / 1024 < T := by
  have := r.isLt; omega

/-- at a row of that chunk. -/
theorem row_mod_lt (r : Fin 4096) : r.val % 1024 < 1024 := Nat.mod_lt _ (by norm_num)

/-- Stores of 1024-row chunks into a [4096, 128] view, one for each k below 4 at rows [1024 k, 1024 k + 1024), in any order
    and over any prior contents: row r reads chunk r / 1024's payload at its row r % 1024. -/
theorem read_writes_chunks {T : ℕ} (hT : T = 4) (v : View sig .tc .vmem S4096x128 .f32) (g : BufTy.Contents (Elt F) v.ty)
    (off : Fin T → Fin 2 → ℕ) (inb : ∀ k a, off k a + S1024x128.size a ≤ S4096x128.size a)
    (hoff : ∀ k, off k = ![1024 * k.val, 0]) (pay : Fin T → Vec F S1024x128 .f32)
    (L : List (View.Piece (Elt F) S4096x128 .f32))
    (hL : ∀ p, p ∈ L ↔ ∃ k : Fin T, p = (⟨Rect.unit (s := S4096x128) (off k) S1024x128.size (inb k), pay k⟩ : View.Piece (Elt F) S4096x128 .f32))
    (r : Fin 4096) (e : Fin 128) (hq : r.val / 1024 < T) (hm : r.val % 1024 < 1024) :
    v.read (Elt F) (v.writes (Elt F) g L) (ix2 r e) = pay ⟨r.val / 1024, hq⟩ (ix2 ⟨r.val % 1024, hm⟩ e) := by
  subst hT
  refine View.read_writes_apply_of_pieces v g
    (fun y => pay ⟨(y 0).val / 1024, by have := idx2_lt0 y; omega⟩ (ix2 ⟨(y 0).val % 1024, Nat.mod_lt _ (by norm_num)⟩ (y 1)))
    L ?_ (ix2 r e) ?_
  · intro p hp x
    obtain ⟨k, rfl⟩ := (hL p).mp hp
    have hx0 : (x 0).val < 1024 := (x 0).isLt
    have e0 : off k 0 = 1024 * k.val := congrFun (hoff k) 0
    have e1 : off k 1 = 0 := congrFun (hoff k) 1
    have h0 : ((Rect.unit (s := S4096x128) (off k) S1024x128.size (inb k)).emb x 0).val = 1024 * k.val + (x 0).val := by
      rw [Rect.emb_apply]; show off k 0 + 1 * (x 0).val = _; rw [e0, Nat.one_mul]
    have h1 : ((Rect.unit (s := S4096x128) (off k) S1024x128.size (inb k)).emb x 1).val = (x 1).val := by
      rw [Rect.emb_apply]; show off k 1 + 1 * (x 1).val = _; rw [e1, Nat.one_mul, Nat.zero_add]
    have hk : (⟨((Rect.unit (s := S4096x128) (off k) S1024x128.size (inb k)).emb x 0).val / 1024,
        by rw [h0]; have := k.isLt; omega⟩ : Fin 4) = k := Fin.ext (by show _ / 1024 = k.val; rw [h0]; omega)
    show pay k x = pay _ _
    rw [hk]
    refine congrArg (pay k) (funext fun c => Fin.ext ?_)
    match c with
    | ⟨0, _⟩ => show (x 0).val = _ % 1024; rw [h0]; omega
    | ⟨1, _⟩ => exact h1.symm
  · have hr : r.val < 4096 := r.isLt
    have e0 : off ⟨r.val / 1024, hq⟩ 0 = 1024 * (r.val / 1024) := congrFun (hoff ⟨r.val / 1024, hq⟩) 0
    have e1 : off ⟨r.val / 1024, hq⟩ 1 = 0 := congrFun (hoff ⟨r.val / 1024, hq⟩) 1
    refine ⟨(⟨Rect.unit (s := S4096x128) (off ⟨r.val / 1024, hq⟩) S1024x128.size (inb ⟨r.val / 1024, hq⟩), pay ⟨r.val / 1024, hq⟩⟩ :
      View.Piece (Elt F) S4096x128 .f32), (hL _).mpr ⟨_, rfl⟩, ?_⟩
    show ix2 r e ∈ (Rect.unit (s := S4096x128) (off ⟨r.val / 1024, hq⟩) S1024x128.size (inb ⟨r.val / 1024, hq⟩)).set
    refine (Rect.mem_set_unit (inb := inb ⟨r.val / 1024, hq⟩)).mpr fun c => ?_
    match c with
    | ⟨0, _⟩ =>
      show off ⟨r.val / 1024, hq⟩ 0 ≤ r.val ∧ r.val < off ⟨r.val / 1024, hq⟩ 0 + 1024
      rw [e0]; omega
    | ⟨1, _⟩ =>
      show off ⟨r.val / 1024, hq⟩ 1 ≤ e.val ∧ e.val < off ⟨r.val / 1024, hq⟩ 1 + 128
      rw [e1]; have := e.isLt; omega

/-- The stores of the first batch slice's streaming loop before trip n are the chunks' stores of the trips below n. -/
theorem mem_pbO2 (arg1 : Memref sig .tc .vmem S2x4096x128 .f32) (X1 : BufTy.Contents (Elt F) arg1.view.ty) (v : Vec F S128x128 .f32)
    (p : View.Piece (Elt F) S4096x128 .f32) :
    ∀ n : ℕ, p ∈ pbO2 (F := F) arg1 X1 v n ↔ ∃ k : Fin k0_t2_loop.trips, k.val < n ∧
      p = (⟨Rect.unit (s := S4096x128) (k0_off2 k) S1024x128.size (k0_off2_inb k), k0_pay9 v (ck2 arg1 X1 k)⟩ : View.Piece (Elt F) S4096x128 .f32)
  | 0 => by
    rw [pbO2.eq_1]
    exact ⟨fun h => absurd h List.not_mem_nil, fun ⟨k, hk, _⟩ => absurd hk (Nat.not_lt_zero _)⟩
  | n + 1 => by
    rw [pbO2.eq_2]
    by_cases h : n < k0_t2_loop.trips
    · rw [dif_pos h, List.mem_cons, mem_pbO2 arg1 X1 v p n]
      constructor
      · rintro (rfl | ⟨k, hk, rfl⟩)
        · exact ⟨⟨n, h⟩, Nat.lt_succ_self n, rfl⟩
        · exact ⟨k, Nat.lt_succ_of_lt hk, rfl⟩
      · rintro ⟨k, hk, rfl⟩
        rcases Nat.lt_succ_iff_lt_or_eq.mp hk with hlt | heq
        · exact Or.inr ⟨k, hlt, rfl⟩
        · obtain rfl : k = ⟨n, h⟩ := Fin.ext heq
          exact Or.inl rfl
    · rw [dif_neg h, mem_pbO2 arg1 X1 v p n]
      constructor
      · rintro ⟨k, hk, rfl⟩; exact ⟨k, Nat.lt_succ_of_lt hk, rfl⟩
      · rintro ⟨k, hk, rfl⟩; exact ⟨k, by have := k.isLt; omega, rfl⟩

/-- After the first batch slice's streaming loop, whatever the slice held before, its row r reads trip r / 1024's product at
    that chunk's row r % 1024. -/
theorem read_pbO2 (a : Memref sig .tc .vmem S2x4096x128 .f32) (g : BufTy.Contents (Elt F) a.view.ty)
    (arg1 : Memref sig .tc .vmem S2x4096x128 .f32) (X1 : BufTy.Contents (Elt F) arg1.view.ty) (v : Vec F S128x128 .f32)
    (r : Fin 4096) (e : Fin 128) (hq : r.val / 1024 < k0_t2_loop.trips) (hm : r.val % 1024 < 1024) :
    (sl0 a).view.read (Elt F) ((sl0 a).view.writes (Elt F) g (pbO2 arg1 X1 v k0_t2_loop.trips)) (ix2 r e)
      = k0_pay9 v (ck2 arg1 X1 ⟨r.val / 1024, hq⟩) (ix2 ⟨r.val % 1024, hm⟩ e) :=
  read_writes_chunks (F := F) trips2 (sl0 a).view g k0_off2 k0_off2_inb k0_off2_eq (fun k => k0_pay9 v (ck2 arg1 X1 k)) _
    (fun p => (mem_pbO2 arg1 X1 v p _).trans
      ⟨fun ⟨k, _, hp⟩ => ⟨k, hp⟩, fun ⟨k, hp⟩ => ⟨k, k.isLt, hp⟩⟩) r e hq hm

/-- The stores of the second batch slice's streaming loop before trip n are the chunks' stores of the trips below n. -/
theorem mem_pbO4 (arg1 : Memref sig .tc .vmem S2x4096x128 .f32) (X1 : BufTy.Contents (Elt F) arg1.view.ty) (v : Vec F S128x128 .f32)
    (p : View.Piece (Elt F) S4096x128 .f32) :
    ∀ n : ℕ, p ∈ pbO4 (F := F) arg1 X1 v n ↔ ∃ k : Fin k0_t4_loop.trips, k.val < n ∧
      p = (⟨Rect.unit (s := S4096x128) (k0_off4 k) S1024x128.size (k0_off4_inb k), k0_pay4 v (ck4 arg1 X1 k)⟩ : View.Piece (Elt F) S4096x128 .f32)
  | 0 => by
    rw [pbO4.eq_1]
    exact ⟨fun h => absurd h List.not_mem_nil, fun ⟨k, hk, _⟩ => absurd hk (Nat.not_lt_zero _)⟩
  | n + 1 => by
    rw [pbO4.eq_2]
    by_cases h : n < k0_t4_loop.trips
    · rw [dif_pos h, List.mem_cons, mem_pbO4 arg1 X1 v p n]
      constructor
      · rintro (rfl | ⟨k, hk, rfl⟩)
        · exact ⟨⟨n, h⟩, Nat.lt_succ_self n, rfl⟩
        · exact ⟨k, Nat.lt_succ_of_lt hk, rfl⟩
      · rintro ⟨k, hk, rfl⟩
        rcases Nat.lt_succ_iff_lt_or_eq.mp hk with hlt | heq
        · exact Or.inr ⟨k, hlt, rfl⟩
        · obtain rfl : k = ⟨n, h⟩ := Fin.ext heq
          exact Or.inl rfl
    · rw [dif_neg h, mem_pbO4 arg1 X1 v p n]
      constructor
      · rintro ⟨k, hk, rfl⟩; exact ⟨k, Nat.lt_succ_of_lt hk, rfl⟩
      · rintro ⟨k, hk, rfl⟩; exact ⟨k, by have := k.isLt; omega, rfl⟩

/-- After the second batch slice's streaming loop, whatever the slice held before, its row r reads trip r / 1024's product at
    that chunk's row r % 1024. -/
theorem read_pbO4 (a : Memref sig .tc .vmem S2x4096x128 .f32) (g : BufTy.Contents (Elt F) a.view.ty)
    (arg1 : Memref sig .tc .vmem S2x4096x128 .f32) (X1 : BufTy.Contents (Elt F) arg1.view.ty) (v : Vec F S128x128 .f32)
    (r : Fin 4096) (e : Fin 128) (hq : r.val / 1024 < k0_t4_loop.trips) (hm : r.val % 1024 < 1024) :
    (sl1 a).view.read (Elt F) ((sl1 a).view.writes (Elt F) g (pbO4 arg1 X1 v k0_t4_loop.trips)) (ix2 r e)
      = k0_pay4 v (ck4 arg1 X1 ⟨r.val / 1024, hq⟩) (ix2 ⟨r.val % 1024, hm⟩ e) :=
  read_writes_chunks (F := F) trips4 (sl1 a).view g k0_off4 k0_off4_inb k0_off4_eq (fun k => k0_pay4 v (ck4 arg1 X1 k)) _
    (fun p => (mem_pbO4 arg1 X1 v p _).trans
      ⟨fun ⟨k, _, hp⟩ => ⟨k, hp⟩, fun ⟨k, hp⟩ => ⟨k, k.isLt, hp⟩⟩) r e hq hm

end Cert.KernelIdeal.Slices

end
-- ==== Proof.BlocksIdeal.lean ====
/-
  The two output buffers read back at an index after the body. The attention buffer holds one store per batch slice; the
  output's staging buffer holds, in batch slice b at row r, the store of chunk r / 1024 of that slice's streaming loop at its
  row r % 1024. Neither read depends on what the buffers held before the body.
-/
import proofs.«106405_j65223373357266_2_alg».proof.Proof.RunIdeal
import proofs.«106405_j65223373357266_2_alg».proof.Proof.SlicesIdeal

set_option maxRecDepth 16384
set_option maxHeartbeats 4000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx Cert.KernelIdeal.Slices

/-! ## The attention buffer -/

theorem emb_att (b : Fin 2) (hb : ∀ a, (![b.val, 0, 0] : Fin 3 → Nat) a + S1x128x128.size a ≤ S2x128x128.size a) (d e : Fin 128) :
    (Rect.unit (s := S2x128x128) ![b.val, 0, 0] S1x128x128.size hb).emb (ix3 (0 : Fin 1) d e) = (ix3 b d e : S2x128x128.Idx) := by
  funext a; apply Fin.ext
  match a with
  | ⟨0, _⟩ => show b.val + 1 * 0 = b.val; omega
  | ⟨1, _⟩ => show 0 + 1 * d.val = d.val; omega
  | ⟨2, _⟩ => show 0 + 1 * e.val = e.val; omega

/-- Batch slice 1 of the attention buffer holds the softmax of batch slice 1's logits. -/
theorem C5_read1 (arg2 arg3 : Memref sig .tc .vmem S2x4096x128 .f32) (arg6 : Memref sig .tc .vmem S128x128 .f32) (X2 : BufTy.Contents (Elt F) arg2.view.ty) (X3 : BufTy.Contents (Elt F) arg3.view.ty) (arg5 : Memref sig .tc .vmem S2x128x128 .f32) (d e : Fin 128) :
    arg5.view.read (Elt F) (C5 arg2 arg3 arg6 X2 X3 arg5) (ix3 (1 : Fin 2) d e) = k0_pay3 (V25 arg2 arg3 arg6 X2 X3) (ix3 (0 : Fin 1) d e) := by
  unfold C5
  rw [← emb_att (1 : Fin 2) inb_S2x128x128_S1x128x128_1_0_0 d e]
  exact View.read_writes_cons_emb _ _ _ _ _ _

/-- Batch slice 0 of the attention buffer holds the softmax of batch slice 0's logits. -/
theorem C5_read0 (arg2 arg3 : Memref sig .tc .vmem S2x4096x128 .f32) (arg6 : Memref sig .tc .vmem S128x128 .f32) (X2 : BufTy.Contents (Elt F) arg2.view.ty) (X3 : BufTy.Contents (Elt F) arg3.view.ty) (arg5 : Memref sig .tc .vmem S2x128x128 .f32) (d e : Fin 128) :
    arg5.view.read (Elt F) (C5 arg2 arg3 arg6 X2 X3 arg5) (ix3 (0 : Fin 2) d e) = k0_pay8 (V5 arg2 arg3 arg6 X2 X3) (ix3 (0 : Fin 1) d e) := by
  unfold C5
  rw [View.writes_cons, View.read_slice_write_of_not_mem _ _ _ _ (by
    rw [Rect.map_emb_univ, Rect.mem_set_unit]
    intro h
    exact absurd (show (1 : ℕ) ≤ 0 from (h 0).1) (by decide))]
  rw [← emb_att (0 : Fin 2) inb_S2x128x128_S1x128x128_0_0_0 d e]
  exact View.read_writes_cons_emb _ _ _ _ _ _

/-! ## The output's staging buffer -/

/-- Batch slice 0 at row r: chunk r / 1024 of q's batch slice 0 against the softmax of batch slice 0's logits, at row r % 1024. -/
theorem C4_read0 (arg2 arg3 : Memref sig .tc .vmem S2x4096x128 .f32) (arg6 : Memref sig .tc .vmem S128x128 .f32) (X2 : BufTy.Contents (Elt F) arg2.view.ty) (X3 : BufTy.Contents (Elt F) arg3.view.ty) (arg1 arg4 : Memref sig .tc .vmem S2x4096x128 .f32) (X1 : BufTy.Contents (Elt F) arg1.view.ty)
    (f : BufTy.Contents (Elt F) arg4.view.ty) (r : Fin 4096) (e : Fin 128) (h4 : r.val / 1024 < k0_t2_loop.trips) :
    arg4.view.read (Elt F) (C4 arg2 arg3 arg6 X2 X3 arg1 arg4 X1 f) (ix3 (0 : Fin 2) r e)
      = k0_pay9 (V5 arg2 arg3 arg6 X2 X3) (ck2 arg1 X1 ⟨r.val / 1024, h4⟩) (ix2 ⟨r.val % 1024, Nat.mod_lt _ (by decide)⟩ e) := by
  rw [← read_sl0]
  unfold C4
  rw [read_sl0_writes_sl1]
  exact read_pbO2 _ _ _ _ _ _ _ h4 _

/-- Batch slice 1 at row r, likewise. -/
theorem C4_read1 (arg2 arg3 : Memref sig .tc .vmem S2x4096x128 .f32) (arg6 : Memref sig .tc .vmem S128x128 .f32) (X2 : BufTy.Contents (Elt F) arg2.view.ty) (X3 : BufTy.Contents (Elt F) arg3.view.ty) (arg1 arg4 : Memref sig .tc .vmem S2x4096x128 .f32) (X1 : BufTy.Contents (Elt F) arg1.view.ty)
    (f : BufTy.Contents (Elt F) arg4.view.ty) (r : Fin 4096) (e : Fin 128) (h4 : r.val / 1024 < k0_t4_loop.trips) :
    arg4.view.read (Elt F) (C4 arg2 arg3 arg6 X2 X3 arg1 arg4 X1 f) (ix3 (1 : Fin 2) r e)
      = k0_pay4 (V25 arg2 arg3 arg6 X2 X3) (ck4 arg1 X1 ⟨r.val / 1024, h4⟩) (ix2 ⟨r.val % 1024, Nat.mod_lt _ (by decide)⟩ e) := by
  rw [← read_sl1]
  unfold C4
  exact read_pbO4 _ _ _ _ _ _ _ h4 _

end Cert.KernelIdeal.Body

end
-- ==== Proof.IndepIdeal.lean ====
/-
  The output's staging buffer is wholly overwritten by the body: read after the body, it does not depend on what it held before.
-/
import proofs.«106405_j65223373357266_2_alg».proof.Proof.BlocksIdeal

set_option maxRecDepth 16384
set_option maxHeartbeats 4000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Each of the two batch slices of the output's staging buffer is covered by its streaming loop's four chunk stores, so what
    the buffer held before the body is not seen afterwards. -/
theorem C4_read_indep (arg2 arg3 : Memref sig .tc .vmem S2x4096x128 .f32) (arg6 : Memref sig .tc .vmem S128x128 .f32)
    (X2 : BufTy.Contents (Elt F) arg2.view.ty) (X3 : BufTy.Contents (Elt F) arg3.view.ty)
    (arg1 arg4 : Memref sig .tc .vmem S2x4096x128 .f32) (X1 : BufTy.Contents (Elt F) arg1.view.ty)
    (f f' : BufTy.Contents (Elt F) arg4.view.ty) :
    arg4.view.read (Elt F) (C4 arg2 arg3 arg6 X2 X3 arg1 arg4 X1 f) = arg4.view.read (Elt F) (C4 arg2 arg3 arg6 X2 X3 arg1 arg4 X1 f') := by
  funext idx
  obtain ⟨b, r, e, rfl⟩ : ∃ (b : Fin 2) (r : Fin 4096) (e : Fin 128), idx = Idealize.ShloMosaic.ValueIdx.ix3 b r e :=
    ⟨idx 0, idx 1, idx 2, Idealize.ShloMosaic.ValueIdx.eq_ix3 idx⟩
  have hr : r.val / 1024 < 4 := by have := r.isLt; omega
  have hq2 : r.val / 1024 < k0_t2_loop.trips := by rw [show k0_t2_loop.trips = 4 from by decide]; exact hr
  have hq4 : r.val / 1024 < k0_t4_loop.trips := by rw [show k0_t4_loop.trips = 4 from by decide]; exact hr
  obtain ⟨b, hb⟩ := b
  match b, hb with
  | 0, _ =>
    show arg4.view.read (Elt F) _ (Idealize.ShloMosaic.ValueIdx.ix3 (0 : Fin 2) r e) = arg4.view.read (Elt F) _ (Idealize.ShloMosaic.ValueIdx.ix3 (0 : Fin 2) r e)
    rw [C4_read0 (h4 := hq2), C4_read0 (h4 := hq2)]
  | 1, _ =>
    show arg4.view.read (Elt F) _ (Idealize.ShloMosaic.ValueIdx.ix3 (1 : Fin 2) r e) = arg4.view.read (Elt F) _ (Idealize.ShloMosaic.ValueIdx.ix3 (1 : Fin 2) r e)
    rw [C4_read1 (h4 := hq4), C4_read1 (h4 := hq4)]

end Cert.KernelIdeal.Body

end
-- ==== Proof.ObligationIdeal.lean ====
/-
  The launch side: the proof data of the one pipeline (each input window's buffer holds its block; each output window's buffer
  holds, after the body at a point, what the body's stores leave there), the body obligation at every point from the body's
  triple, the frame run, and the frame: the program terminates, nothing faults, and the argument arrays end unchanged.
-/
import proofs.«106405_j65223373357266_2_alg».proof.Proof.RunIdeal
import proofs.«106405_j65223373357266_2_alg».proof.Proof.IndepIdeal

set_option maxRecDepth 16384
set_option maxHeartbeats 4000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The staging memrefs at a point, and the scratch -/

abbrev ms0_0 (t : Fin cfg0.N) := win0_0.stage (cfg0.slots t 0)
abbrev hs0_0 (t : Fin cfg0.N) : (ms0_0 t).IsWhole := hstage0_0 ((cfg0.slots t 0).cast nbuf0_0)
abbrev ms0_1 (t : Fin cfg0.N) := win0_1.stage (cfg0.slots t 1)
abbrev hs0_1 (t : Fin cfg0.N) : (ms0_1 t).IsWhole := hstage0_1 ((cfg0.slots t 1).cast nbuf0_1)
abbrev ms0_2 (t : Fin cfg0.N) := win0_2.stage (cfg0.slots t 2)
abbrev hs0_2 (t : Fin cfg0.N) : (ms0_2 t).IsWhole := hstage0_2 ((cfg0.slots t 2).cast nbuf0_2)
abbrev ms0_3 (t : Fin cfg0.N) := win0_3.stage (cfg0.slots t 3)
abbrev hs0_3 (t : Fin cfg0.N) : (ms0_3 t).IsWhole := hstage0_3 ((cfg0.slots t 3).cast nbuf0_3)
abbrev ms0_4 (t : Fin cfg0.N) := win0_4.stage (cfg0.slots t 4)
abbrev hs0_4 (t : Fin cfg0.N) : (ms0_4 t).IsWhole := hstage0_4 ((cfg0.slots t 4).cast nbuf0_4)

/-- The scratch operand. -/
abbrev scM : Memref sig .tc .vmem S128x128 .f32 := Memref.whole cc0_scratch0

/-- The class invariant: the scratch at some contents, the generator register at some state. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- No window is idle at any point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel

/-! ## What the body leaves in the outputs' buffers at a point -/

/-- The output's staging buffer after the body at point t, as a function of the three input blocks there. -/
def out3 (c : Dev nD) (t : Fin cfg0.N) : Vec F S2x4096x128 .f32 :=
  (ms0_3 t).view.read (Elt F)
    (C4 (ms0_1 t) (ms0_2 t) scM ((hs0_1 t).unread (iblk m c 1 t)) ((hs0_2 t).unread (iblk m c 2 t)) (ms0_0 t) (ms0_3 t)
      ((hs0_0 t).unread (iblk m c 0 t)) (ms0_3 t).view.junk)

/-- The attention buffer after the body at point t. -/
def out4 (c : Dev nD) (t : Fin cfg0.N) : Vec F S2x128x128 .f32 :=
  (ms0_4 t).view.read (Elt F)
    (C5 (ms0_1 t) (ms0_2 t) scM ((hs0_1 t).unread (iblk m c 1 t)) ((hs0_2 t).unread (iblk m c 2 t)) (ms0_4 t))

/-! ## The pipeline's proof data -/

/-- The arrays as the region finds them; after the body at point t each input's buffer at its block and each output's at
    what the body leaves; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 m c t
    | ⟨4, _⟩ => out4 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out3 m c t := by dsimp only [dats]
theorem after0_4 (c : Dev nD) (t : Fin cfg0.N) : (dats m 0 c).after 4 t = out4 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- The body at any point: the inputs' buffers hold their blocks, the invariant lends the scratch and takes it back, and each
    output's buffer ends at the contents the body's triple names, read back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
      unfold Dat.leavesExact; rw [liveAt0_0 t], after0_0,
    show (dats m 0 c).leavesExact 1 t = owns (c : Thread nD τ) (ms0_1 t) fullShare ((dats m 0 c).after 1 t) from by
      unfold Dat.leavesExact; rw [liveAt0_1 t], after0_1,
    show (dats m 0 c).leavesExact 2 t = owns (c : Thread nD τ) (ms0_2 t) fullShare ((dats m 0 c).after 2 t) from by
      unfold Dat.leavesExact; rw [liveAt0_2 t], after0_2,
    show (dats m 0 c).leavesExact 3 t = owns (c : Thread nD τ) (ms0_3 t) fullShare ((dats m 0 c).after 3 t) from by
      unfold Dat.leavesExact; rw [liveAt0_3 t], after0_3,
    show (dats m 0 c).leavesExact 4 t = owns (c : Thread nD τ) (ms0_4 t) fullShare ((dats m 0 c).after 4 t) from by
      unfold Dat.leavesExact; rw [liveAt0_4 t], after0_4]
  rw [show (dats m 0 c).Φ t.castSucc = Pipeline.ΦA spec0 c from rfl, PhiA0_eq]
  iintro ⟨⟨HS, Hg⟩, Ho, ⟨%d0, H0⟩, ⟨%d1, H1⟩, ⟨%d2, H2⟩, ⟨%d3, H3⟩, ⟨%d4, H4⟩⟩
  iapply ((kernelRun c (grid0.coords t) (ms0_0 t) (hs0_0 t) (ms0_1 t) (hs0_1 t) (ms0_2 t) (hs0_2 t) (ms0_3 t) (hs0_3 t) (ms0_4 t) (hs0_4 t)
    scM (Memref.isWhole_whole _) (iblk m c 0 t) (iblk m c 1 t) (iblk m c 2 t)) Set.univ _)
  isplitl [H0]; · iexact H0
  isplitl [H1]; · iexact H1
  isplitl [H2]; · iexact H2
  isplitl [H3]; · iexists _; iexact H3
  isplitl [H4]; · iexists _; iexact H4
  isplitl [HS]; · iexact HS
  iintro ⟨H0, H1, H2, ⟨%f3, H3⟩, H4, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; unfold out3; exact C4_read_indep _ _ _ _ _ _ _ _ _ _
  unfold owns; iexists _; isplitr
  swap; · iexact H4
  ipureintro; rfl

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has every array of the pipeline at what the
    library computes from the proof data. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, nothing faults, and its three argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.ScratchIdeal.lean ====
/-
  What the scratch holds when each accumulating loop ends. The scratch is stored whole every time, so a whole load reads the last
  store's payload: after the zero fill it reads zero, and after trip k it reads the trip's sum of the previous contents with the
  product of the trip's chunks. Unrolled over the four trips this is a recursion through the payload.
-/
import proofs.«106405_j65223373357266_2_alg».proof.Proof.RunIdeal
import proofs.«106405_j65223373357266_2_alg».proof.Proof.LibWhole

set_option maxRecDepth 16384
set_option maxHeartbeats 4000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.Lib.Whole

/-- The scratch's contents before trip k of batch slice 0's accumulating loop: zero, then one payload per trip. -/
def acc1 (arg2 arg3 : Memref sig .tc .vmem S2x4096x128 .f32) (X2 : BufTy.Contents (Elt F) arg2.view.ty) (X3 : BufTy.Contents (Elt F) arg3.view.ty) :
    ℕ → Vec F S128x128 .f32
  | 0 => k0_pay5
  | k + 1 => if h : k < k0_t1_loop.trips then k0_pay6 (ck1 arg2 X2 ⟨k, h⟩) (ck1 arg3 X3 ⟨k, h⟩) (acc1 arg2 arg3 X2 X3 k) else acc1 arg2 arg3 X2 X3 k

/-- The same for batch slice 1. -/
def acc3 (arg2 arg3 : Memref sig .tc .vmem S2x4096x128 .f32) (X2 : BufTy.Contents (Elt F) arg2.view.ty) (X3 : BufTy.Contents (Elt F) arg3.view.ty) :
    ℕ → Vec F S128x128 .f32
  | 0 => k0_pay10
  | k + 1 => if h : k < k0_t3_loop.trips then k0_pay1 (ck3 arg2 X2 ⟨k, h⟩) (ck3 arg3 X3 ⟨k, h⟩) (acc3 arg2 arg3 X2 X3 k) else acc3 arg2 arg3 X2 X3 k

theorem trips1 : k0_t1_loop.trips = 4 := by decide
theorem trips3 : k0_t3_loop.trips = 4 := by decide

/-- A whole load of the scratch before trip k of batch slice 0's loop reads the recursion's value. -/
theorem readAt_pbA1 (arg2 arg3 : Memref sig .tc .vmem S2x4096x128 .f32) (arg6 : Memref sig .tc .vmem S128x128 .f32) (X2 : BufTy.Contents (Elt F) arg2.view.ty) (X3 : BufTy.Contents (Elt F) arg3.view.ty) (G6 : BufTy.Contents (Elt F) arg6.view.ty)
    (hG : arg6.view.read (Elt F) G6 = k0_pay5) (k : ℕ) (hk : k ≤ k0_t1_loop.trips) :
    arg6.view.readAt (Elt F) rectW.toLoadRect (arg6.view.writes (Elt F) G6 (pbA1 arg2 arg3 arg6 X2 X3 G6 k)) = acc1 arg2 arg3 X2 X3 k := by
  induction k with
  | zero =>
    rw [readAt_whole arg6.view _ zero2]
    show arg6.view.read (Elt F) G6 = _
    exact hG
  | succ k ih =>
    have hlt : k < k0_t1_loop.trips := hk
    rw [pbA1_succ arg2 arg3 arg6 X2 X3 G6 ⟨k, hlt⟩, readAt_whole arg6.view _ zero2, read_writes_whole arg6.view _ zero2]
    rw [acc1, dif_pos hlt]
    exact congrArg _ (ih (Nat.le_of_lt hlt))

/-- The same for batch slice 1. -/
theorem readAt_pbA3 (arg2 arg3 : Memref sig .tc .vmem S2x4096x128 .f32) (arg6 : Memref sig .tc .vmem S128x128 .f32) (X2 : BufTy.Contents (Elt F) arg2.view.ty) (X3 : BufTy.Contents (Elt F) arg3.view.ty) (G6 : BufTy.Contents (Elt F) arg6.view.ty)
    (hG : arg6.view.read (Elt F) G6 = k0_pay10) (k : ℕ) (hk : k ≤ k0_t3_loop.trips) :
    arg6.view.readAt (Elt F) rectW.toLoadRect (arg6.view.writes (Elt F) G6 (pbA3 arg2 arg3 arg6 X2 X3 G6 k)) = acc3 arg2 arg3 X2 X3 k := by
  induction k with
  | zero =>
    rw [readAt_whole arg6.view _ zero2]
    show arg6.view.read (Elt F) G6 = _
    exact hG
  | succ k ih =>
    have hlt : k < k0_t3_loop.trips := hk
    rw [pbA3_succ arg2 arg3 arg6 X2 X3 G6 ⟨k, hlt⟩, readAt_whole arg6.view _ zero2, read_writes_whole arg6.view _ zero2]
    rw [acc3, dif_pos hlt]
    exact congrArg _ (ih (Nat.le_of_lt hlt))

/-- Batch slice 0's logits are the recursion's value after its four trips. -/
theorem V5_eq (arg2 arg3 : Memref sig .tc .vmem S2x4096x128 .f32) (arg6 : Memref sig .tc .vmem S128x128 .f32) (X2 : BufTy.Contents (Elt F) arg2.view.ty) (X3 : BufTy.Contents (Elt F) arg3.view.ty) : V5 arg2 arg3 arg6 X2 X3 = acc1 arg2 arg3 X2 X3 4 := by
  have h3 : (3 : ℕ) < k0_t1_loop.trips := by rw [trips1]; decide
  unfold V5 LA1
  rw [show k0_t1_loop.trips = (⟨3, h3⟩ : Fin k0_t1_loop.trips).val + 1 from trips1, pbA1_succ, List.cons_append,
    readCov_whole arg6.view zero2]
  rw [acc1, dif_pos h3]
  refine congrArg _ (readAt_pbA1 arg2 arg3 arg6 X2 X3 (G1 arg6) ?_ 3 (Nat.le_of_lt h3))
  exact read_writes_whole arg6.view _ zero2 _ _ _

/-- Batch slice 1's logits are the recursion's value after its four trips. -/
theorem V25_eq (arg2 arg3 : Memref sig .tc .vmem S2x4096x128 .f32) (arg6 : Memref sig .tc .vmem S128x128 .f32) (X2 : BufTy.Contents (Elt F) arg2.view.ty) (X3 : BufTy.Contents (Elt F) arg3.view.ty) : V25 arg2 arg3 arg6 X2 X3 = acc3 arg2 arg3 X2 X3 4 := by
  have h3 : (3 : ℕ) < k0_t3_loop.trips := by rw [trips3]; decide
  unfold V25 LA3
  rw [show k0_t3_loop.trips = (⟨3, h3⟩ : Fin k0_t3_loop.trips).val + 1 from trips3, pbA3_succ, List.cons_append,
    readCov_whole arg6.view zero2]
  rw [acc3, dif_pos h3]
  refine congrArg _ (readAt_pbA3 arg2 arg3 arg6 X2 X3 (G3 arg2 arg3 arg6 X2 X3) ?_ 3 (Nat.le_of_lt h3))
  exact read_writes_whole arg6.view _ zero2 _ _ _

end Cert.KernelIdeal.Body

end
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.LibLay3.lean ====
/-
  Readings, at an index given by coordinates, of the layout operations a normalisation over the last axis of a
  rank-three array and a split of a matrix's rows into groups produce; and a row maximum read as a fold.
-/
import Idealize.ShloMosaic.Lib.ValueLayout
import Idealize.ShloMosaic.PureOps.Ideal.Laws
import proofs.«106405_j65223373357266_2_alg».proof.Proof.LibLayout

namespace Cert.GQA.Lay

open Idealize.ShloMosaic Idealize.ShloMosaic.ValueIdx

variable {α : Type}

/-- Rows `0 … c - 1` with `c = a · b` split into `a` groups of `b`: entry `(p, q, k)` is entry `(p · b + q, k)` of the matrix. -/
theorem shapeCast_cd_abd_apply {a b c d : ℕ} (x : (⟨2, ![c, d]⟩ : Shape).Idx → α)
    (h : (⟨2, ![c, d]⟩ : Shape).ShapeCasts ⟨3, ![a, b, d]⟩) (p : Fin a) (q : Fin b) (k : Fin d) (r : Fin c)
    (hr : r.val = p.val * b + q.val) : shapeCast ⟨3, ![a, b, d]⟩ x h (ix3 p q k) = x (ix2 r k) :=
  shapeCast_apply x h _ _ (by
    rw [Shape.rowMajor_val_two, Shape.rowMajor_val_three]
    show r.val * d + k.val = (p.val * b + q.val) * d + k.val
    rw [hr])

/-- A rank-three array cut along its leading axis from `o` reads, at `(j, a, e)`, the source at `(o + j, a, e)`. -/
theorem slice3_axis0_apply {n0 n1 n2 m : ℕ} (o : ℕ) (X : (⟨3, ![n0, n1, n2]⟩ : Shape).Idx → α)
    (h : (⟨3, ![n0, n1, n2]⟩ : Shape).Slices ![o, 0, 0] ⟨3, ![m, n1, n2]⟩)
    (j : Fin m) (a : Fin n1) (e : Fin n2) (k : Fin n0) (hk : k.val = o + j.val) :
    extractStridedSlice ⟨3, ![m, n1, n2]⟩ ![o, 0, 0] X h (ix3 j a e) = X (ix3 k a e) :=
  extractStridedSlice_apply _ _ _ _ _ (fun ax => by
    match ax with
    | ⟨0, _⟩ => exact hk
    | ⟨1, _⟩ => exact (Nat.zero_add _).symm
    | ⟨2, _⟩ => exact (Nat.zero_add _).symm)

/-- A matrix given a trailing unit axis: entry `(p, q, u)` is entry `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- A trailing unit axis broadcast: entry `(p, q, k)` of the `[a, b, d]` array is entry `(p, q, 0)` of the `[a, b, 1]` one. -/
theorem broadcastTo_ab1_abd_apply {a b d : ℕ} (v : (⟨3, ![a, b, 1]⟩ : Shape).Idx → α)
    (h : (⟨3, ![a, b, 1]⟩ : Shape).Broadcasts ⟨3, ![a, b, d]⟩) (p : Fin a) (q : Fin b) (k : Fin d) :
    broadcastTo ⟨3, ![a, b, d]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A vector given two leading unit axes: entry `(u, v, k)` is entry `k`. -/
theorem shapeCast_d_11d_apply {d : ℕ} (x : (⟨1, ![d]⟩ : Shape).Idx → α)
    (h : (⟨1, ![d]⟩ : Shape).ShapeCasts ⟨3, ![1, 1, d]⟩) (u v : Fin 1) (k : Fin d) :
    shapeCast ⟨3, ![1, 1, d]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * d + k.val
    rw [hu, hv]; simp)

/-- Two leading unit axes broadcast: entry `(p, q, k)` of the `[a, b, d]` array is entry `(0, 0, k)` of the `[1, 1, d]` one. -/
theorem broadcastTo_11d_abd_apply {a b d : ℕ} (v : (⟨3, ![1, 1, d]⟩ : Shape).Idx → α)
    (h : (⟨3, ![1, 1, d]⟩ : Shape).Broadcasts ⟨3, ![a, b, d]⟩) (p : Fin a) (q : Fin b) (k : Fin d) :
    broadcastTo ⟨3, ![a, b, d]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if d = 1 then 0 else k.val
    split
    · have := k.isLt; omega
    · rfl

/-- The largest entry of row `p` of an `[a, b]` array of extended reals, taken from the accumulator's value: the fold
    of `max` over the row's entries. -/
theorem rowMax_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] (⟨1, ![a]⟩ : Shape) src acc h hφ hacc (ix1 p)
      = (Finset.univ : Finset (Fin b)).fold max (Ideal.ofBits .f32 acc) (fun k => src (ix2 p k)) := by
  refine (Ideal.multiReduction_maximumf_single src acc h hφ hacc (ix1 p)).trans ?_
  exact congrArg (Finset.fold max (Ideal.ofBits .f32 acc) · (Finset.univ : Finset (Fin b)))
    (funext fun k => congrArg src (Cert.Attn.Layout.lift_row h p k))

end Cert.GQA.Lay
-- ==== Proof.LibRowLsm.lean ====
/-
  Row-wise log-softmax in the form shifted by the row maximum, on the extended reals:
  entry (p, q) of an [a, b] array Y goes to  (Y p q - M p) - log (∑ k, exp (Y p k - M p)),  M p the largest entry of row p
  (the fold of max from ⊥ over the row). The vector unit's spelling of it (two lane reductions, their results cast to a
  column and broadcast along the rows) and the host's spelling (two reductions over axis 1, a further max against a
  splat of -∞, two broadcasts each) both read, at an entry, as that expression.
-/
import Idealize.ShloMosaic.Lib.ValueIdx
import Idealize.ShloMosaic.Lib.ValueLayout
import Idealize.ShloMosaic.Lib.Pipeline.Value
import Idealize.ShloMosaic.PureOps.Ideal.Laws
import proofs.«106405_j65223373357266_2_alg».proof.Proof.LibLayout
import proofs.«106405_j65223373357266_2_alg».proof.Proof.LibLay3

noncomputable section

namespace Cert.RowLsm

open Idealize.ShloMosaic Idealize.ShloMosaic.ValueIdx

/-- The largest entry of row `p`, taken from `⊥`. -/
def rowMax {a b : ℕ} (Y : (⟨2, ![a, b]⟩ : Shape).Idx → EReal) (p : Fin a) : EReal :=
  (Finset.univ : Finset (Fin b)).fold max ⊥ (fun k => Y (ix2 p k))

/-- Log-softmax of row `p` at column `q`, shifted by the row's largest entry. -/
def lsm {a b : ℕ} (Y : (⟨2, ![a, b]⟩ : Shape).Idx → EReal) (p : Fin a) (q : Fin b) : EReal :=
  (Y (ix2 p q) - rowMax Y p) - Ideal.log (∑ k : Fin b, Ideal.exp (Y (ix2 p k) - rowMax Y p))

/-- The float pattern of -∞ is `⊥`. -/
theorem ofBits_neg_inf : Ideal.ofBits .f32 0xFF800000#32 = ⊥ := by simp [Ideal.ofBits, Ideal.ieee]

/-- The vector unit's row maximum, cast to a column and broadcast along the rows, is `rowMax` at every entry of the row. -/
theorem vec_rowMax {a b : ℕ} (v : FVec Ideal ⟨2, ![a, b]⟩ .f32)
    (hred : (⟨2, ![a, b]⟩ : Shape).Reduces [1] (⟨1, ![a]⟩ : Shape)) (hφ : FKind.Formats .f32)
    (hmax : (0xFF800000#32 : BitVec 32) = FKind.maximumf.neutral .f32 hφ)
    (hcast : (⟨1, ![a]⟩ : Shape).ShapeCasts ⟨2, ![a, 1]⟩)
    (hbc : (⟨2, ![a, 1]⟩ : Shape).Broadcasts ⟨2, ![a, b]⟩) (p : Fin a) (c : Fin b) :
    broadcastTo ⟨2, ![a, b]⟩ (shapeCast ⟨2, ![a, 1]⟩
      (multiReduction .maximumf [1] (⟨1, ![a]⟩ : Shape) v 0xFF800000#32 hred hφ hmax) hcast) hbc (ix2 p c) = rowMax v p := by
  rw [Cert.Attn.Layout.broadcastTo_a1_ab_apply, Cert.Attn.Layout.shapeCast_a_a1_apply, Cert.GQA.Lay.rowMax_apply,
    ofBits_neg_inf]
  rfl

/-- THE VECTOR UNIT'S SPELLING at an entry. -/
theorem vec_lsm {a b : ℕ} (v : FVec Ideal ⟨2, ![a, b]⟩ .f32)
    (hred : (⟨2, ![a, b]⟩ : Shape).Reduces [1] (⟨1, ![a]⟩ : Shape)) (hφ : FKind.Formats .f32)
    (hmax : (0xFF800000#32 : BitVec 32) = FKind.maximumf.neutral .f32 hφ)
    (hadd : (0x00000000#32 : BitVec 32) = FKind.add.neutral .f32 hφ)
    (hcast : (⟨1, ![a]⟩ : Shape).ShapeCasts ⟨2, ![a, 1]⟩)
    (hbc : (⟨2, ![a, 1]⟩ : Shape).Broadcasts ⟨2, ![a, b]⟩) (p : Fin a) (q : Fin b) :
    subf (subf v (broadcastTo ⟨2, ![a, b]⟩ (shapeCast ⟨2, ![a, 1]⟩
        (multiReduction .maximumf [1] (⟨1, ![a]⟩ : Shape) v 0xFF800000#32 hred hφ hmax) hcast) hbc))
      (broadcastTo ⟨2, ![a, b]⟩ (log (shapeCast ⟨2, ![a, 1]⟩
        (multiReduction .add [1] (⟨1, ![a]⟩ : Shape)
          (exp (subf v (broadcastTo ⟨2, ![a, b]⟩ (shapeCast ⟨2, ![a, 1]⟩
            (multiReduction .maximumf [1] (⟨1, ![a]⟩ : Shape) v 0xFF800000#32 hred hφ hmax) hcast) hbc)))
          0x00000000#32 hred hφ hadd) hcast)) hbc) (ix2 p q)
      = lsm v p q := by
  rw [subf_apply, subf_apply, vec_rowMax, Cert.Attn.Layout.broadcastTo_a1_ab_apply]
  show _ - Ideal.log (shapeCast ⟨2, ![a, 1]⟩ _ hcast (ix2 p (0 : Fin 1))) = _
  rw [Cert.Attn.Layout.shapeCast_a_a1_apply, Cert.Attn.Layout.rowSum_apply]
  unfold lsm
  refine congrArg (fun s => (v (ix2 p q) - rowMax v p) - Ideal.log s) (Finset.sum_congr rfl fun k _ => ?_)
  show Ideal.exp (v (ix2 p k) - _) = _
  rw [vec_rowMax]

end Cert.RowLsm

end
-- ==== Proof.LibRowSoftmax.lean ====
/-
  Row-wise softmax in the form shifted by the row maximum, on the extended reals: entry (p, q) of an [a, b] array Y
  goes to  exp (Y p q - M p) / ∑ k, exp (Y p k - M p),  M p the largest entry of row p (the fold of max from ⊥ over
  the row), the quotient the extended reals' total one. The value at (p, q) depends on row p only, so a block of rows
  cut out of a taller array has, row by row, the softmax of the taller array's rows.
-/
import proofs.«106405_j65223373357266_2_alg».proof.Proof.LibRowLsm

noncomputable section

namespace Cert.RowSoftmax

open Idealize.ShloMosaic Idealize.ShloMosaic.ValueIdx Cert.RowLsm

/-- Softmax of row `p` at column `q`, shifted by the row's largest entry. -/
def sm {a b : ℕ} (Y : (⟨2, ![a, b]⟩ : Shape).Idx → EReal) (p : Fin a) (q : Fin b) : EReal :=
  Ideal.div (Ideal.exp (Y (ix2 p q) - rowMax Y p)) (∑ k : Fin b, Ideal.exp (Y (ix2 p k) - rowMax Y p))

/-- The largest entry of a row depends on that row only. -/
theorem rowMax_congr {a a' b : ℕ} (Y : (⟨2, ![a, b]⟩ : Shape).Idx → EReal) (Y' : (⟨2, ![a', b]⟩ : Shape).Idx → EReal)
    (p : Fin a) (p' : Fin a') (h : ∀ k : Fin b, Y (ix2 p k) = Y' (ix2 p' k)) : rowMax Y p = rowMax Y' p' := by
  unfold rowMax
  exact congrArg (Finset.fold max ⊥ · (Finset.univ : Finset (Fin b))) (funext h)

/-- The softmax of a row depends on that row only. -/
theorem sm_congr {a a' b : ℕ} (Y : (⟨2, ![a, b]⟩ : Shape).Idx → EReal) (Y' : (⟨2, ![a', b]⟩ : Shape).Idx → EReal)
    (p : Fin a) (p' : Fin a') (h : ∀ k : Fin b, Y (ix2 p k) = Y' (ix2 p' k)) (q : Fin b) : sm Y p q = sm Y' p' q := by
  unfold sm
  rw [rowMax_congr Y Y' p p' h, h q]
  exact congrArg (Ideal.div _) (Finset.sum_congr rfl fun k _ => by rw [h k])

end Cert.RowSoftmax

end
-- ==== Proof.Spec.lean ====
/-
  What both programs compute, as functions of the three argument arrays q, k, v : [64, 4096, 128] on the extended reals.
  For each batch b:
    logits b (d, e) = ∑ n, k[b, n, d] · (v[b, n, e] · τ),      τ the exact rational 1048576 / 11863283,
    attn b d e      = exp (logits b (d, e) - M d) / ∑ e', exp (logits b (d, e') - M d),   M d the largest entry of row d,
    out b r e       = ∑ d, q[b, r, d] · attn b d e.
  The second result is attn, the first is out.
-/
import Idealize.ShloMosaic.Lib.ValueIdx
import Idealize.ShloMosaic.PureOps.Ideal.Laws
import proofs.«106405_j65223373357266_2_alg».proof.Proof.LibRowSoftmax

noncomputable section

namespace Cert.Spec

open Idealize.ShloMosaic Idealize.ShloMosaic.ValueIdx Cert.RowSoftmax

/-- An argument array: one extended real per (batch, row, column). -/
abbrev Arr : Type := (⟨3, ![64, 4096, 128]⟩ : Shape).Idx → EReal

/-- The reciprocal of the temperature, as the exact rational the kernel's constant is read as. -/
def invT : EReal := ((1048576 / 11863283 : ℝ) : EReal)

/-- Batch b's 128 × 128 array of logits: column d of k against column e of v scaled by 1/temperature, summed over the 4096 rows. -/
def logits (k v : Arr) (b : Fin 64) : (⟨2, ![128, 128]⟩ : Shape).Idx → EReal :=
  fun j => ∑ n : Fin 4096, k (ix3 b n (j 0)) * (v (ix3 b n (j 1)) * invT)

/-- Batch b's attention weights: the softmax of each row of its logits. -/
def attn (k v : Arr) (b : Fin 64) (d e : Fin 128) : EReal := sm (logits k v b) d e

/-- Batch b's output row r: row r of q against the attention weights. -/
def out (q k v : Arr) (b : Fin 64) (r : Fin 4096) (e : Fin 128) : EReal :=
  ∑ d : Fin 128, q (ix3 b r d) * attn k v b d e

/-- The second result as one array [64, 128, 128]. -/
def attnArr (k v : Arr) : (⟨3, ![64, 128, 128]⟩ : Shape).Idx → EReal := fun i => attn k v (i 0) (i 1) (i 2)

/-- The first result as one array [64, 4096, 128]. -/
def outArr (q k v : Arr) : (⟨3, ![64, 4096, 128]⟩ : Shape).Idx → EReal := fun i => out q k v (i 0) (i 1) (i 2)

end Cert.Spec

end
-- ==== Proof.LibVecSoftmax.lean ====
/-
  Row-wise softmax in the form shifted by the row maximum, in the vector unit's spelling: the row maximum (a lane
  reduction by max from -∞, cast to a column and broadcast along the rows) is subtracted, the exponential taken, and
  the result divided entrywise by its own row sums (a lane reduction by + from 0, cast to a column and broadcast along
  the rows). Read at an entry (p, q) this is  exp (v p q - M p) / ∑ k, exp (v p k - M p),  M p the largest entry of row p.
-/
import proofs.«106405_j65223373357266_2_alg».proof.Proof.LibRowSoftmax

noncomputable section

namespace Cert.RowSoftmax

open Idealize.ShloMosaic Idealize.ShloMosaic.ValueIdx Cert.RowLsm

/-- THE VECTOR UNIT'S SPELLING of the shifted softmax at an entry: the exponential of the array less its broadcast row
    maximum, divided by the broadcast column of that exponential's row sums, is `sm`. -/
theorem vec_sm {a b : ℕ} (v : FVec Ideal ⟨2, ![a, b]⟩ .f32)
    (hred : (⟨2, ![a, b]⟩ : Shape).Reduces [1] (⟨1, ![a]⟩ : Shape)) (hφ : FKind.Formats .f32)
    (hmax : (0xFF800000#32 : BitVec 32) = FKind.maximumf.neutral .f32 hφ)
    (hadd : (0x00000000#32 : BitVec 32) = FKind.add.neutral .f32 hφ)
    (hcast : (⟨1, ![a]⟩ : Shape).ShapeCasts ⟨2, ![a, 1]⟩)
    (hbc : (⟨2, ![a, 1]⟩ : Shape).Broadcasts ⟨2, ![a, b]⟩) (p : Fin a) (q : Fin b) :
    divf (exp (subf v (broadcastTo ⟨2, ![a, b]⟩ (shapeCast ⟨2, ![a, 1]⟩
        (multiReduction .maximumf [1] (⟨1, ![a]⟩ : Shape) v 0xFF800000#32 hred hφ hmax) hcast) hbc)))
      (broadcastTo ⟨2, ![a, b]⟩ (shapeCast ⟨2, ![a, 1]⟩
        (multiReduction .add [1] (⟨1, ![a]⟩ : Shape)
          (exp (subf v (broadcastTo ⟨2, ![a, b]⟩ (shapeCast ⟨2, ![a, 1]⟩
            (multiReduction .maximumf [1] (⟨1, ![a]⟩ : Shape) v 0xFF800000#32 hred hφ hmax) hcast) hbc)))
          0x00000000#32 hred hφ hadd) hcast) hbc) (ix2 p q)
      = sm v p q := by
  rw [divf_apply, Cert.Attn.Layout.broadcastTo_a1_ab_apply, Cert.Attn.Layout.shapeCast_a_a1_apply,
    Cert.Attn.Layout.rowSum_apply]
  unfold sm
  have he : ∀ k : Fin b, exp (subf v (broadcastTo ⟨2, ![a, b]⟩ (shapeCast ⟨2, ![a, 1]⟩
      (multiReduction .maximumf [1] (⟨1, ![a]⟩ : Shape) v 0xFF800000#32 hred hφ hmax) hcast) hbc)) (ix2 p k)
        = Ideal.exp (v (ix2 p k) - rowMax v p) := fun k => by
    show Ideal.exp (subf v _ (ix2 p k)) = _
    rw [subf_apply, vec_rowMax]
  rw [he q]
  exact congrArg (Ideal.div _) (Finset.sum_congr rfl fun k _ => he k)

end Cert.RowSoftmax

end
-- ==== Proof.LibMatmulIx.lean ====
/-
  A matrix product of an `[a, K]` array with a `[K, b]` array read at the entry `(p, q)`, at the ideal values:
  the sum over `k` of the left operand's `(p, k)` entry times the right operand's `(k, q)` entry — for a kernel's
  product accumulated into the zero splat (`matmul_zero_ix2`) and for the host's product (`dotGeneral_ix2`), stated
  for any dimension numbers that contract the left operand's columns with the right operand's rows (the four
  coordinate facts `hl0 … hr1`, which a literal record proves by evaluation).
-/
import Idealize.ShloMosaic.Lib.ValueIdx
import Idealize.ShloMosaic.PureOps.Ideal.Laws

namespace MatmulIx

open Idealize.ShloMosaic Idealize.ShloMosaic.ValueIdx

variable {a K b : ℕ} {φ₁ φ₂ : FTy}

/-- The contraction's sum re-indexed by the one contracted coordinate. -/
theorem sum_contr (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : (⟨2, ![a, K]⟩ : Shape).Idx → EReal) (w : (⟨2, ![K, b]⟩ : Shape).Idx → EReal) (p : Fin a) (q : Fin b) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun c => Fin.ext (by
    match c with
    | ⟨0, _⟩ => exact hl0 _ _
    | ⟨1, _⟩ => exact (hl1 _ _).trans hk)
  have er : D.rhsIdx (ix2 p q) ((contrEquiv1 D K hr hs).symm k) = ix2 k q := funext fun c => Fin.ext (by
    match c with
    | ⟨0, _⟩ => exact (hr0 _ _).trans hk
    | ⟨1, _⟩ => exact hr1 _ _)
  rw [el, er]

/-- A kernel's matrix product into the zero splat, at `(p, q)`: the row of the left operand times the column of the
    right one. -/
theorem matmul_zero_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    matmul D prec x w (constant (F := Ideal) ⟨2, ![a, b]⟩ .f32 0x00000000#32) (ix2 p q)
      = ∑ k : Fin K, x (ix2 p k) * w (ix2 k q) :=
  (Ideal.matmul_constant_zero_apply D prec x w (ix2 p q)).trans (sum_contr D hr hs hl0 hl1 hr0 hr1 x w p q)

/-- The host's matrix product at `(p, q)`: the same sum. -/
theorem dotGeneral_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    Host.dotGeneral D prec x w (ix2 p q) = ∑ k : Fin K, x (ix2 p k) * w (ix2 k q) :=
  (Ideal.dotGeneral_apply D prec .single x w (ix2 p q)).trans (sum_contr D hr hs hl0 hl1 hr0 hr1 x w p q)

end MatmulIx
-- ==== Proof.LibContract.lean ====
/-
  A contraction over ONE axis read at an output index, at the ideal values: whatever the operands' ranks and whichever
  axes are batched, kept or contracted, the product's entry is the sum over the contracted coordinate `k` of the left
  operand at an index `L k` times the right operand at an index `R k`, once the dimension numbers' two index maps are
  known at each `k` (`hL`, `hR`: for a literal record, coordinate by coordinate, by evaluation). Stated for the
  raw sum (`sum_contr`), for a kernel's product into the zero splat (`matmul_zero`) and for the host's (`dotGeneral`).
-/
import Idealize.ShloMosaic.Lib.ValueIdx
import Idealize.ShloMosaic.PureOps.Ideal.Laws

namespace Contract1

open Idealize.ShloMosaic Idealize.ShloMosaic.ValueIdx

variable {sl sr so : Shape} {φ₁ φ₂ : FTy}

/-- The contraction's sum re-indexed by the one contracted coordinate. -/
theorem sum_contr (D : DotDims sl sr so) (K : ℕ) (hr : D.contr.rank = 1) (hs : D.contr.size ⟨0, by omega⟩ = K)
    (x : sl.Idx → EReal) (w : sr.Idx → EReal) (j : so.Idx) (L : Fin K → sl.Idx) (R : Fin K → sr.Idx)
    (hL : ∀ (k : Fin K) (q : D.contr.Idx), (q ⟨0, by omega⟩).val = k.val → D.lhsIdx j q = L k)
    (hR : ∀ (k : Fin K) (q : D.contr.Idx), (q ⟨0, by omega⟩).val = k.val → D.rhsIdx j q = R k) :
    ∑ q : D.contr.Idx, x (D.lhsIdx j q) * w (D.rhsIdx j q) = ∑ k : Fin K, x (L k) * w (R k) := by
  rw [← Equiv.sum_comp (contrEquiv1 D K hr hs).symm]
  refine Finset.sum_congr rfl fun k _ => ?_
  have hk := contrEquiv1_symm_val D K hr hs k
  rw [hL k _ hk, hR k _ hk]

/-- A kernel's product into the zero splat at an output index. -/
theorem matmul_zero (D : DotDims sl sr so) (K : ℕ) (hr : D.contr.rank = 1) (hs : D.contr.size ⟨0, by omega⟩ = K)
    (prec : Option ContractPrecision) (x : FVec Ideal sl φ₁) (w : FVec Ideal sr φ₂) (j : so.Idx)
    (L : Fin K → sl.Idx) (R : Fin K → sr.Idx)
    (hL : ∀ (k : Fin K) (q : D.contr.Idx), (q ⟨0, by omega⟩).val = k.val → D.lhsIdx j q = L k)
    (hR : ∀ (k : Fin K) (q : D.contr.Idx), (q ⟨0, by omega⟩).val = k.val → D.rhsIdx j q = R k) :
    matmul D prec x w (constant (F := Ideal) so .f32 0x00000000#32) j = ∑ k : Fin K, x (L k) * w (R k) :=
  (Ideal.matmul_constant_zero_apply D prec x w j).trans (sum_contr D K hr hs x w j L R hL hR)

/-- The host's product at an output index: the same sum. -/
theorem dotGeneral (D : DotDims sl sr so) (K : ℕ) (hr : D.contr.rank = 1) (hs : D.contr.size ⟨0, by omega⟩ = K)
    (prec : Option ContractPrecision) (x : FVec Ideal sl φ₁) (w : FVec Ideal sr φ₂) (j : so.Idx)
    (L : Fin K → sl.Idx) (R : Fin K → sr.Idx)
    (hL : ∀ (k : Fin K) (q : D.contr.Idx), (q ⟨0, by omega⟩).val = k.val → D.lhsIdx j q = L k)
    (hR : ∀ (k : Fin K) (q : D.contr.Idx), (q ⟨0, by omega⟩).val = k.val → D.rhsIdx j q = R k) :
    Host.dotGeneral D prec x w j = ∑ k : Fin K, x (L k) * w (R k) :=
  (Ideal.dotGeneral_apply D prec .single x w j).trans (sum_contr D K hr hs x w j L R hL hR)

end Contract1
-- ==== Proof.Payloads.lean ====
/-
  The kernel's pure values read at an entry, on the extended reals.
  With τ the exact rational 1048576 / 11863283:
    the zero splat is 0 at every entry;
    the accumulation step adds to the entry (d, e) of the running array the sum over the block's 1024 rows j of
      kc[j, d] · (vc[j, e] · τ)   (column d of one block against column e of the other scaled by τ);
    the normalisation is the row softmax shifted by the row's largest entry,
      exp (x[d, e] - M d) / ∑ e', exp (x[d, e'] - M d),
    also when a leading axis of size one is put in front of it;
    the output step is row r of a block against the normalised array, ∑ d, qc[r, d] · softmax(x)[d, e].
  Narrowing to the sixteen-bit format changes nothing on the extended reals, and a cast to the same shape is the identity.
-/
import proofs.«106405_j65223373357266_2_alg».proof.Proof.Gen.KernelIdeal.Skeleton
import proofs.«106405_j65223373357266_2_alg».proof.Proof.Spec
import proofs.«106405_j65223373357266_2_alg».proof.Proof.LibVecSoftmax
import proofs.«106405_j65223373357266_2_alg».proof.Proof.LibMatmulIx
import proofs.«106405_j65223373357266_2_alg».proof.Proof.LibContract
import Idealize.ShloMosaic.PureOps.IdealRules
import Idealize.ShloMosaic.Lib.ValueLayout
import Idealize.ShloMosaic.Lib.Pipeline.Value

noncomputable section

namespace Cert.Payloads

open Idealize.ShloMosaic Idealize.ShloMosaic.ValueIdx Cert.KernelIdeal Cert.KernelIdeal.Gen Cert.RowSoftmax

/-- The named reciprocal temperature denotes the rational 1048576 / 11863283 on the extended reals. -/
theorem named_invT :
    Named.named (F := Ideal) Cert.KernelIdeal.κ "inv_temp" (φ := .f32) 0x3DB504F3#32 = Cert.Spec.invT :=
  IdealRules.named_const.ideal_named_scalar _ _ _ _ rfl

/-! ## The zero splat -/

theorem pay5_apply (d e : Fin 128) : k0_pay5 (F := Ideal) (ix2 d e) = 0 := by
  unfold k0_pay5
  rw [shapeCast_self]
  exact Ideal.ofBits_zero_f32

theorem pay10_apply (d e : Fin 128) : k0_pay10 (F := Ideal) (ix2 d e) = 0 := by
  unfold k0_pay10
  rw [shapeCast_self]
  exact Ideal.ofBits_zero_f32

/-! ## The accumulation step: both blocks contracted along their rows -/

/-- Axis 0 of the left operand is the contracted one: its coordinate is the contraction's. -/
theorem lhs_acc_0 (i : S128x128.Idx) (q : dot_S1024x128_S1024x128_S128x128_0_0_1_1_n_n.contr.Idx) :
    (dot_S1024x128_S1024x128_S128x128_0_0_1_1_n_n.lhsIdx i q 0).val = (q ⟨0, by decide⟩).val :=
  dot_S1024x128_S1024x128_S128x128_0_0_1_1_n_n.lhsIdx_val_of_single rfl i q

/-- Axis 1 of the left operand is kept: its coordinate is the result's row. -/
theorem lhs_acc_1 (i : S128x128.Idx) (q : dot_S1024x128_S1024x128_S128x128_0_0_1_1_n_n.contr.Idx) :
    (dot_S1024x128_S1024x128_S128x128_0_0_1_1_n_n.lhsIdx i q 1).val = (i 0).val := by
  unfold DotDims.lhsIdx
  rw [dif_neg (show ¬(1 : Fin S1024x128.rank) ∈ dot_S1024x128_S1024x128_S128x128_0_0_1_1_n_n.lhsBatch by decide),
    dif_pos (show (1 : Fin S1024x128.rank) ∈ dot_S1024x128_S1024x128_S128x128_0_0_1_1_n_n.lhsNonContracting by decide)]
  rfl

/-- Axis 0 of the right operand is the contracted one. -/
theorem rhs_acc_0 (i : S128x128.Idx) (q : dot_S1024x128_S1024x128_S128x128_0_0_1_1_n_n.contr.Idx) :
    (dot_S1024x128_S1024x128_S128x128_0_0_1_1_n_n.rhsIdx i q 0).val = (q ⟨0, by decide⟩).val :=
  dot_S1024x128_S1024x128_S128x128_0_0_1_1_n_n.rhsIdx_val_of_single rfl i q

/-- Axis 1 of the right operand is kept: its coordinate is the result's column. -/
theorem rhs_acc_1 (i : S128x128.Idx) (q : dot_S1024x128_S1024x128_S128x128_0_0_1_1_n_n.contr.Idx) :
    (dot_S1024x128_S1024x128_S128x128_0_0_1_1_n_n.rhsIdx i q 1).val = (i 1).val := by
  unfold DotDims.rhsIdx
  rw [dif_neg (show ¬(1 : Fin S1024x128.rank) ∈ dot_S1024x128_S1024x128_S128x128_0_0_1_1_n_n.rhsBatch by decide),
    dif_pos (show (1 : Fin S1024x128.rank) ∈ dot_S1024x128_S1024x128_S128x128_0_0_1_1_n_n.rhsNonContracting by decide)]
  rfl

/-- The left operand of the product contracting axis 0 of both blocks is read at (k, d). -/
theorem lhs_acc (d e : Fin 128) (k : Fin 1024)
    (q : dot_S1024x128_S1024x128_S128x128_0_0_1_1_n_n.contr.Idx) (hq : (q ⟨0, by decide⟩).val = k.val) :
    dot_S1024x128_S1024x128_S128x128_0_0_1_1_n_n.lhsIdx (ix2 d e) q = ix2 k d :=
  funext fun a => Fin.ext (by
    match a with
    | ⟨0, _⟩ => exact (lhs_acc_0 _ _).trans hq
    | ⟨1, _⟩ => exact lhs_acc_1 _ _)

/-- The right operand of the same product is read at (k, e). -/
theorem rhs_acc (d e : Fin 128) (k : Fin 1024)
    (q : dot_S1024x128_S1024x128_S128x128_0_0_1_1_n_n.contr.Idx) (hq : (q ⟨0, by decide⟩).val = k.val) :
    dot_S1024x128_S1024x128_S128x128_0_0_1_1_n_n.rhsIdx (ix2 d e) q = ix2 k e :=
  funext fun a => Fin.ext (by
    match a with
    | ⟨0, _⟩ => exact (rhs_acc_0 _ _).trans hq
    | ⟨1, _⟩ => exact rhs_acc_1 _ _)

theorem pay6_apply (kc vc : FVec Ideal S1024x128 .f32) (acc : FVec Ideal S128x128 .f32) (d e : Fin 128) :
    k0_pay6 (F := Ideal) kc vc acc (ix2 d e)
      = acc (ix2 d e) + ∑ j : Fin 1024, kc (ix2 j d) * (vc (ix2 j e) * Cert.Spec.invT) := by
  unfold k0_pay6
  rw [shapeCast_self, addf_apply]
  refine congrArg (acc (ix2 d e) + ·) ?_
  refine (Contract1.matmul_zero dot_S1024x128_S1024x128_S128x128_0_0_1_1_n_n 1024 rfl rfl none _ _ (ix2 d e)
    (fun k => ix2 k d) (fun k => ix2 k e) (fun k q hq => lhs_acc d e k q hq) (fun k q hq => rhs_acc d e k q hq)).trans ?_
  refine Finset.sum_congr rfl fun k _ => ?_
  rw [truncf_apply, truncf_apply, mulf_apply, broadcast_apply, named_invT]

/-! ## The normalisation -/

theorem pay7_apply (x : FVec Ideal S128x128 .f32) (d e : Fin 128) :
    k0_pay7 (F := Ideal) x (ix2 d e) = sm x d e := by
  unfold k0_pay7
  exact vec_sm x reduces_S128x128_S128 (.inl rfl) rfl rfl shapeCasts_S128_S128x1 broadcasts_S128x1_S128x128 d e

theorem pay8_apply (x : FVec Ideal S128x128 .f32) (d e : Fin 128) :
    k0_pay8 (F := Ideal) x (ix3 (0 : Fin 1) d e) = sm x d e := by
  unfold k0_pay8
  rw [shapeCast_ab_1ab_apply]
  exact pay7_apply x d e

/-! ## The output step: a block's rows against the normalised array -/

theorem pay9_apply (x : FVec Ideal S128x128 .f32) (qc : FVec Ideal S1024x128 .f32) (r : Fin 1024) (e : Fin 128) :
    k0_pay9 (F := Ideal) x qc (ix2 r e) = ∑ d : Fin 128, qc (ix2 r d) * sm x d e := by
  unfold k0_pay9
  refine (MatmulIx.matmul_zero_ix2 dot_S1024x128_S128x128_S1024x128_1_0_0_1_n_n rfl rfl
    (fun i q => by
      unfold DotDims.lhsIdx
      rw [dif_neg (show ¬(0 : Fin S1024x128.rank) ∈ dot_S1024x128_S128x128_S1024x128_1_0_0_1_n_n.lhsBatch by decide),
        dif_pos (show (0 : Fin S1024x128.rank) ∈ dot_S1024x128_S128x128_S1024x128_1_0_0_1_n_n.lhsNonContracting by decide)]
      rfl)
    (fun i q => dot_S1024x128_S128x128_S1024x128_1_0_0_1_n_n.lhsIdx_val_of_single rfl i q)
    (fun i q => dot_S1024x128_S128x128_S1024x128_1_0_0_1_n_n.rhsIdx_val_of_single rfl i q)
    (fun i q => by
      unfold DotDims.rhsIdx
      rw [dif_neg (show ¬(1 : Fin S128x128.rank) ∈ dot_S1024x128_S128x128_S1024x128_1_0_0_1_n_n.rhsBatch by decide),
        dif_pos (show (1 : Fin S128x128.rank) ∈ dot_S1024x128_S128x128_S1024x128_1_0_0_1_n_n.rhsNonContracting by decide)]
      rfl)
    none _ _ r e).trans ?_
  refine Finset.sum_congr rfl fun k _ => ?_
  rw [truncf_apply, truncf_apply, pay7_apply]

/-! ## The same four functions under their other names -/

section
variable {F : FTy → Type} [FloatOps F] [Named F]

theorem pay1_eq (kc vc : Vec F S1024x128 .f32) (acc : Vec F S128x128 .f32) : k0_pay1 kc vc acc = k0_pay6 kc vc acc := rfl
theorem pay2_eq (x : Vec F S128x128 .f32) : k0_pay2 x = k0_pay7 x := rfl
theorem pay3_eq (x : Vec F S128x128 .f32) : k0_pay3 x = k0_pay8 x := rfl
theorem pay4_eq (x : Vec F S128x128 .f32) (qc : Vec F S1024x128 .f32) : k0_pay4 x qc = k0_pay9 x qc := rfl

end

end Cert.Payloads

end
-- ==== Proof.LibSweepSum.lean ====
/-
  Sums taken block by block, in sweeps that restart.

  A sum over N = B · S consecutive rows is the sum, over the B blocks, of each block's S rows (`sum_blocks`). A running
  total that restarts from zero at every step whose number is a multiple of L, and otherwise adds the step's term to the
  previous total, holds at position k of a sweep the sum of the sweep's first k + 1 terms (`sweep_prefix`). Together:
  two sweeps of 32 steps, each step adding one block of 1024 consecutive rows, end with totals that add up to the sum
  over all 65536 rows (`sweep_total`). Only that addition is commutative and associative with neutral element 0 is
  used.
-/
import Mathlib.Algebra.BigOperators.Fin
import Mathlib.Algebra.BigOperators.Intervals
import Mathlib.Logic.Equiv.Fin.Basic

open scoped BigOperators

namespace Cert.LibSweepSum

/-- Row p of block n of size S lies below B · S. -/
theorem blk_lt {B S : ℕ} (n : Fin B) (p : Fin S) : S * n.val + p.val < B * S :=
  calc S * n.val + p.val < S * n.val + S := Nat.add_lt_add_left p.isLt _
    _ = S * (n.val + 1) := (Nat.mul_succ S n.val).symm
    _ ≤ S * B := Nat.mul_le_mul_left S n.isLt
    _ = B * S := Nat.mul_comm S B

/-- A sum over B · S consecutive rows is the sum over the B blocks of each block's S rows. -/
theorem sum_blocks {M : Type*} [AddCommMonoid M] (B S N : ℕ) (hN : N = B * S) (f : Fin N → M) :
    ∑ r : Fin N, f r = ∑ n : Fin B, ∑ p : Fin S, f ⟨S * n.val + p.val, hN ▸ blk_lt n p⟩ := by
  subst hN
  rw [← Equiv.sum_comp finProdFinEquiv f, Fintype.sum_prod_type]
  refine Finset.sum_congr rfl fun n _ => Finset.sum_congr rfl fun p _ => congrArg f (Fin.ext ?_)
  show (finProdFinEquiv (n, p)).val = S * n.val + p.val
  rw [finProdFinEquiv_apply_val, Nat.add_comm]

/-- A running total `A` that restarts at the multiples of `L` (there it is `0` plus the step's term `g`) and otherwise
    adds the step's term to the previous total: at position `k` of the sweep that starts at `a` it is the sum of that
    sweep's first `k + 1` terms. -/
theorem sweep_prefix {M : Type*} [AddCommMonoid M] (g A : ℕ → M) (L N : ℕ)
    (hfirst : ∀ n, n < N → n % L = 0 → A n = 0 + g n)
    (hnext : ∀ n, n < N → n % L ≠ 0 → A n = A (n - 1) + g n)
    (a : ℕ) (ha : a % L = 0) (k : ℕ) (hk : k < L) (h : a + k < N) :
    A (a + k) = ∑ m ∈ Finset.range (k + 1), g (a + m) := by
  induction k with
  | zero =>
    rw [Nat.add_zero, hfirst a (by omega) ha, zero_add, Finset.sum_range_one, Nat.add_zero]
  | succ k ih =>
    obtain ⟨c, rfl⟩ := Nat.dvd_of_mod_eq_zero ha
    have hne : (L * c + (k + 1)) % L ≠ 0 := by
      rw [Nat.mul_add_mod, Nat.mod_eq_of_lt hk]
      exact Nat.succ_ne_zero k
    rw [hnext _ h hne, show L * c + (k + 1) - 1 = L * c + k from by omega, ih (by omega) (by omega),
      Finset.sum_range_succ _ (k + 1)]

/-- Two sweeps of 32 steps over 64 blocks of 1024 consecutive rows: the running total restarts from zero at steps 0 and
    32 and each step adds its block's sum; the totals after steps 31 and 63 add up to the sum over all 65536 rows. -/
theorem sweep_total {M : Type*} [AddCommMonoid M] (f : Fin 65536 → M) (acc : (n : ℕ) → n < 64 → M)
    (hfirst : ∀ n (hn : n < 64), n % 32 = 0 → acc n hn = 0 + ∑ p : Fin 1024, f ⟨1024 * n + p.val, by omega⟩)
    (hnext : ∀ n (hn : n < 64), n % 32 ≠ 0 →
      acc n hn = acc (n - 1) (by omega) + ∑ p : Fin 1024, f ⟨1024 * n + p.val, by omega⟩) :
    acc 31 (by omega) + acc 63 (by omega) = ∑ r : Fin 65536, f r := by
  -- the step's term and the running total as functions of every natural number
  let g : ℕ → M := fun n => if hn : n < 64 then ∑ p : Fin 1024, f ⟨1024 * n + p.val, by omega⟩ else 0
  let A : ℕ → M := fun n => if hn : n < 64 then acc n hn else 0
  have hg : ∀ n (hn : n < 64), g n = ∑ p : Fin 1024, f ⟨1024 * n + p.val, by omega⟩ := fun n hn => dif_pos hn
  have hA : ∀ n (hn : n < 64), A n = acc n hn := fun n hn => dif_pos hn
  have h0 : ∀ n, n < 64 → n % 32 = 0 → A n = 0 + g n := fun n hn hz => by
    rw [hA n hn, hg n hn]; exact hfirst n hn hz
  have h1 : ∀ n, n < 64 → n % 32 ≠ 0 → A n = A (n - 1) + g n := fun n hn hz => by
    rw [hA n hn, hA (n - 1) (by omega), hg n hn]; exact hnext n hn hz
  have e1 : A 31 = ∑ m ∈ Finset.range 32, g (0 + m) := sweep_prefix g A 32 64 h0 h1 0 rfl 31 (by omega) (by omega)
  have e2 : A 63 = ∑ m ∈ Finset.range 32, g (32 + m) := sweep_prefix g A 32 64 h0 h1 32 rfl 31 (by omega) (by omega)
  rw [← hA 31 (by omega), ← hA 63 (by omega), e1, e2]
  simp only [Nat.zero_add]
  rw [← Finset.sum_range_add g 32 32, ← Fin.sum_univ_eq_sum_range g (32 + 32),
    sum_blocks 64 1024 65536 (by decide) f]
  exact Finset.sum_congr rfl fun n _ => hg n.val n.isLt

end Cert.LibSweepSum
-- ==== Proof.LogitsIdeal.lean ====
/-
  The running array of each of the two accumulations ends as the full sum over the rows.
  The recursion starts from the zero array and, at step k = 0, 1, 2, 3, adds to the entry (d, e) the sum over the 1024 rows
  j of block k of  a[1024 k + j, d] · (b[1024 k + j, e] · τ),  τ the reciprocal temperature. After the four steps the
  entry is  ((S₀ + S₁) + S₂) + S₃  with  Sₖ  block k's sum, and the sum over all 4096 = 4 · 1024 rows splits into the same
  four blocks in the same order. Nothing is used of addition on the extended reals beyond  0 + x = x.
  What each block holds is taken as a hypothesis: row j of block k is row 1024 k + j of the whole.
-/
import proofs.«106405_j65223373357266_2_alg».proof.Proof.ScratchIdeal
import proofs.«106405_j65223373357266_2_alg».proof.Proof.Payloads
import proofs.«106405_j65223373357266_2_alg».proof.Proof.LibSweepSum
import proofs.«106405_j65223373357266_2_alg».proof.Proof.Spec

noncomputable section

namespace Cert.KernelIdeal.Logits

open Cert.KernelIdeal Cert.KernelIdeal.Gen Cert.KernelIdeal.Body Cert.Payloads Idealize.ShloMosaic Idealize.ShloMosaic.ValueIdx

/-! ## The first of the two accumulations -/

/-- One step of the recursion at an entry: block k's 1024 rows are added to the running value. -/
theorem acc1_step (a2 a3 : Memref sig .tc .vmem S2x4096x128 .f32)
    (X2 : BufTy.Contents (Elt Ideal) a2.view.ty) (X3 : BufTy.Contents (Elt Ideal) a3.view.ty)
    (f1 f2 : Fin 4096 → Fin 128 → EReal)
    (h1 : ∀ (k : Fin k0_t1_loop.trips) (j : Fin 1024) (d : Fin 128) (h : 1024 * k.val + j.val < 4096),
      ck1 a2 X2 k (ix2 j d) = f1 ⟨1024 * k.val + j.val, h⟩ d)
    (h2 : ∀ (k : Fin k0_t1_loop.trips) (j : Fin 1024) (e : Fin 128) (h : 1024 * k.val + j.val < 4096),
      ck1 a3 X3 k (ix2 j e) = f2 ⟨1024 * k.val + j.val, h⟩ e)
    (d e : Fin 128) (k : ℕ) (hk : k < k0_t1_loop.trips) (hb : ∀ j : Fin 1024, 1024 * k + j.val < 4096) :
    acc1 (F := Ideal) a2 a3 X2 X3 (k + 1) (ix2 d e)
      = acc1 (F := Ideal) a2 a3 X2 X3 k (ix2 d e)
        + ∑ j : Fin 1024, f1 ⟨1024 * k + j.val, hb j⟩ d * (f2 ⟨1024 * k + j.val, hb j⟩ e * Cert.Spec.invT) := by
  rw [acc1, dif_pos hk, pay6_apply]
  refine congrArg (_ + ·) (Finset.sum_congr rfl fun j _ => ?_)
  exact congrArg₂ (· * ·) (h1 ⟨k, hk⟩ j d (hb j)) (congrArg (· * Cert.Spec.invT) (h2 ⟨k, hk⟩ j e (hb j)))

/-- After the four steps the recursion holds, at every entry, the sum over all 4096 rows. -/
theorem acc1_sum (a2 a3 : Memref sig .tc .vmem S2x4096x128 .f32)
    (X2 : BufTy.Contents (Elt Ideal) a2.view.ty) (X3 : BufTy.Contents (Elt Ideal) a3.view.ty)
    (f1 f2 : Fin 4096 → Fin 128 → EReal)
    (h1 : ∀ (k : Fin k0_t1_loop.trips) (j : Fin 1024) (d : Fin 128) (h : 1024 * k.val + j.val < 4096),
      ck1 a2 X2 k (ix2 j d) = f1 ⟨1024 * k.val + j.val, h⟩ d)
    (h2 : ∀ (k : Fin k0_t1_loop.trips) (j : Fin 1024) (e : Fin 128) (h : 1024 * k.val + j.val < 4096),
      ck1 a3 X3 k (ix2 j e) = f2 ⟨1024 * k.val + j.val, h⟩ e)
    (d e : Fin 128) :
    acc1 (F := Ideal) a2 a3 X2 X3 4 (ix2 d e) = ∑ n : Fin 4096, f1 n d * (f2 n e * Cert.Spec.invT) := by
  have t0 : (0 : ℕ) < k0_t1_loop.trips := by rw [trips1]; decide
  have t1 : (1 : ℕ) < k0_t1_loop.trips := by rw [trips1]; decide
  have t2 : (2 : ℕ) < k0_t1_loop.trips := by rw [trips1]; decide
  have t3 : (3 : ℕ) < k0_t1_loop.trips := by rw [trips1]; decide
  have step := acc1_step a2 a3 X2 X3 f1 f2 h1 h2 d e
  show acc1 (F := Ideal) a2 a3 X2 X3 (3 + 1) (ix2 d e) = _
  rw [step 3 t3 (fun j => by have := j.isLt; omega)]
  show acc1 (F := Ideal) a2 a3 X2 X3 (2 + 1) (ix2 d e) + _ = _
  rw [step 2 t2 (fun j => by have := j.isLt; omega)]
  show acc1 (F := Ideal) a2 a3 X2 X3 (1 + 1) (ix2 d e) + _ + _ = _
  rw [step 1 t1 (fun j => by have := j.isLt; omega)]
  show acc1 (F := Ideal) a2 a3 X2 X3 (0 + 1) (ix2 d e) + _ + _ + _ = _
  rw [step 0 t0 (fun j => by have := j.isLt; omega)]
  rw [show acc1 (F := Ideal) a2 a3 X2 X3 0 (ix2 d e) = 0 from pay5_apply d e, zero_add,
    Cert.LibSweepSum.sum_blocks 4 1024 4096 (by decide) (fun n : Fin 4096 => f1 n d * (f2 n e * Cert.Spec.invT)),
    Fin.sum_univ_four]
  rfl

/-! ## The second of the two accumulations -/

/-- One step of the recursion at an entry: block k's 1024 rows are added to the running value. -/
theorem acc3_step (a2 a3 : Memref sig .tc .vmem S2x4096x128 .f32)
    (X2 : BufTy.Contents (Elt Ideal) a2.view.ty) (X3 : BufTy.Contents (Elt Ideal) a3.view.ty)
    (f1 f2 : Fin 4096 → Fin 128 → EReal)
    (h1 : ∀ (k : Fin k0_t3_loop.trips) (j : Fin 1024) (d : Fin 128) (h : 1024 * k.val + j.val < 4096),
      ck3 a2 X2 k (ix2 j d) = f1 ⟨1024 * k.val + j.val, h⟩ d)
    (h2 : ∀ (k : Fin k0_t3_loop.trips) (j : Fin 1024) (e : Fin 128) (h : 1024 * k.val + j.val < 4096),
      ck3 a3 X3 k (ix2 j e) = f2 ⟨1024 * k.val + j.val, h⟩ e)
    (d e : Fin 128) (k : ℕ) (hk : k < k0_t3_loop.trips) (hb : ∀ j : Fin 1024, 1024 * k + j.val < 4096) :
    acc3 (F := Ideal) a2 a3 X2 X3 (k + 1) (ix2 d e)
      = acc3 (F := Ideal) a2 a3 X2 X3 k (ix2 d e)
        + ∑ j : Fin 1024, f1 ⟨1024 * k + j.val, hb j⟩ d * (f2 ⟨1024 * k + j.val, hb j⟩ e * Cert.Spec.invT) := by
  rw [acc3, dif_pos hk, pay1_eq, pay6_apply]
  refine congrArg (_ + ·) (Finset.sum_congr rfl fun j _ => ?_)
  exact congrArg₂ (· * ·) (h1 ⟨k, hk⟩ j d (hb j)) (congrArg (· * Cert.Spec.invT) (h2 ⟨k, hk⟩ j e (hb j)))

/-- After the four steps the recursion holds, at every entry, the sum over all 4096 rows. -/
theorem acc3_sum (a2 a3 : Memref sig .tc .vmem S2x4096x128 .f32)
    (X2 : BufTy.Contents (Elt Ideal) a2.view.ty) (X3 : BufTy.Contents (Elt Ideal) a3.view.ty)
    (f1 f2 : Fin 4096 → Fin 128 → EReal)
    (h1 : ∀ (k : Fin k0_t3_loop.trips) (j : Fin 1024) (d : Fin 128) (h : 1024 * k.val + j.val < 4096),
      ck3 a2 X2 k (ix2 j d) = f1 ⟨1024 * k.val + j.val, h⟩ d)
    (h2 : ∀ (k : Fin k0_t3_loop.trips) (j : Fin 1024) (e : Fin 128) (h : 1024 * k.val + j.val < 4096),
      ck3 a3 X3 k (ix2 j e) = f2 ⟨1024 * k.val + j.val, h⟩ e)
    (d e : Fin 128) :
    acc3 (F := Ideal) a2 a3 X2 X3 4 (ix2 d e) = ∑ n : Fin 4096, f1 n d * (f2 n e * Cert.Spec.invT) := by
  have t0 : (0 : ℕ) < k0_t3_loop.trips := by rw [trips3]; decide
  have t1 : (1 : ℕ) < k0_t3_loop.trips := by rw [trips3]; decide
  have t2 : (2 : ℕ) < k0_t3_loop.trips := by rw [trips3]; decide
  have t3 : (3 : ℕ) < k0_t3_loop.trips := by rw [trips3]; decide
  have step := acc3_step a2 a3 X2 X3 f1 f2 h1 h2 d e
  show acc3 (F := Ideal) a2 a3 X2 X3 (3 + 1) (ix2 d e) = _
  rw [step 3 t3 (fun j => by have := j.isLt; omega)]
  show acc3 (F := Ideal) a2 a3 X2 X3 (2 + 1) (ix2 d e) + _ = _
  rw [step 2 t2 (fun j => by have := j.isLt; omega)]
  show acc3 (F := Ideal) a2 a3 X2 X3 (1 + 1) (ix2 d e) + _ + _ = _
  rw [step 1 t1 (fun j => by have := j.isLt; omega)]
  show acc3 (F := Ideal) a2 a3 X2 X3 (0 + 1) (ix2 d e) + _ + _ + _ = _
  rw [step 0 t0 (fun j => by have := j.isLt; omega)]
  rw [show acc3 (F := Ideal) a2 a3 X2 X3 0 (ix2 d e) = 0 from pay10_apply d e, zero_add,
    Cert.LibSweepSum.sum_blocks 4 1024 4096 (by decide) (fun n : Fin 4096 => f1 n d * (f2 n e * Cert.Spec.invT)),
    Fin.sum_univ_four]
  rfl

end Cert.KernelIdeal.Logits

end
-- ==== Proof.ValueIdeal.lean ====
/-
  The kernel's two results at Ideal, index by index. At grid point t the body handles batches 2t and 2t + 1. For each,
  the scratch ends the accumulating loop holding the logits of that batch (four chunk sums making the sum over all 4096
  rows); the attention buffer's batch slice holds their row-wise softmax; the output buffer's batch slice holds, row by
  row, the row of q against those weights. Each point's written-back blocks are therefore the blocks of the two
  specification arrays, the blocks cover the arrays, and so the arrays end equal to the specification.
-/
import proofs.«106405_j65223373357266_2_alg».proof.Proof.ObligationIdeal
import proofs.«106405_j65223373357266_2_alg».proof.Proof.BlocksIdeal
import proofs.«106405_j65223373357266_2_alg».proof.Proof.LogitsIdeal
import proofs.«106405_j65223373357266_2_alg».proof.Proof.Payloads
import proofs.«106405_j65223373357266_2_alg».proof.Proof.Spec

set_option maxRecDepth 16384
set_option maxHeartbeats 4000000

noncomputable section

namespace Cert.KernelIdeal.Val

open Cert.KernelIdeal Cert.KernelIdeal.Gen Cert.KernelIdeal.Body Cert.KernelIdeal.Slices Cert.KernelIdeal.Logits
open Cert.Payloads Cert.Spec Cert.RowSoftmax
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The three argument arrays as the region finds them, as arrays of extended reals. -/
abbrev Qa (c : Dev nD) : Arr := V m c main_arg0
abbrev Ka (c : Dev nD) : Arr := V m c main_arg1
abbrev Va (c : Dev nD) : Arr := V m c main_arg2

/-! ## The grid: point t handles batches 2 t and 2 t + 1 -/

theorem N32 : cfg0.N = 32 := N_0

/-- Every window's block index at point t is (t, 0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-- The batch that row bi of point t's blocks belongs to. -/
def bat (t : Fin cfg0.N) (bi : Fin 2) : Fin 64 :=
  ⟨2 * t.val + bi.val, by have := t.isLt; have := N32; have := bi.isLt; omega⟩

/-! ## The input blocks at an index -/

theorem iblk0_apply (c : Dev nD) (t : Fin cfg0.N) (bi : Fin 2) (r : Fin 4096) (d : Fin 128) :
    iblk m c 0 t (ix3 bi r d) = V m c main_arg0 (ix3 (bat t bi) r d) := by
  obtain ⟨⟨e0, e1, e2⟩, -⟩ := idx_facts t
  show V m c main_arg0 (((cfg0.win 0).blk t).view.emb (ix3 bi r d)) = _
  refine congrArg _ (funext fun a => Fin.ext ?_)
  match a with
  | ⟨0, _⟩ => show win0_0.index t (0 : Fin 3) * 2 + 1 * bi.val = 2 * t.val + bi.val; omega
  | ⟨1, _⟩ => show win0_0.index t (1 : Fin 3) * 4096 + 1 * r.val = r.val; omega
  | ⟨2, _⟩ => show win0_0.index t (2 : Fin 3) * 128 + 1 * d.val = d.val; omega

theorem iblk1_apply (c : Dev nD) (t : Fin cfg0.N) (bi : Fin 2) (r : Fin 4096) (d : Fin 128) :
    iblk m c 1 t (ix3 bi r d) = V m c main_arg1 (ix3 (bat t bi) r d) := by
  obtain ⟨-, ⟨e0, e1, e2⟩, -⟩ := idx_facts t
  show V m c main_arg1 (((cfg0.win 1).blk t).view.emb (ix3 bi r d)) = _
  refine congrArg _ (funext fun a => Fin.ext ?_)
  match a with
  | ⟨0, _⟩ => show win0_1.index t (0 : Fin 3) * 2 + 1 * bi.val = 2 * t.val + bi.val; omega
  | ⟨1, _⟩ => show win0_1.index t (1 : Fin 3) * 4096 + 1 * r.val = r.val; omega
  | ⟨2, _⟩ => show win0_1.index t (2 : Fin 3) * 128 + 1 * d.val = d.val; omega

theorem iblk2_apply (c : Dev nD) (t : Fin cfg0.N) (bi : Fin 2) (r : Fin 4096) (d : Fin 128) :
    iblk m c 2 t (ix3 bi r d) = V m c main_arg2 (ix3 (bat t bi) r d) := by
  obtain ⟨-, -, ⟨e0, e1, e2⟩, -⟩ := idx_facts t
  show V m c main_arg2 (((cfg0.win 2).blk t).view.emb (ix3 bi r d)) = _
  refine congrArg _ (funext fun a => Fin.ext ?_)
  match a with
  | ⟨0, _⟩ => show win0_2.index t (0 : Fin 3) * 2 + 1 * bi.val = 2 * t.val + bi.val; omega
  | ⟨1, _⟩ => show win0_2.index t (1 : Fin 3) * 4096 + 1 * r.val = r.val; omega
  | ⟨2, _⟩ => show win0_2.index t (2 : Fin 3) * 128 + 1 * d.val = d.val; omega

/-! ## A chunk of a whole buffer holding a block -/

section Chunks

variable (a : Memref sig .tc .vmem S2x4096x128 .f32) (ha : a.IsWhole) (x : Vec Ideal S2x4096x128 .f32)

theorem ck1_unread (k : Fin k0_t1_loop.trips) (j : Fin 1024) (d : Fin 128) (h : 1024 * k.val + j.val < 4096) :
    ck1 a (ha.unread x) k (ix2 j d) = x (ix3 (0 : Fin 2) ⟨1024 * k.val + j.val, h⟩ d) := by
  rw [ck1_apply, read_sl0]; exact congrFun (ha.read_unread x) _
theorem ck2_unread (k : Fin k0_t2_loop.trips) (j : Fin 1024) (d : Fin 128) (h : 1024 * k.val + j.val < 4096) :
    ck2 a (ha.unread x) k (ix2 j d) = x (ix3 (0 : Fin 2) ⟨1024 * k.val + j.val, h⟩ d) := by
  rw [ck2_apply, read_sl0]; exact congrFun (ha.read_unread x) _
theorem ck3_unread (k : Fin k0_t3_loop.trips) (j : Fin 1024) (d : Fin 128) (h : 1024 * k.val + j.val < 4096) :
    ck3 a (ha.unread x) k (ix2 j d) = x (ix3 (1 : Fin 2) ⟨1024 * k.val + j.val, h⟩ d) := by
  rw [ck3_apply, read_sl1]; exact congrFun (ha.read_unread x) _
theorem ck4_unread (k : Fin k0_t4_loop.trips) (j : Fin 1024) (d : Fin 128) (h : 1024 * k.val + j.val < 4096) :
    ck4 a (ha.unread x) k (ix2 j d) = x (ix3 (1 : Fin 2) ⟨1024 * k.val + j.val, h⟩ d) := by
  rw [ck4_apply, read_sl1]; exact congrFun (ha.read_unread x) _

end Chunks

/-! ## The logits of a point's two batches -/

/-- The staged contents the body's triple is applied at, for point t. -/
abbrev Xk (c : Dev nD) (t : Fin cfg0.N) := (hs0_1 t).unread (iblk m c 1 t)
abbrev Xv (c : Dev nD) (t : Fin cfg0.N) := (hs0_2 t).unread (iblk m c 2 t)
abbrev Xq (c : Dev nD) (t : Fin cfg0.N) := (hs0_0 t).unread (iblk m c 0 t)

theorem V5_logits (c : Dev nD) (t : Fin cfg0.N) (d e : Fin 128) :
    V5 (ms0_1 t) (ms0_2 t) scM (Xk m c t) (Xv m c t) (ix2 d e) = logits (Ka m c) (Va m c) (bat t 0) (ix2 d e) := by
  rw [V5_eq, acc1_sum (ms0_1 t) (ms0_2 t) (Xk m c t) (Xv m c t)
    (fun n d => iblk m c 1 t (ix3 (0 : Fin 2) n d)) (fun n e => iblk m c 2 t (ix3 (0 : Fin 2) n e))
    (fun k j d h => ck1_unread (ms0_1 t) (hs0_1 t) (iblk m c 1 t) k j d h)
    (fun k j e h => ck1_unread (ms0_2 t) (hs0_2 t) (iblk m c 2 t) k j e h) d e]
  show _ = ∑ n : Fin 4096, Ka m c (ix3 (bat t 0) n d) * (Va m c (ix3 (bat t 0) n e) * invT)
  refine Finset.sum_congr rfl fun n _ => ?_
  beta_reduce
  rw [iblk1_apply, iblk2_apply]

theorem V25_logits (c : Dev nD) (t : Fin cfg0.N) (d e : Fin 128) :
    V25 (ms0_1 t) (ms0_2 t) scM (Xk m c t) (Xv m c t) (ix2 d e) = logits (Ka m c) (Va m c) (bat t 1) (ix2 d e) := by
  rw [V25_eq, acc3_sum (ms0_1 t) (ms0_2 t) (Xk m c t) (Xv m c t)
    (fun n d => iblk m c 1 t (ix3 (1 : Fin 2) n d)) (fun n e => iblk m c 2 t (ix3 (1 : Fin 2) n e))
    (fun k j d h => ck3_unread (ms0_1 t) (hs0_1 t) (iblk m c 1 t) k j d h)
    (fun k j e h => ck3_unread (ms0_2 t) (hs0_2 t) (iblk m c 2 t) k j e h) d e]
  show _ = ∑ n : Fin 4096, Ka m c (ix3 (bat t 1) n d) * (Va m c (ix3 (bat t 1) n e) * invT)
  refine Finset.sum_congr rfl fun n _ => ?_
  beta_reduce
  rw [iblk1_apply, iblk2_apply]

/-! ## What the body leaves in the outputs' buffers, at an index -/

theorem row_split (r : Fin 4096) : (⟨1024 * (r.val / 1024) + r.val % 1024, by have := r.isLt; omega⟩ : Fin 4096) = r :=
  Fin.ext (Nat.div_add_mod r.val 1024)

/-- The attention buffer after the body at point t: each batch's attention weights. -/
theorem out4_apply (c : Dev nD) (t : Fin cfg0.N) (bi : Fin 2) (d e : Fin 128) :
    (out4 m c t (ix3 bi d e) : EReal) = attn (Ka m c) (Va m c) (bat t bi) d e := by
  unfold out4 attn
  obtain ⟨b, hb⟩ := bi
  match b, hb with
  | 0, _ =>
    show ((ms0_4 t).view.read (Elt Ideal) _ (ix3 (0 : Fin 2) d e) : EReal) = _
    rw [C5_read0, pay8_apply]
    exact sm_congr _ _ d d (fun k => V5_logits m c t d k) e
  | 1, _ =>
    show ((ms0_4 t).view.read (Elt Ideal) _ (ix3 (1 : Fin 2) d e) : EReal) = _
    rw [C5_read1, pay3_eq, pay8_apply]
    exact sm_congr _ _ d d (fun k => V25_logits m c t d k) e

/-- The output's staging buffer after the body at point t: each batch's rows of q against its attention weights. -/
theorem out3_apply (c : Dev nD) (t : Fin cfg0.N) (bi : Fin 2) (r : Fin 4096) (e : Fin 128) :
    (out3 m c t (ix3 bi r e) : EReal) = out (Qa m c) (Ka m c) (Va m c) (bat t bi) r e := by
  have hq : r.val / 1024 < 4 := by have := r.isLt; omega
  have hq2 : r.val / 1024 < k0_t2_loop.trips := by rw [show k0_t2_loop.trips = 4 from by decide]; exact hq
  have hq4 : r.val / 1024 < k0_t4_loop.trips := by rw [show k0_t4_loop.trips = 4 from by decide]; exact hq
  have hrow : 1024 * (r.val / 1024) + r.val % 1024 < 4096 := by have := r.isLt; omega
  obtain ⟨b, hb⟩ := bi
  match b, hb with
  | 0, _ =>
    refine (C4_read0 (F := Ideal) (ms0_1 t) (ms0_2 t) scM (Xk m c t) (Xv m c t) (ms0_0 t) (ms0_3 t) (Xq m c t) _ r e hq2).trans ?_
    refine (pay9_apply _ _ _ _).trans ?_
    unfold out attn
    refine Finset.sum_congr rfl fun d _ => ?_
    rw [ck2_unread (ms0_0 t) (hs0_0 t) (iblk m c 0 t) _ _ d hrow]
    rw [show (⟨1024 * (r.val / 1024) + r.val % 1024, hrow⟩ : Fin 4096) = r from row_split r, iblk0_apply]
    exact congrArg _ (sm_congr _ _ d d (fun k => V5_logits m c t d k) e)
  | 1, _ =>
    refine (C4_read1 (F := Ideal) (ms0_1 t) (ms0_2 t) scM (Xk m c t) (Xv m c t) (ms0_0 t) (ms0_3 t) (Xq m c t) _ r e hq4).trans ?_
    rw [pay4_eq]
    refine (pay9_apply _ _ _ _).trans ?_
    unfold out attn
    refine Finset.sum_congr rfl fun d _ => ?_
    rw [ck4_unread (ms0_0 t) (hs0_0 t) (iblk m c 0 t) _ _ d hrow]
    rw [show (⟨1024 * (r.val / 1024) + r.val % 1024, hrow⟩ : Fin 4096) = r from row_split r, iblk0_apply]
    exact congrArg _ (sm_congr _ _ d d (fun k => V25_logits m c t d k) e)

/-! ## From the points' blocks to the arrays -/

/-- Where row bi of point t's output block sits in the first result. -/
theorem blk3_emb (t : Fin cfg0.N) (bi : Fin 2) (r : Fin 4096) (e : Fin 128) :
    ((cfg0.win 3).blk t).view.emb (ix3 bi r e) = (ix3 (bat t bi) r e : S64x4096x128.Idx) := by
  obtain ⟨-, -, -, ⟨e0, e1, e2⟩, -⟩ := idx_facts t
  refine funext fun a => Fin.ext ?_
  match a with
  | ⟨0, _⟩ => show win0_3.index t (0 : Fin 3) * 2 + 1 * bi.val = 2 * t.val + bi.val; omega
  | ⟨1, _⟩ => show win0_3.index t (1 : Fin 3) * 4096 + 1 * r.val = r.val; omega
  | ⟨2, _⟩ => show win0_3.index t (2 : Fin 3) * 128 + 1 * e.val = e.val; omega

/-- Where row bi of point t's attention block sits in the second result. -/
theorem blk4_emb (t : Fin cfg0.N) (bi : Fin 2) (d e : Fin 128) :
    ((cfg0.win 4).blk t).view.emb (ix3 bi d e) = (ix3 (bat t bi) d e : S64x128x128.Idx) := by
  obtain ⟨-, -, -, -, ⟨e0, e1, e2⟩⟩ := idx_facts t
  refine funext fun a => Fin.ext ?_
  match a with
  | ⟨0, _⟩ => show win0_4.index t (0 : Fin 3) * 2 + 1 * bi.val = 2 * t.val + bi.val; omega
  | ⟨1, _⟩ => show win0_4.index t (1 : Fin 3) * 128 + 1 * d.val = d.val; omega
  | ⟨2, _⟩ => show win0_4.index t (2 : Fin 3) * 128 + 1 * e.val = e.val; omega

/-- What point t writes back into the first result is block t of the specification's output array. -/
theorem flushed3_eq (c : Dev nD) (t : Fin cfg0.N) :
    (dats m 0 c).flushed 3 t = ((cfg0.win 3).blk t).view.read (Elt Ideal) (outArr (V m c main_arg0) (V m c main_arg1) (V m c main_arg2)) := by
  show (cfg0.win 3).cut (grid0.coords t) ((dats m 0 c).after 3 t) = _
  rw [after0_3]
  funext j
  obtain ⟨bi, r, e, rfl⟩ : ∃ (bi : Fin 2) (r : Fin 4096) (e : Fin 128), j = ix3 bi r e := ⟨j 0, j 1, j 2, eq_ix3 j⟩
  show out3 m c t (ix3 bi r e) = outArr (V m c main_arg0) (V m c main_arg1) (V m c main_arg2) (((cfg0.win 3).blk t).view.emb (ix3 bi r e))
  rw [out3_apply, blk3_emb]
  rfl

/-- What point t writes back into the second result is block t of the specification's attention array. -/
theorem flushed4_eq (c : Dev nD) (t : Fin cfg0.N) :
    (dats m 0 c).flushed 4 t = ((cfg0.win 4).blk t).view.read (Elt Ideal) (attnArr (V m c main_arg1) (V m c main_arg2)) := by
  show (cfg0.win 4).cut (grid0.coords t) ((dats m 0 c).after 4 t) = _
  rw [after0_4]
  funext j
  obtain ⟨bi, d, e, rfl⟩ : ∃ (bi : Fin 2) (d e : Fin 128), j = ix3 bi d e := ⟨j 0, j 1, j 2, eq_ix3 j⟩
  show out4 m c t (ix3 bi d e) = attnArr (V m c main_arg1) (V m c main_arg2) (((cfg0.win 4).blk t).view.emb (ix3 bi d e))
  rw [out4_apply, blk4_emb]
  rfl

/-- Every index of the first result lies in the block of the point that handles its batch. -/
theorem cover3 (i : S64x4096x128.Idx) : ∃ t : Fin cfg0.N, (cfg0.win 3).flush t = true ∧ i ∈ ((cfg0.win 3).blk t).view.set := by
  have h0 : (i 0).val < 64 := (i 0).isLt
  have h1 : (i 1).val < 4096 := (i 1).isLt
  have h2 : (i 2).val < 128 := (i 2).isLt
  have hN := N32
  let t0 : Fin cfg0.N := ⟨(i 0).val / 2, by omega⟩
  have ht : t0.val = (i 0).val / 2 := rfl
  obtain ⟨e0, e1, e2⟩ := (idx_facts t0).2.2.2.1
  refine ⟨t0, flush0_3 t0, ?_⟩
  show i ∈ ((View.whole main_v0_0).slice (win0_3.rect t0)).set
  rw [View.set_slice_whole, Rect.mem_set_unit]
  intro a
  match a with
  | ⟨0, _⟩ => show win0_3.index t0 (0 : Fin 3) * 2 ≤ (i 0).val ∧ (i 0).val < win0_3.index t0 (0 : Fin 3) * 2 + 2; omega
  | ⟨1, _⟩ => show win0_3.index t0 (1 : Fin 3) * 4096 ≤ (i 1).val ∧ (i 1).val < win0_3.index t0 (1 : Fin 3) * 4096 + 4096; omega
  | ⟨2, _⟩ => show win0_3.index t0 (2 : Fin 3) * 128 ≤ (i 2).val ∧ (i 2).val < win0_3.index t0 (2 : Fin 3) * 128 + 128; omega

/-- Every index of the second result lies in the block of the point that handles its batch. -/
theorem cover4 (i : S64x128x128.Idx) : ∃ t : Fin cfg0.N, (cfg0.win 4).flush t = true ∧ i ∈ ((cfg0.win 4).blk t).view.set := by
  have h0 : (i 0).val < 64 := (i 0).isLt
  have h1 : (i 1).val < 128 := (i 1).isLt
  have h2 : (i 2).val < 128 := (i 2).isLt
  have hN := N32
  let t0 : Fin cfg0.N := ⟨(i 0).val / 2, by omega⟩
  have ht : t0.val = (i 0).val / 2 := rfl
  obtain ⟨e0, e1, e2⟩ := (idx_facts t0).2.2.2.2
  refine ⟨t0, flush0_4 t0, ?_⟩
  show i ∈ ((View.whole main_v0_1).slice (win0_4.rect t0)).set
  rw [View.set_slice_whole, Rect.mem_set_unit]
  intro a
  match a with
  | ⟨0, _⟩ => show win0_4.index t0 (0 : Fin 3) * 2 ≤ (i 0).val ∧ (i 0).val < win0_4.index t0 (0 : Fin 3) * 2 + 2; omega
  | ⟨1, _⟩ => show win0_4.index t0 (1 : Fin 3) * 128 ≤ (i 1).val ∧ (i 1).val < win0_4.index t0 (1 : Fin 3) * 128 + 128; omega
  | ⟨2, _⟩ => show win0_4.index t0 (2 : Fin 3) * 128 ≤ (i 2).val ∧ (i 2).val < win0_4.index t0 (2 : Fin 3) * 128 + 128; omega

/-- The first result after the run is the specification's output array of the argument arrays. -/
theorem final3 (c : Dev nD) : (dats m 0 c).arrAt 3 cfg0.N = outArr (V m c main_arg0) (V m c main_arg1) (V m c main_arg2) :=
  (dats m 0 c).arrAt_eq_of_cover 3 _ (fun t _ => flushed3_eq m c t) (cover3)

/-- The second result after the run is the specification's attention array of the argument arrays. -/
theorem final4 (c : Dev nD) : (dats m 0 c).arrAt 4 cfg0.N = attnArr (V m c main_arg1) (V m c main_arg2) :=
  (dats m 0 c).arrAt_eq_of_cover 4 _ (fun t _ => flushed4_eq m c t) (cover4)

/-! ## The run, read -/

/-- Every weakly fair execution of the idealized kernel terminates with its two results at the specification's arrays of the
    argument arrays, and the argument arrays unchanged. -/
theorem run : θ_run defs (onTc (τ := τ) (main (F := Ideal))) ⟨m, fun _ => 0, ρ⟩ fun r => ∀ c : Dev nD,
      r.2.mem ((c.tc : Thread nD τ).loc main_v0_0) = outArr (m ((c.tc : Thread nD τ).loc main_arg0)) (m ((c.tc : Thread nD τ).loc main_arg1)) (m ((c.tc : Thread nD τ).loc main_arg2))
      ∧ r.2.mem ((c.tc : Thread nD τ).loc main_v0_1) = attnArr (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 3).trans (final3 m c), ((h c).1 4).trans (final4 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Val

end
-- ==== Proof.RefSide.lean ====
/-
  The reference program's two results are the specification's arrays, on the extended reals.
  Read one operation at a time at an index (b, d, e):
    the division of v by the float 11.3137083, whose exact value is 11863283 / 1048576, is the product with
      τ = 1048576 / 11863283 on every extended real (a division by a nonzero real is the product with its reciprocal);
    the first contraction is then the logits entry  ∑ n, k[b, n, d] · (v[b, n, e] · τ);
    the reduction with max from -∞ over the last axis is the fold of max from ⊥ over row d of batch b's logits,
      and the further maximum against -∞ leaves it as it is (max ⊥ x = x);
    the sum from 0 over the last axis is the sum of the row's exponentials;
    the quotient is the softmax entry, and the second contraction is  ∑ d, q[b, r, d] · attn b d e.
  Nothing here needs an entry to be finite.
-/
import proofs.«106405_j65223373357266_2_alg».proof.Proof.Gen.ReferenceIdeal.Read
import proofs.«106405_j65223373357266_2_alg».proof.Proof.Spec

noncomputable section

namespace Cert.RefSide

open Idealize.ShloMosaic Idealize.ShloMosaic.ValueIdx Cert.ReferenceIdeal Cert.ReferenceIdeal.Gen
  Cert.ReferenceIdeal.Read Cert.Spec Cert.RowSoftmax Cert.RowLsm

/-- An argument array of the reference program, on the extended reals. -/
abbrev Arg : Type := (⟨S64x4096x128, .f32⟩ : BufTy).Contents (Elt Ideal)

/-! ## The temperature -/

/-- The float word 0x413504F3 (printed 11.3137083) is the real 11863283 / 1048576. -/
theorem ofBits_temp : Ideal.ofBits .f32 0x413504F3#32 = ((11863283 / 1048576 : ℝ) : EReal) := by
  simp [Ideal.ofBits, Ideal.ieee, -EReal.coe_mul]; norm_num

/-- Dividing by that word is multiplying by τ, at every extended real. -/
theorem div_temp (x : EReal) : Ideal.div x (Ideal.ofBits .f32 0x413504F3#32) = x * invT := by
  rw [ofBits_temp, Ideal.div_coe (by norm_num : (11863283 / 1048576 : ℝ) ≠ 0)]
  unfold invT
  norm_num

/-! ## The operations, read at an index given by coordinates -/

/-- v divided by the temperature, at any index. -/
theorem v1_apply (x2 : Arg) (i : S64x4096x128.Idx) : val_main_v1 (F := Ideal) x2 i = x2 i * invT := by
  rw [val_main_v1_apply, val_main_v0_apply, val_main_cst_apply]
  exact div_temp _

/-- The first contraction at (b, d, e) is the logits entry (d, e) of batch b. -/
theorem v2_apply (x1 x2 : Arg) (b : Fin 64) (d e : Fin 128) :
    val_main_v2 (F := Ideal) x1 x2 (ix3 b d e) = logits x1 x2 b (ix2 d e) := by
  rw [val_main_v2_apply]
  unfold logits
  refine Finset.sum_congr rfl fun n _ => ?_
  rw [v1_apply]
  have hl : lidx_main_v2 (ix3 b d e) n = ix3 b n d :=
    funext fun a => by match a with | ⟨0, _⟩ => rfl | ⟨1, _⟩ => rfl | ⟨2, _⟩ => rfl
  have hr : ridx_main_v2 (ix3 b d e) n = ix3 b n e :=
    funext fun a => by match a with | ⟨0, _⟩ => rfl | ⟨1, _⟩ => rfl | ⟨2, _⟩ => rfl
  rw [hl, hr]

/-- The reduced index (b, d) with column k put back on the last axis is (b, d, k). -/
theorem lift_last (h : S64x128x128.Reduces [2] S64x128) (b : Fin 64) (d : Fin 128) (k : Fin (S64x128x128.size 2)) :
    h.lift (ix2 b d) k = ix3 b d (⟨k.val, k.isLt⟩ : Fin 128) := by
  funext c; apply Fin.ext
  fin_cases c <;> rfl

/-- The reduction with max from -∞ over the last axis, at (b, d), is the largest entry of row d of batch b's logits. -/
theorem v3_apply (x1 x2 : Arg) (b : Fin 64) (d : Fin 128) :
    val_main_v3 (F := Ideal) x1 x2 (ix2 b d) = rowMax (logits x1 x2 b) d := by
  have h : S64x128x128.Reduces [2] S64x128 := by decide
  unfold val_main_v3
  refine (Host.reduce_eq_fold_single FloatOps.maximumf _ _ reducesTo_S64x128x128_S64x128_d2 h h_S_ (ix2 b d)).trans ?_
  unfold rowMax
  have h0 : val_main_cst_0 (F := Ideal) (Shape.Idx.first h_S_) = (⊥ : EReal) := ofBits_neg_inf
  rw [h0]
  exact congrArg (Finset.fold max (⊥ : EReal) · (Finset.univ : Finset (Fin 128)))
    (funext fun k => by
      show val_main_v2 (F := Ideal) x1 x2 (h.lift (ix2 b d) k) = _
      rw [lift_last h b d k]
      exact v2_apply x1 x2 b d _)

/-- The further maximum against -∞ changes nothing. -/
theorem v5_apply (x1 x2 : Arg) (b : Fin 64) (d : Fin 128) :
    val_main_v5 (F := Ideal) x1 x2 (ix2 b d) = rowMax (logits x1 x2 b) d := by
  rw [val_main_v5_apply, val_main_v4_apply, val_main_cst_1_apply, v3_apply]
  show max (Ideal.ofBits .f32 0xFF800000#32) _ = _
  rw [ofBits_neg_inf]
  exact max_bot_left _

/-- The row maximum broadcast back along the last axis. -/
theorem v7_apply (x1 x2 : Arg) (b : Fin 64) (d e : Fin 128) :
    val_main_v7 (F := Ideal) x1 x2 (ix3 b d e) = rowMax (logits x1 x2 b) d := by
  rw [val_main_v7_apply, val_main_v6_apply]
  have hi : idx_main_v6 (idx_main_v7 (ix3 b d e)) = ix2 b d :=
    funext fun a => by match a with | ⟨0, _⟩ => rfl | ⟨1, _⟩ => rfl
  rw [hi, v5_apply]

/-- The exponential of the shifted logits entry. -/
theorem v9_apply (x1 x2 : Arg) (b : Fin 64) (d e : Fin 128) :
    val_main_v9 (F := Ideal) x1 x2 (ix3 b d e)
      = Ideal.exp (logits x1 x2 b (ix2 d e) - rowMax (logits x1 x2 b) d) := by
  rw [val_main_v9_apply, val_main_v8_apply, v2_apply, v7_apply]
  rfl

/-- The sum from 0 over the last axis is the sum of the row's exponentials. -/
theorem v10_apply (x1 x2 : Arg) (b : Fin 64) (d : Fin 128) :
    val_main_v10 (F := Ideal) x1 x2 (ix2 b d)
      = ∑ k : Fin 128, Ideal.exp (logits x1 x2 b (ix2 d k) - rowMax (logits x1 x2 b) d) := by
  rw [val_main_v10_apply, val_main_cst_2_apply]
  show Ideal.ofBits .f32 0x00000000#32 + _ = _
  rw [Ideal.ofBits_zero_f32, zero_add]
  refine Finset.sum_congr rfl fun k _ => ?_
  have hi : idx_main_v10 (ix2 b d) k = ix3 b d k :=
    funext fun a => by match a with | ⟨0, _⟩ => rfl | ⟨1, _⟩ => rfl | ⟨2, _⟩ => rfl
  rw [hi, v9_apply]

/-- The row sum broadcast back along the last axis. -/
theorem v12_apply (x1 x2 : Arg) (b : Fin 64) (d e : Fin 128) :
    val_main_v12 (F := Ideal) x1 x2 (ix3 b d e)
      = ∑ k : Fin 128, Ideal.exp (logits x1 x2 b (ix2 d k) - rowMax (logits x1 x2 b) d) := by
  rw [val_main_v12_apply, val_main_v11_apply]
  have hi : idx_main_v11 (idx_main_v12 (ix3 b d e)) = ix2 b d :=
    funext fun a => by match a with | ⟨0, _⟩ => rfl | ⟨1, _⟩ => rfl
  rw [hi, v10_apply]

/-- The quotient at (b, d, e) is the attention weight. -/
theorem v13_apply (x1 x2 : Arg) (b : Fin 64) (d e : Fin 128) :
    val_main_v13 (F := Ideal) x1 x2 (ix3 b d e) = attn x1 x2 b d e := by
  rw [val_main_v13_apply, v9_apply, v12_apply]
  rfl

/-- The second contraction at (b, r, e) is the output entry. -/
theorem v14_apply (x0 x1 x2 : Arg) (b : Fin 64) (r : Fin 4096) (e : Fin 128) :
    val_main_v14 (F := Ideal) x0 x1 x2 (ix3 b r e) = out x0 x1 x2 b r e := by
  rw [val_main_v14_apply]
  unfold out
  refine Finset.sum_congr rfl fun k _ => ?_
  have hl : lidx_main_v14 (ix3 b r e) k = ix3 b r k :=
    funext fun a => by match a with | ⟨0, _⟩ => rfl | ⟨1, _⟩ => rfl | ⟨2, _⟩ => rfl
  have hr : ridx_main_v14 (ix3 b r e) k = ix3 b k e :=
    funext fun a => by match a with | ⟨0, _⟩ => rfl | ⟨1, _⟩ => rfl | ⟨2, _⟩ => rfl
  rw [hl, hr, v13_apply]

/-! ## The two results as whole arrays -/

/-- The reference's second result is the array of attention weights. -/
theorem ref_attn (x1 x2 : Arg) : val_main_v13 (F := Ideal) x1 x2 = attnArr x1 x2 := by
  funext i
  obtain ⟨b, d, e, rfl⟩ : ∃ b d e, i = ix3 b d e := ⟨_, _, _, eq_ix3 i⟩
  exact v13_apply x1 x2 b d e

/-- The reference's first result is the output array. -/
theorem ref_out (x0 x1 x2 : Arg) : val_main_v14 (F := Ideal) x0 x1 x2 = outArr x0 x1 x2 := by
  funext i
  obtain ⟨b, r, e, rfl⟩ : ∃ b r e, i = ix3 b r e := ⟨_, _, _, eq_ix3 i⟩
  exact v14_apply x0 x1 x2 b r e

end Cert.RefSide

end
-- ==== Proof.lean ====
/-
  The certificate's five claims.

  The kernel computes, for each of 64 batches, attn = softmax over rows of kᵀ · (v · τ) and out = q · attn, two batches per
  grid point; the reference computes softmax over rows of kᵀ · (v / T) and q · attn with whole-array operations. At the
  ideal values the kernel's constant τ is read as the exact reciprocal 1048576 / 11863283 of the reference's divisor
  T = 11863283 / 1048576, and dividing an extended real by a nonzero real is multiplying by its reciprocal, so the two
  logits agree term by term; the kernel's four chunk sums make the reference's one sum over 4096 rows (addition of
  extended reals is commutative and associative); both spell the same shifted softmax; and the second product is the same
  sum. No finiteness of the inputs is used.

  The frames of the kernel, as printed and idealized, come from one run of the body at a generic grid point with the four
  counted loops gone through by invariants; the reference's frame is its run with the results dropped.
-/
import proofs.«106405_j65223373357266_2_alg».proof.Defs
import proofs.«106405_j65223373357266_2_alg».proof.Proof.Gen.Kernel
import proofs.«106405_j65223373357266_2_alg».proof.Proof.Gen.KernelIdeal
import proofs.«106405_j65223373357266_2_alg».proof.Proof.Gen.ReferenceIdeal
import proofs.«106405_j65223373357266_2_alg».proof.Proof.Gen.Pre_finite_inputs
import proofs.«106405_j65223373357266_2_alg».proof.Proof.ObligationBits
import proofs.«106405_j65223373357266_2_alg».proof.Proof.ValueIdeal
import proofs.«106405_j65223373357266_2_alg».proof.Proof.RefSide
import Idealize.ShloMosaic.Adequacy
import Idealize.ShloMosaic.Init

noncomputable section

namespace Cert.Proof

open Idealize.ShloMosaic Idealize.SL.Sem

theorem frame_p : Cert.frame_Kernel := fun m ρ _ => Cert.Kernel.Body.frame (F := Bits) m ρ

theorem frame_pi : Cert.frame_KernelIdeal := fun m ρ _ => Cert.KernelIdeal.Body.frame (F := Ideal) m ρ

theorem frame_ri : Cert.frame_ReferenceIdeal := fun m ρ _ =>
  (θ_run Cert.ReferenceIdeal.defs _ _).mono (fun _ h c => (h c).2.2) (Cert.ReferenceIdeal.Value.run (F := Ideal) m ρ)

/-- The ideal pass named the kernel's constant at its two printed sites; at the ideal values the name denotes the table's
    rational. -/
theorem preserves : Cert.preserves_Kernel_KernelIdeal :=
  ⟨IdealRules.named_const.statement Cert.KernelIdeal.κ "inv_temp" .f32 0x3DB504F3#32 ((1048576 / 11863283 : ℝ) : EReal) rfl,
   IdealRules.named_const.statement Cert.KernelIdeal.κ "inv_temp" .f32 0x3DB504F3#32 ((1048576 / 11863283 : ℝ) : EReal) rfl⟩

/-- Both programs end with the specification's two arrays of the argument arrays. -/
theorem algebraic : Cert.algebraic_KernelIdeal_ReferenceIdeal := by
  intro m ρ m' ρ' _ hagree
  refine ⟨_, _, Cert.KernelIdeal.Val.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2]
    exact (Cert.ReferenceIdeal.Read.val_main_v14_eq _ _ _).trans (Cert.RefSide.ref_out _ _ _)
  · rw [(hagree c).2.1, (hagree c).2.2]
    exact (Cert.ReferenceIdeal.Read.val_main_v13_eq _ _).trans (Cert.RefSide.ref_attn _ _)

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
